-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x50 : Shape := ⟨3, ![64, 512, 50]⟩
abbrev S2x32768 : Shape := ⟨2, ![2, 32768]⟩
abbrev S32768 : Shape := ⟨1, ![32768]⟩
abbrev S2x50x32 : Shape := ⟨3, ![2, 50, 32]⟩
abbrev S32 : Shape := ⟨1, ![32]⟩
abbrev S2x32x32 : Shape := ⟨3, ![2, 32, 32]⟩
abbrev S16384x256 : Shape := ⟨2, ![16384, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S64x512x50 : S_.BroadcastsInDim S64x512x50 (![] : Fin 0 → Fin S64x512x50.rank)
  reducesTo_S64x512x50_S_d0_1_2 : S64x512x50.ReducesTo [0, 1, 2] S_
  h_S_ : 0 < S_.numel
  bcast_S_S32768 : S_.BroadcastsInDim S32768 (![] : Fin 0 → Fin S32768.rank)
  reducesTo_S32768_S_d0 : S32768.ReducesTo [0] S_
  bcast_S_S2x50x32 : S_.BroadcastsInDim S2x50x32 (![] : Fin 0 → Fin S2x50x32.rank)
  reducesTo_S2x50x32_S_d0_1_2 : S2x50x32.ReducesTo [0, 1, 2] S_
  bcast_S_S32 : S_.BroadcastsInDim S32 (![] : Fin 0 → Fin S32.rank)
  reducesTo_S32_S_d0 : S32.ReducesTo [0] S_
  bcast_S_S2x32x32 : S_.BroadcastsInDim S2x32x32 (![] : Fin 0 → Fin S2x32x32.rank)
  reducesTo_S2x32x32_S_d0_1_2 : S2x32x32.ReducesTo [0, 1, 2] S_
  bcast_S_S16384x256 : S_.BroadcastsInDim S16384x256 (![] : Fin 0 → Fin S16384x256.rank)
  reducesTo_S16384x256_S_d0_1 : S16384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x32768 : S_.BroadcastsInDim S2x32768 (![] : Fin 0 → Fin S2x32768.rank)
  reducesTo_S2x32768_S_d0_1 : S2x32768.ReducesTo [0, 1] S_

variable [Facts]

def fn_part6 {F : FTy → Type} [FloatOps F] (main_arg1 : IVec S2x32768 32) (main_v98 : IVec S_ 1) (main_v101 : IVec S_ 1) : IVec S_ 1 :=
  let main_v102 : IVec S_ 1 := andi main_v98 main_v101
  let main_c_40 : IVec S_ 32 := constantI S_ 32 512#32
  let main_v103 : IVec S2x32768 32 := broadcastInDim S2x32768 ![] bcast_S_S2x32768 main_c_40
  let main_v104 : IVec S2x32768 1 := cmpi .slt main_arg1 main_v103
  let main_c_41 : IVec S_ 1 := constantI S_ 1 1#1
  let main_v105 : IVec S_ 1 := (fun x v => Host.reduce IntOp.andi x v reducesTo_S2x32768_S_d0_1 h_S_) main_v104 main_c_41
  let main_v106 : IVec S_ 1 := andi main_v102 main_v105
  main_v106

def fn_part5 {F : FTy → Type} [FloatOps F] (main_arg1 : IVec S2x32768 32) (main_arg19 : FVec F S128x2 .f32) (main_arg20 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x2 .f32 := Host.absf main_arg19
  let main_cst_34 : FVec F S_ .f32 := constant S_ .f32 0x7F800000#32
  let main_v90 : FVec F S128x2 .f32 := broadcastInDim S128x2 ![] bcast_S_S128x2 main_cst_34
  let main_v91 : IVec S128x2 1 := cmpf .olt main_v89 main_v90
  let main_c_35 : IVec S_ 1 := constantI S_ 1 1#1
  let main_v92 : IVec S_ 1 := (fun x v => Host.reduce IntOp.andi x v reducesTo_S128x2_S_d0_1 h_S_) main_v91 main_c_35
  let main_v93 : IVec S_ 1 := andi main_v88 main_v92
  let main_v94 : FVec F S2 .f32 := Host.absf main_arg20
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_c_38 : IVec S_ 32 := constantI S_ 32 0#32
  let main_v99 : IVec S2x32768 32 := broadcastInDim S2x32768 ![] bcast_S_S2x32768 main_c_38
  let main_v100 : IVec S2x32768 1 := cmpi .sge main_arg1 main_v99
  let main_c_39 : IVec S_ 1 := constantI S_ 1 1#1
  let main_v101 : IVec S_ 1 := (fun x v => Host.reduce IntOp.andi x v reducesTo_S2x32768_S_d0_1 h_S_) main_v100 main_c_39
  fn_part6 (F := F) main_arg1 main_v98 main_v101

def fn_part4 {F : FTy → Type} [FloatOps F] (main_arg1 : IVec S2x32768 32) (main_arg15 : FVec F S16384x256 .f32) (main_arg16 : FVec F S256 .f32) (main_arg17 : FVec F S256x128 .f32) (main_arg18 : FVec F S128 .f32) (main_arg19 : FVec F S128x2 .f32) (main_arg20 : FVec F S2 .f32) (main_v63 : IVec S_ 1) (main_v67 : IVec S_ 1) : IVec S_ 1 :=
  let main_v68 : IVec S_ 1 := andi main_v63 main_v67
  let main_v69 : FVec F S16384x256 .f32 := Host.absf main_arg15
  let main_cst_26 : FVec F S_ .f32 := constant S_ .f32 0x7F800000#32
  let main_v70 : FVec F S16384x256 .f32 := broadcastInDim S16384x256 ![] bcast_S_S16384x256 main_cst_26
  let main_v71 : IVec S16384x256 1 := cmpf .olt main_v69 main_v70
  let main_c_27 : IVec S_ 1 := constantI S_ 1 1#1
  let main_v72 : IVec S_ 1 := (fun x v => Host.reduce IntOp.andi x v reducesTo_S16384x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg17
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg1 main_arg19 main_arg20 main_v83 main_v84 main_cst_32

def fn_part3 {F : FTy → Type} [FloatOps F] (main_arg1 : IVec S2x32768 32) (main_arg12 : FVec F S32 .f32) (main_arg13 : FVec F S2x32x32 .f32) (main_arg14 : FVec F S32 .f32) (main_arg15 : FVec F S16384x256 .f32) (main_arg16 : FVec F S256 .f32) (main_arg17 : FVec F S256x128 .f32) (main_arg18 : FVec F S128 .f32) (main_arg19 : FVec F S128x2 .f32) (main_arg20 : FVec F S2 .f32) (main_v48 : IVec S_ 1) (main_v49 : FVec F S2x32x32 .f32) (main_v50 : FVec F S2x32x32 .f32) : IVec S_ 1 :=
  let main_v51 : IVec S2x32x32 1 := cmpf .olt main_v49 main_v50
  let main_c_19 : IVec S_ 1 := constantI S_ 1 1#1
  let main_v52 : IVec S_ 1 := (fun x v => Host.reduce IntOp.andi x v reducesTo_S2x32x32_S_d0_1_2 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S2x32x32 .f32 := Host.absf main_arg13
  let main_cst_22 : FVec F S_ .f32 := constant S_ .f32 0x7F800000#32
  let main_v60 : FVec F S2x32x32 .f32 := broadcastInDim S2x32x32 ![] bcast_S_S2x32x32 main_cst_22
  let main_v61 : IVec S2x32x32 1 := cmpf .olt main_v59 main_v60
  let main_c_23 : IVec S_ 1 := constantI S_ 1 1#1
  let main_v62 : IVec S_ 1 := (fun x v => Host.reduce IntOp.andi x v reducesTo_S2x32x32_S_d0_1_2 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg15 main_arg16 main_arg17 main_arg18 main_arg19 main_arg20 main_v63 main_v67

def fn_part2 {F : FTy → Type} [FloatOps F] (main_arg1 : IVec S2x32768 32) (main_arg8 : FVec F S32 .f32) (main_arg9 : FVec F S2x32x32 .f32) (main_arg10 : FVec F S32 .f32) (main_arg11 : FVec F S2x32x32 .f32) (main_arg12 : FVec F S32 .f32) (main_arg13 : FVec F S2x32x32 .f32) (main_arg14 : FVec F S32 .f32) (main_arg15 : FVec F S16384x256 .f32) (main_arg16 : FVec F S256 .f32) (main_arg17 : FVec F S256x128 .f32) (main_arg18 : FVec F S128 .f32) (main_arg19 : FVec F S128x2 .f32) (main_arg20 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S2x32x32 .f32 := Host.absf main_arg9
  let main_cst_14 : FVec F S_ .f32 := constant S_ .f32 0x7F800000#32
  let main_v40 : FVec F S2x32x32 .f32 := broadcastInDim S2x32x32 ![] bcast_S_S2x32x32 main_cst_14
  let main_v41 : IVec S2x32x32 1 := cmpf .olt main_v39 main_v40
  let main_c_15 : IVec S_ 1 := constantI S_ 1 1#1
  let main_v42 : IVec S_ 1 := (fun x v => Host.reduce IntOp.andi x v reducesTo_S2x32x32_S_d0_1_2 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2x32x32 .f32 := Host.absf main_arg11
  let main_cst_18 : FVec F S_ .f32 := constant S_ .f32 0x7F800000#32
  let main_v50 : FVec F S2x32x32 .f32 := broadcastInDim S2x32x32 ![] bcast_S_S2x32x32 main_cst_18
  fn_part3 (F := F) main_arg1 main_arg12 main_arg13 main_arg14 main_arg15 main_arg16 main_arg17 main_arg18 main_arg19 main_arg20 main_v48 main_v49 main_v50

def fn_part1 {F : FTy → Type} [FloatOps F] (main_arg1 : IVec S2x32768 32) (main_arg5 : FVec F S2x32x32 .f32) (main_arg6 : FVec F S32 .f32) (main_arg7 : FVec F S2x32x32 .f32) (main_arg8 : FVec F S32 .f32) (main_arg9 : FVec F S2x32x32 .f32) (main_arg10 : FVec F S32 .f32) (main_arg11 : FVec F S2x32x32 .f32) (main_arg12 : FVec F S32 .f32) (main_arg13 : FVec F S2x32x32 .f32) (main_arg14 : FVec F S32 .f32) (main_arg15 : FVec F S16384x256 .f32) (main_arg16 : FVec F S256 .f32) (main_arg17 : FVec F S256x128 .f32) (main_arg18 : FVec F S128 .f32) (main_arg19 : FVec F S128x2 .f32) (main_arg20 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S2x32x32 .f32 := Host.absf main_arg5
  let main_cst_6 : FVec F S_ .f32 := constant S_ .f32 0x7F800000#32
  let main_v20 : FVec F S2x32x32 .f32 := broadcastInDim S2x32x32 ![] bcast_S_S2x32x32 main_cst_6
  let main_v21 : IVec S2x32x32 1 := cmpf .olt main_v19 main_v20
  let main_c_7 : IVec S_ 1 := constantI S_ 1 1#1
  let main_v22 : IVec S_ 1 := (fun x v => Host.reduce IntOp.andi x v reducesTo_S2x32x32_S_d0_1_2 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2x32x32 .f32 := Host.absf main_arg7
  let main_cst_10 : FVec F S_ .f32 := constant S_ .f32 0x7F800000#32
  let main_v30 : FVec F S2x32x32 .f32 := broadcastInDim S2x32x32 ![] bcast_S_S2x32x32 main_cst_10
  let main_v31 : IVec S2x32x32 1 := cmpf .olt main_v29 main_v30
  let main_c_11 : IVec S_ 1 := constantI S_ 1 1#1
  let main_v32 : IVec S_ 1 := (fun x v => Host.reduce IntOp.andi x v reducesTo_S2x32x32_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_v33

def fn {F : FTy → Type} [FloatOps F] (main_arg0 : FVec F S64x512x50 .f32) (main_arg1 : IVec S2x32768 32) (main_arg2 : FVec F S32768 .f32) (main_arg3 : FVec F S2x50x32 .f32) (main_arg4 : FVec F S32 .f32) (main_arg5 : FVec F S2x32x32 .f32) (main_arg6 : FVec F S32 .f32) (main_arg7 : FVec F S2x32x32 .f32) (main_arg8 : FVec F S32 .f32) (main_arg9 : FVec F S2x32x32 .f32) (main_arg10 : FVec F S32 .f32) (main_arg11 : FVec F S2x32x32 .f32) (main_arg12 : FVec F S32 .f32) (main_arg13 : FVec F S2x32x32 .f32) (main_arg14 : FVec F S32 .f32) (main_arg15 : FVec F S16384x256 .f32) (main_arg16 : FVec F S256 .f32) (main_arg17 : FVec F S256x128 .f32) (main_arg18 : FVec F S128 .f32) (main_arg19 : FVec F S128x2 .f32) (main_arg20 : FVec F S2 .f32) : IVec S_ 1 :=
  let main_v0 : FVec F S64x512x50 .f32 := Host.absf main_arg0
  let main_cst : FVec F S_ .f32 := constant S_ .f32 0x7F800000#32
  let main_v1 : FVec F S64x512x50 .f32 := broadcastInDim S64x512x50 ![] bcast_S_S64x512x50 main_cst
  let main_v2 : IVec S64x512x50 1 := cmpf .olt main_v0 main_v1
  let main_c : IVec S_ 1 := constantI S_ 1 1#1
  let main_v3 : IVec S_ 1 := (fun x v => Host.reduce IntOp.andi x v reducesTo_S64x512x50_S_d0_1_2 h_S_) main_v2 main_c
  let main_v4 : FVec F S32768 .f32 := Host.absf main_arg2
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S2x50x32 .f32 := Host.absf main_arg3
  let main_cst_2 : FVec F S_ .f32 := constant S_ .f32 0x7F800000#32
  let main_v10 : FVec F S2x50x32 .f32 := broadcastInDim S2x50x32 ![] bcast_S_S2x50x32 main_cst_2
  let main_v11 : IVec S2x50x32 1 := cmpf .olt main_v9 main_v10
  let main_c_3 : IVec S_ 1 := constantI S_ 1 1#1
  let main_v12 : IVec S_ 1 := (fun x v => Host.reduce IntOp.andi x v reducesTo_S2x50x32_S_d0_1_2 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S64x512x50 : Shape := ⟨3, ![64, 512, 50]⟩
abbrev S2x32768 : Shape := ⟨2, ![2, 32768]⟩
abbrev S32768 : Shape := ⟨1, ![32768]⟩
abbrev S2x50x32 : Shape := ⟨3, ![2, 50, 32]⟩
abbrev S32 : Shape := ⟨1, ![32]⟩
abbrev S2x32x32 : Shape := ⟨3, ![2, 32, 32]⟩
abbrev S16384x256 : Shape := ⟨2, ![16384, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x32768 : Shape := ⟨2, ![1, 32768]⟩
abbrev S_ : Shape := ⟨0, ![]⟩
abbrev S512 : Shape := ⟨1, ![512]⟩
abbrev S32768x1 : Shape := ⟨2, ![32768, 1]⟩
abbrev S512x512 : Shape := ⟨2, ![512, 512]⟩
abbrev S32768x2 : Shape := ⟨2, ![32768, 2]⟩
abbrev S1x32 : Shape := ⟨2, ![1, 32]⟩
abbrev S64x512x32 : Shape := ⟨3, ![64, 512, 32]⟩
abbrev S1x512x50 : Shape := ⟨3, ![1, 512, 50]⟩
abbrev S1x512x32 : Shape := ⟨3, ![1, 512, 32]⟩
abbrev S512x50 : Shape := ⟨2, ![512, 50]⟩
abbrev S1x50x32 : Shape := ⟨3, ![1, 50, 32]⟩
abbrev S50x32 : Shape := ⟨2, ![50, 32]⟩
abbrev S512x32 : Shape := ⟨2, ![512, 32]⟩
abbrev S1x32x32 : Shape := ⟨3, ![1, 32, 32]⟩
abbrev S32x32 : Shape := ⟨2, ![32, 32]⟩
abbrev S64x16384 : Shape := ⟨2, ![64, 16384]⟩
abbrev S1x256 : Shape := ⟨2, ![1, 256]⟩
abbrev S1x128 : Shape := ⟨2, ![1, 128]⟩
abbrev S1x2 : Shape := ⟨2, ![1, 2]⟩
abbrev S64x2 : Shape := ⟨2, ![64, 2]⟩
abbrev S64x256 : Shape := ⟨2, ![64, 256]⟩
abbrev S64x128 : Shape := ⟨2, ![64, 128]⟩

abbrev nBuf : Space → Nat
  | .hbm => 105
  | .vmem => 25
  | .smem => 0
  | _ => 0

abbrev bufTy : (tb : Table) → Fin (tcTables nBuf tb) → BufTy
  | .hbm, ⟨0, _⟩ => ⟨S64x512x50, .f32⟩
  | .hbm, ⟨1, _⟩ => ⟨S2x32768, .i32⟩
  | .hbm, ⟨2, _⟩ => ⟨S32768, .f32⟩
  | .hbm, ⟨3, _⟩ => ⟨S2x50x32, .f32⟩
  | .hbm, ⟨4, _⟩ => ⟨S32, .f32⟩
  | .hbm, ⟨5, _⟩ => ⟨S2x32x32, .f32⟩
  | .hbm, ⟨6, _⟩ => ⟨S32, .f32⟩
  | .hbm, ⟨7, _⟩ => ⟨S2x32x32, .f32⟩
  | .hbm, ⟨8, _⟩ => ⟨S32, .f32⟩
  | .hbm, ⟨9, _⟩ => ⟨S2x32x32, .f32⟩
  | .hbm, ⟨10, _⟩ => ⟨S32, .f32⟩
  | .hbm, ⟨11, _⟩ => ⟨S2x32x32, .f32⟩
  | .hbm, ⟨12, _⟩ => ⟨S32, .f32⟩
  | .hbm, ⟨13, _⟩ => ⟨S2x32x32, .f32⟩
  | .hbm, ⟨14, _⟩ => ⟨S32, .f32⟩
  | .hbm, ⟨15, _⟩ => ⟨S16384x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x2, .f32⟩
  | .hbm, ⟨20, _⟩ => ⟨S2, .f32⟩
  | .hbm, ⟨21, _⟩ => ⟨S1x32768, .i32⟩
  | .hbm, ⟨22, _⟩ => ⟨S32768, .i32⟩
  | .hbm, ⟨23, _⟩ => ⟨S1x32768, .i32⟩
  | .hbm, ⟨24, _⟩ => ⟨S32768, .i32⟩
  | .hbm, ⟨25, _⟩ => ⟨S32768, .i1⟩
  | .hbm, ⟨26, _⟩ => ⟨S_, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S_, .f32⟩
  | .hbm, ⟨31, _⟩ => ⟨S512, .f32⟩
  | .hbm, ⟨32, _⟩ => ⟨S32768x1, .i32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .i1⟩
  | .hbm, ⟨37, _⟩ => ⟨S512, .f32⟩
  | .hbm, ⟨38, _⟩ => ⟨S_, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768, .f32⟩
  | .hbm, ⟨51, _⟩ => ⟨S32768, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S32768x1, .i32⟩
  | .hbm, ⟨60, _⟩ => ⟨S32768, .f32⟩
  | .hbm, ⟨61, _⟩ => ⟨S32768, .f32⟩
  | .hbm, ⟨62, _⟩ => ⟨S32768, .f32⟩
  | .hbm, ⟨63, _⟩ => ⟨S_, .f32⟩
  | .hbm, ⟨64, _⟩ => ⟨S512x512, .f32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S_, .i32⟩
  | .hbm, ⟨73, _⟩ => ⟨S32768, .i32⟩
  | .hbm, ⟨74, _⟩ => ⟨S32768, .i1⟩
  | .hbm, ⟨75, _⟩ => ⟨S_, .i32⟩
  | .hbm, ⟨76, _⟩ => ⟨S32768, .i32⟩
  | .hbm, ⟨77, _⟩ => ⟨S32768, .i32⟩
  | .hbm, ⟨78, _⟩ => ⟨S32768, .i32⟩
  | .hbm, ⟨79, _⟩ => ⟨S32768x1, .i32⟩
  | .hbm, ⟨80, _⟩ => ⟨S32768x1, .i32⟩
  | .hbm, ⟨81, _⟩ => ⟨S32768x2, .i32⟩
  | .hbm, ⟨82, _⟩ => ⟨S512x512, .f32⟩
  | .hbm, ⟨83, _⟩ => ⟨S512x512, .bf16⟩
  | .hbm, ⟨84, _⟩ => ⟨S2x50x32, .bf16⟩
  | .hbm, ⟨85, _⟩ => ⟨S2x32x32, .bf16⟩
  | .hbm, ⟨86, _⟩ => ⟨S2x32x32, .bf16⟩
  | .hbm, ⟨87, _⟩ => ⟨S2x32x32, .bf16⟩
  | .hbm, ⟨88, _⟩ => ⟨S2x32x32, .bf16⟩
  | .hbm, ⟨89, _⟩ => ⟨S2x32x32, .bf16⟩
  | .hbm, ⟨90, _⟩ => ⟨S1x32, .f32⟩
  | .hbm, ⟨91, _⟩ => ⟨S1x32, .f32⟩
  | .hbm, ⟨92, _⟩ => ⟨S1x32, .f32⟩
  | .hbm, ⟨93, _⟩ => ⟨S1x32, .f32⟩
  | .hbm, ⟨94, _⟩ => ⟨S1x32, .f32⟩
  | .hbm, ⟨95, _⟩ => ⟨S1x32, .f32⟩
  | .hbm, ⟨96, _⟩ => ⟨S64x512x32, .f32⟩
  | .hbm, ⟨97, _⟩ => ⟨S64x16384, .f32⟩
  | .hbm, ⟨98, _⟩ => ⟨S16384x256, .bf16⟩
  | .hbm, ⟨99, _⟩ => ⟨S256x128, .bf16⟩
  | .hbm, ⟨100, _⟩ => ⟨S128x2, .bf16⟩
  | .hbm, ⟨101, _⟩ => ⟨S1x256, .f32⟩
  | .hbm, ⟨102, _⟩ => ⟨S1x128, .f32⟩
  | .hbm, ⟨103, _⟩ => ⟨S1x2, .f32⟩
  | .hbm, ⟨104, _⟩ => ⟨S64x2, .f32⟩
  | .local _ .vmem, ⟨0, _⟩ => ⟨S1x512x50, .f32⟩
  | .local _ .vmem, ⟨1, _⟩ => ⟨S1x512x50, .f32⟩
  | .local _ .vmem, ⟨2, _⟩ => ⟨S512x512, .bf16⟩
  | .local _ .vmem, ⟨3, _⟩ => ⟨S2x50x32, .bf16⟩
  | .local _ .vmem, ⟨4, _⟩ => ⟨S2x32x32, .bf16⟩
  | .local _ .vmem, ⟨5, _⟩ => ⟨S2x32x32, .bf16⟩
  | .local _ .vmem, ⟨6, _⟩ => ⟨S2x32x32, .bf16⟩
  | .local _ .vmem, ⟨7, _⟩ => ⟨S2x32x32, .bf16⟩
  | .local _ .vmem, ⟨8, _⟩ => ⟨S2x32x32, .bf16⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x512x32, .f32⟩
  | .local _ .vmem, ⟨16, _⟩ => ⟨S1x512x32, .f32⟩
  | .local _ .vmem, ⟨17, _⟩ => ⟨S64x16384, .f32⟩
  | .local _ .vmem, ⟨18, _⟩ => ⟨S16384x256, .bf16⟩
  | .local _ .vmem, ⟨19, _⟩ => ⟨S1x256, .f32⟩
  | .local _ .vmem, ⟨20, _⟩ => ⟨S256x128, .bf16⟩
  | .local _ .vmem, ⟨21, _⟩ => ⟨S1x128, .f32⟩
  | .local _ .vmem, ⟨22, _⟩ => ⟨S128x2, .bf16⟩
  | .local _ .vmem, ⟨23, _⟩ => ⟨S1x2, .f32⟩
  | .local _ .vmem, ⟨24, _⟩ => ⟨S64x2, .f32⟩
  | _, _ => ⟨S64x512x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_c_7 : Ref sig .tc := ⟨.hbm, 65, rfl⟩
abbrev main_v31 : Ref sig .tc := ⟨.hbm, 66, rfl⟩
abbrev main_v32 : Ref sig .tc := ⟨.hbm, 67, rfl⟩
abbrev main_c_8 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_9 : Ref sig .tc := ⟨.hbm, 72, rfl⟩
abbrev main_v36 : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc1_sem0_0 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x50x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x32x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S_S512 : S_.BroadcastsInDim S512 (![] : Fin 0 → Fin S512.rank)
  bcast_S32768_S32768x1_0 : S32768.BroadcastsInDim S32768x1 (![0] : Fin 1 → Fin S32768x1.rank)
  bcast_S_S512x512 : S_.BroadcastsInDim S512x512 (![] : Fin 0 → Fin S512x512.rank)
  concatenates_S32768x1_S32768x1_S32768x2_d1 : Shape.Concatenates [S32768x1, S32768x1] S32768x2 1
  bitsLt_bf16_f32 : FTy.bits .bf16 < FTy.bits .f32
  shapeCasts_S32_S1x32 : S32.ShapeCasts S1x32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x50_S1x512x50_0_0_0 : ∀ a, (![0, 0, 0] : Fin 3 → Nat) a + S1x512x50.size a ≤ S1x512x50.size a
  h_S1x512x50 : 0 < S1x512x50.numel
  shapeCasts_S1x512x50_S512x50 : S1x512x50.ShapeCasts S512x50
  inb_S2x50x32_S2x50x32_0_0_0 : ∀ a, (![0, 0, 0] : Fin 3 → Nat) a + S2x50x32.size a ≤ S2x50x32.size a
  h_S2x50x32 : 0 < S2x50x32.numel
  shapeCasts_S2x50x32_S2x50x32 : S2x50x32.ShapeCasts S2x50x32
  slices_S2x50x32_o0_0_0_S1x50x32 : S2x50x32.Slices ![0, 0, 0] S1x50x32
  shapeCasts_S1x50x32_S50x32 : S1x50x32.ShapeCasts S50x32
  slices_S2x50x32_o1_0_0_S1x50x32 : S2x50x32.Slices ![1, 0, 0] S1x50x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S2x32x32_S2x32x32_0_0_0 : ∀ a, (![0, 0, 0] : Fin 3 → Nat) a + S2x32x32.size a ≤ S2x32x32.size a
  h_S2x32x32 : 0 < S2x32x32.numel
  shapeCasts_S2x32x32_S2x32x32 : S2x32x32.ShapeCasts S2x32x32
  slices_S2x32x32_o0_0_0_S1x32x32 : S2x32x32.Slices ![0, 0, 0] S1x32x32
  shapeCasts_S1x32x32_S32x32 : S1x32x32.ShapeCasts S32x32
  slices_S2x32x32_o1_0_0_S1x32x32 : S2x32x32.Slices ![1, 0, 0] S1x32x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  shapeCasts_S512x32_S1x512x32 : S512x32.ShapeCasts S1x512x32
  shapeCasts_S64x512x32_S64x16384 : S64x512x32.ShapeCasts S64x16384
  shapeCasts_S256_S1x256 : S256.ShapeCasts S1x256
  shapeCasts_S128_S1x128 : S128.ShapeCasts S1x128
  shapeCasts_S2_S1x2 : S2.ShapeCasts S1x2
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S512_S32768x1_S32768_n_0_0_1_wf : ScatterDims.WF S512 S32768x1 S32768 [] [0] [0] 1
  gather_S512_S32768x1_S32768_n_0_n_n_0_1_1_wf : GatherDims.WF S512 S32768x1 S32768 [] [0] [] [0] [] 1 ![1]
  scatter_S512x512_S32768x2_S32768_n_01_01_1_wf : ScatterDims.WF S512x512 S32768x2 S32768 [] [0, 1] [0, 1] 1
  dot_S512x50_S50x32_S512x32_1_0_0_1_n_n_wf : DotDims.WF S512x50 S50x32 S512x32 [1] [0] [0] [1] [] []
  dot_S512x512_S512x50_S512x50_1_0_0_1_n_n_wf : DotDims.WF S512x512 S512x50 S512x50 [1] [0] [0] [1] [] []
  dot_S512x32_S32x32_S512x32_1_0_0_1_n_n_wf : DotDims.WF S512x32 S32x32 S512x32 [1] [0] [0] [1] [] []
  dot_S512x512_S512x32_S512x32_1_0_0_1_n_n_wf : DotDims.WF S512x512 S512x32 S512x32 [1] [0] [0] [1] [] []
  dot_S64x16384_S16384x256_S64x256_1_0_0_1_n_n_wf : DotDims.WF S64x16384 S16384x256 S64x256 [1] [0] [0] [1] [] []
  dot_S64x256_S256x128_S64x128_1_0_0_1_n_n_wf : DotDims.WF S64x256 S256x128 S64x128 [1] [0] [0] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x50.size a ≤ S64x512x50.size a
  hwx0_0 : ∀ i : grid0.Coords, EltTy.bits .f32 = 32 ∨ (Rect.block (s := S64x512x50) S1x512x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x50x32.size a ≤ S2x50x32.size a
  hwx0_2 : ∀ i : grid0.Coords, EltTy.bits .bf16 = 32 ∨ (Rect.block (s := S2x50x32) S2x50x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32x32.size a ≤ S2x32x32.size a
  hwx0_3 : ∀ i : grid0.Coords, EltTy.bits .bf16 = 32 ∨ (Rect.block (s := S2x32x32) S2x32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32x32.size a ≤ S2x32x32.size a
  hwx0_4 : ∀ i : grid0.Coords, EltTy.bits .bf16 = 32 ∨ (Rect.block (s := S2x32x32) S2x32x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32x32.size a ≤ S2x32x32.size a
  hwx0_5 : ∀ i : grid0.Coords, EltTy.bits .bf16 = 32 ∨ (Rect.block (s := S2x32x32) S2x32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x32x32.size a ≤ S2x32x32.size a
  hwx0_6 : ∀ i : grid0.Coords, EltTy.bits .bf16 = 32 ∨ (Rect.block (s := S2x32x32) S2x32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32x32.size a ≤ S2x32x32.size a
  hwx0_7 : ∀ i : grid0.Coords, EltTy.bits .bf16 = 32 ∨ (Rect.block (s := S2x32x32) S2x32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x512x32.size a ≤ S64x512x32.size a
  hwx0_14 : ∀ i : grid0.Coords, EltTy.bits .f32 = 32 ∨ (Rect.block (s := S64x512x32) S1x512x32.size (cc0_transform_14 i) (hinb0_14 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x16384.size a ≤ S64x16384.size a
  hwx1_0 : ∀ i : grid1.Coords, EltTy.bits .f32 = 32 ∨ (Rect.block (s := S64x16384) S64x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .bf16 = 32 ∨ (Rect.block (s := S128x2) S128x2.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2.size a ≤ S64x2.size a
  hwx1_7 : ∀ i : grid1.Coords, EltTy.bits .f32 = 32 ∨ (Rect.block (s := S64x2) S64x2.size (cc1_transform_7 i) (hinb1_7 i)).WholeWords (EltTy.packing .f32)

variable [Facts₀]

def scatter_S512_S32768x1_S32768_n_0_0_1 : ScatterDims S512 S32768x1 S32768 where
  updateWindowDims := []
  insertedWindowDims := [0]
  scatterDimsToOperandDims := [0]
  indexVectorDim := 1
  wf := scatter_S512_S32768x1_S32768_n_0_0_1_wf
def gather_S512_S32768x1_S32768_n_0_n_n_0_1_1 : GatherDims S512 S32768x1 S32768 where
  offsetDims := []
  collapsedSliceDims := [0]
  operandBatchingDims := []
  startIndicesBatchingDims := []
  startIndexMap := [0]
  indexVectorDim := 1
  sliceSizes := ![1]
  wf := gather_S512_S32768x1_S32768_n_0_n_n_0_1_1_wf
def scatter_S512x512_S32768x2_S32768_n_01_01_1 : ScatterDims S512x512 S32768x2 S32768 where
  updateWindowDims := []
  insertedWindowDims := [0, 1]
  scatterDimsToOperandDims := [0, 1]
  indexVectorDim := 1
  wf := scatter_S512x512_S32768x2_S32768_n_01_01_1_wf
def dot_S512x50_S50x32_S512x32_1_0_0_1_n_n : DotDims S512x50 S50x32 S512x32 where
  lhsContracting := [1]
  rhsContracting := [0]
  lhsNonContracting := [0]
  rhsNonContracting := [1]
  lhsBatch := []
  rhsBatch := []
  wf := dot_S512x50_S50x32_S512x32_1_0_0_1_n_n_wf
def dot_S512x512_S512x50_S512x50_1_0_0_1_n_n : DotDims S512x512 S512x50 S512x50 where
  lhsContracting := [1]
  rhsContracting := [0]
  lhsNonContracting := [0]
  rhsNonContracting := [1]
  lhsBatch := []
  rhsBatch := []
  wf := dot_S512x512_S512x50_S512x50_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S64x16384_S16384x256_S64x256_1_0_0_1_n_n : DotDims S64x16384 S16384x256 S64x256 where
  lhsContracting := [1]
  rhsContracting := [0]
  lhsNonContracting := [0]
  rhsNonContracting := [1]
  lhsBatch := []
  rhsBatch := []
  wf := dot_S64x16384_S16384x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S1x512x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S2x50x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S2x32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S2x32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S2x32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S2x32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v54) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v55) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v56) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v57) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v58) S1x512x32.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v59) S64x16384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v60) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66) S64x2.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x512x50 : Shape := ⟨3, ![64, 512, 50]⟩
abbrev S2x32768 : Shape := ⟨2, ![2, 32768]⟩
abbrev S32768 : Shape := ⟨1, ![32768]⟩
abbrev S2x50x32 : Shape := ⟨3, ![2, 50, 32]⟩
abbrev S32 : Shape := ⟨1, ![32]⟩
abbrev S2x32x32 : Shape := ⟨3, ![2, 32, 32]⟩
abbrev S16384x256 : Shape := ⟨2, ![16384, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x32768 : Shape := ⟨2, ![1, 32768]⟩
abbrev S_ : Shape := ⟨0, ![]⟩
abbrev S512 : Shape := ⟨1, ![512]⟩
abbrev S32768x1 : Shape := ⟨2, ![32768, 1]⟩
abbrev S1x50x32 : Shape := ⟨3, ![1, 50, 32]⟩
abbrev S50x32 : Shape := ⟨2, ![50, 32]⟩
abbrev S64x512x32 : Shape := ⟨3, ![64, 512, 32]⟩
abbrev S64x32768x50 : Shape := ⟨3, ![64, 32768, 50]⟩
abbrev S1x32768x1 : Shape := ⟨3, ![1, 32768, 1]⟩
abbrev S512x50 : Shape := ⟨2, ![512, 50]⟩
abbrev S1x1x32 : Shape := ⟨3, ![1, 1, 32]⟩
abbrev S1x32x32 : Shape := ⟨3, ![1, 32, 32]⟩
abbrev S32x32 : Shape := ⟨2, ![32, 32]⟩
abbrev S64x32768x32 : Shape := ⟨3, ![64, 32768, 32]⟩
abbrev S512x32 : Shape := ⟨2, ![512, 32]⟩
abbrev S64x16384 : Shape := ⟨2, ![64, 16384]⟩
abbrev S64x256 : Shape := ⟨2, ![64, 256]⟩
abbrev S1x256 : Shape := ⟨2, ![1, 256]⟩
abbrev S64x128 : Shape := ⟨2, ![64, 128]⟩
abbrev S1x128 : Shape := ⟨2, ![1, 128]⟩
abbrev S64x2 : Shape := ⟨2, ![64, 2]⟩
abbrev S1x2 : Shape := ⟨2, ![1, 2]⟩

abbrev nBuf : Space → Nat
  | .hbm => 259
  | .vmem => 0
  | .smem => 0
  | _ => 0

abbrev hbmTy0_0 (i : Nat) : BufTy := match i % 128 with
  | 0 => ⟨S64x512x50, .f32⟩
  | 1 => ⟨S2x32768, .i32⟩
  | 2 => ⟨S32768, .f32⟩
  | 3 => ⟨S2x50x32, .f32⟩
  | 4 => ⟨S32, .f32⟩
  | 5 => ⟨S2x32x32, .f32⟩
  | 6 => ⟨S32, .f32⟩
  | 7 => ⟨S2x32x32, .f32⟩
  | 8 => ⟨S32, .f32⟩
  | 9 => ⟨S2x32x32, .f32⟩
  | 10 => ⟨S32, .f32⟩
  | 11 => ⟨S2x32x32, .f32⟩
  | 12 => ⟨S32, .f32⟩
  | 13 => ⟨S2x32x32, .f32⟩
  | 14 => ⟨S32, .f32⟩
  | 15 => ⟨S16384x256, .f32⟩
  | 16 => ⟨S256, .f32⟩
  | 17 => ⟨S256x128, .f32⟩
  | 18 => ⟨S128, .f32⟩
  | 19 => ⟨S128x2, .f32⟩
  | 20 => ⟨S2, .f32⟩
  | 21 => ⟨S1x32768, .i32⟩
  | 22 => ⟨S32768, .i32⟩
  | 23 => ⟨S1x32768, .i32⟩
  | 24 => ⟨S32768, .i32⟩
  | 25 => ⟨S32768, .i1⟩
  | 26 => ⟨S_, .f32⟩
  | 27 => ⟨S_, .f32⟩
  | 28 => ⟨S32768, .f32⟩
  | 29 => ⟨S32768, .f32⟩
  | 30 => ⟨S_, .f32⟩
  | 31 => ⟨S512, .f32⟩
  | 32 => ⟨S32768x1, .i32⟩
  | 33 => ⟨S512, .f32⟩
  | 34 => ⟨S_, .f32⟩
  | 35 => ⟨S512, .f32⟩
  | 36 => ⟨S512, .i1⟩
  | 37 => ⟨S512, .f32⟩
  | 38 => ⟨S_, .f32⟩
  | 39 => ⟨S_, .f32⟩
  | 40 => ⟨S512, .f32⟩
  | 41 => ⟨S512, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S32768, .f32⟩
  | 51 => ⟨S32768, .f32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S32768, .f32⟩
  | 61 => ⟨S32768, .f32⟩
  | 62 => ⟨S32768, .f32⟩
  | 63 => ⟨S1x50x32, .f32⟩
  | 64 => ⟨S50x32, .f32⟩
  | 65 => ⟨S64x512x32, .f32⟩
  | 66 => ⟨S32768x1, .f32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S64x32768x50, .f32⟩
  | 76 => ⟨S1x32768x1, .f32⟩
  | 77 => ⟨S64x32768x50, .f32⟩
  | 78 => ⟨S64x32768x50, .f32⟩
  | 79 => ⟨S_, .f32⟩
  | 80 => ⟨S512x50, .f32⟩
  | 81 => ⟨S32768x1, .i32⟩
  | 82 => ⟨S64x512x50, .f32⟩
  | 83 => ⟨S64x512x50, .f32⟩
  | 84 => ⟨S1x50x32, .f32⟩
  | 85 => ⟨S50x32, .f32⟩
  | 86 => ⟨S64x512x32, .f32⟩
  | 87 => ⟨S64x512x32, .f32⟩
  | 88 => ⟨S1x1x32, .f32⟩
  | 89 => ⟨S64x512x32, .f32⟩
  | 90 => ⟨S64x512x32, .f32⟩
  | 91 => ⟨S_, .f32⟩
  | 92 => ⟨S64x512x32, .f32⟩
  | 93 => ⟨S64x512x32, .f32⟩
  | 94 => ⟨S1x32x32, .f32⟩
  | 95 => ⟨S32x32, .f32⟩
  | 96 => ⟨S64x512x32, .f32⟩
  | 97 => ⟨S32768x1, .f32⟩
  | 98 => ⟨S_, .i32⟩
  | 99 => ⟨S32768, .i32⟩
  | 100 => ⟨S32768, .i1⟩
  | 101 => ⟨S_, .i32⟩
  | 102 => ⟨S32768, .i32⟩
  | 103 => ⟨S32768, .i32⟩
  | 104 => ⟨S32768, .i32⟩
  | 105 => ⟨S32768x1, .i32⟩
  | 106 => ⟨S64x32768x32, .f32⟩
  | 107 => ⟨S1x32768x1, .f32⟩
  | 108 => ⟨S64x32768x32, .f32⟩
  | 109 => ⟨S64x32768x32, .f32⟩
  | 110 => ⟨S_, .f32⟩
  | 111 => ⟨S512x32, .f32⟩
  | 112 => ⟨S32768x1, .i32⟩
  | 113 => ⟨S64x512x32, .f32⟩
  | 114 => ⟨S64x512x32, .f32⟩
  | 115 => ⟨S1x32x32, .f32⟩
  | 116 => ⟨S32x32, .f32⟩
  | 117 => ⟨S64x512x32, .f32⟩
  | 118 => ⟨S64x512x32, .f32⟩
  | 119 => ⟨S1x1x32, .f32⟩
  | 120 => ⟨S64x512x32, .f32⟩
  | 121 => ⟨S64x512x32, .f32⟩
  | 122 => ⟨S_, .f32⟩
  | 123 => ⟨S64x512x32, .f32⟩
  | 124 => ⟨S64x512x32, .f32⟩
  | 125 => ⟨S1x32x32, .f32⟩
  | 126 => ⟨S32x32, .f32⟩
  | 127 => ⟨S64x512x32, .f32⟩
  | _ => ⟨S64x512x50, .f32⟩

abbrev hbmTy0_1 (i : Nat) : BufTy := match i % 128 with
  | 0 => ⟨S32768x1, .f32⟩
  | 1 => ⟨S_, .i32⟩
  | 2 => ⟨S32768, .i32⟩
  | 3 => ⟨S32768, .i1⟩
  | 4 => ⟨S_, .i32⟩
  | 5 => ⟨S32768, .i32⟩
  | 6 => ⟨S32768, .i32⟩
  | 7 => ⟨S32768, .i32⟩
  | 8 => ⟨S32768x1, .i32⟩
  | 9 => ⟨S64x32768x32, .f32⟩
  | 10 => ⟨S1x32768x1, .f32⟩
  | 11 => ⟨S64x32768x32, .f32⟩
  | 12 => ⟨S64x32768x32, .f32⟩
  | 13 => ⟨S_, .f32⟩
  | 14 => ⟨S512x32, .f32⟩
  | 15 => ⟨S32768x1, .i32⟩
  | 16 => ⟨S64x512x32, .f32⟩
  | 17 => ⟨S64x512x32, .f32⟩
  | 18 => ⟨S1x32x32, .f32⟩
  | 19 => ⟨S32x32, .f32⟩
  | 20 => ⟨S64x512x32, .f32⟩
  | 21 => ⟨S64x512x32, .f32⟩
  | 22 => ⟨S1x1x32, .f32⟩
  | 23 => ⟨S64x512x32, .f32⟩
  | 24 => ⟨S64x512x32, .f32⟩
  | 25 => ⟨S_, .f32⟩
  | 26 => ⟨S64x512x32, .f32⟩
  | 27 => ⟨S64x512x32, .f32⟩
  | 28 => ⟨S1x32x32, .f32⟩
  | 29 => ⟨S32x32, .f32⟩
  | 30 => ⟨S64x512x32, .f32⟩
  | 31 => ⟨S32768x1, .f32⟩
  | 32 => ⟨S_, .i32⟩
  | 33 => ⟨S32768, .i32⟩
  | 34 => ⟨S32768, .i1⟩
  | 35 => ⟨S_, .i32⟩
  | 36 => ⟨S32768, .i32⟩
  | 37 => ⟨S32768, .i32⟩
  | 38 => ⟨S32768, .i32⟩
  | 39 => ⟨S32768x1, .i32⟩
  | 40 => ⟨S64x32768x32, .f32⟩
  | 41 => ⟨S1x32768x1, .f32⟩
  | 42 => ⟨S64x32768x32, .f32⟩
  | 43 => ⟨S64x32768x32, .f32⟩
  | 44 => ⟨S_, .f32⟩
  | 45 => ⟨S512x32, .f32⟩
  | 46 => ⟨S32768x1, .i32⟩
  | 47 => ⟨S64x512x32, .f32⟩
  | 48 => ⟨S64x512x32, .f32⟩
  | 49 => ⟨S1x32x32, .f32⟩
  | 50 => ⟨S32x32, .f32⟩
  | 51 => ⟨S64x512x32, .f32⟩
  | 52 => ⟨S64x512x32, .f32⟩
  | 53 => ⟨S1x1x32, .f32⟩
  | 54 => ⟨S64x512x32, .f32⟩
  | 55 => ⟨S64x512x32, .f32⟩
  | 56 => ⟨S_, .f32⟩
  | 57 => ⟨S64x512x32, .f32⟩
  | 58 => ⟨S64x512x32, .f32⟩
  | 59 => ⟨S1x32x32, .f32⟩
  | 60 => ⟨S32x32, .f32⟩
  | 61 => ⟨S64x512x32, .f32⟩
  | 62 => ⟨S32768x1, .f32⟩
  | 63 => ⟨S_, .i32⟩
  | 64 => ⟨S32768, .i32⟩
  | 65 => ⟨S32768, .i1⟩
  | 66 => ⟨S_, .i32⟩
  | 67 => ⟨S32768, .i32⟩
  | 68 => ⟨S32768, .i32⟩
  | 69 => ⟨S32768, .i32⟩
  | 70 => ⟨S32768x1, .i32⟩
  | 71 => ⟨S64x32768x32, .f32⟩
  | 72 => ⟨S1x32768x1, .f32⟩
  | 73 => ⟨S64x32768x32, .f32⟩
  | 74 => ⟨S64x32768x32, .f32⟩
  | 75 => ⟨S_, .f32⟩
  | 76 => ⟨S512x32, .f32⟩
  | 77 => ⟨S32768x1, .i32⟩
  | 78 => ⟨S64x512x32, .f32⟩
  | 79 => ⟨S64x512x32, .f32⟩
  | 80 => ⟨S1x32x32, .f32⟩
  | 81 => ⟨S32x32, .f32⟩
  | 82 => ⟨S64x512x32, .f32⟩
  | 83 => ⟨S64x512x32, .f32⟩
  | 84 => ⟨S1x1x32, .f32⟩
  | 85 => ⟨S64x512x32, .f32⟩
  | 86 => ⟨S64x512x32, .f32⟩
  | 87 => ⟨S_, .f32⟩
  | 88 => ⟨S64x512x32, .f32⟩
  | 89 => ⟨S64x512x32, .f32⟩
  | 90 => ⟨S1x32x32, .f32⟩
  | 91 => ⟨S32x32, .f32⟩
  | 92 => ⟨S64x512x32, .f32⟩
  | 93 => ⟨S32768x1, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S64x32768x32, .f32⟩
  | 103 => ⟨S1x32768x1, .f32⟩
  | 104 => ⟨S64x32768x32, .f32⟩
  | 105 => ⟨S64x32768x32, .f32⟩
  | 106 => ⟨S_, .f32⟩
  | 107 => ⟨S512x32, .f32⟩
  | 108 => ⟨S32768x1, .i32⟩
  | 109 => ⟨S64x512x32, .f32⟩
  | 110 => ⟨S64x512x32, .f32⟩
  | 111 => ⟨S1x32x32, .f32⟩
  | 112 => ⟨S32x32, .f32⟩
  | 113 => ⟨S64x512x32, .f32⟩
  | 114 => ⟨S64x512x32, .f32⟩
  | 115 => ⟨S1x1x32, .f32⟩
  | 116 => ⟨S64x512x32, .f32⟩
  | 117 => ⟨S64x512x32, .f32⟩
  | 118 => ⟨S64x16384, .f32⟩
  | 119 => ⟨S64x256, .f32⟩
  | 120 => ⟨S1x256, .f32⟩
  | 121 => ⟨S64x256, .f32⟩
  | 122 => ⟨S64x256, .f32⟩
  | 123 => ⟨S64x128, .f32⟩
  | 124 => ⟨S1x128, .f32⟩
  | 125 => ⟨S64x128, .f32⟩
  | 126 => ⟨S64x128, .f32⟩
  | 127 => ⟨S64x2, .f32⟩
  | _ => ⟨S64x512x50, .f32⟩

abbrev hbmTy0_2 (i : Nat) : BufTy := match i % 128 with
  | 0 => ⟨S1x2, .f32⟩
  | 1 => ⟨S64x2, .f32⟩
  | 2 => ⟨S64x2, .f32⟩
  | _ => ⟨S64x512x50, .f32⟩

abbrev hbmTy (i : Nat) : BufTy := match i / 128 with
  | 0 => hbmTy0_0 i
  | 1 => hbmTy0_1 i
  | 2 => hbmTy0_2 i
  | _ => ⟨S64x512x50, .f32⟩

abbrev bufTy : (tb : Table) → Fin (tcTables nBuf tb) → BufTy
  | .hbm, ⟨i, _⟩ => hbmTy i
  | _, _ => ⟨S64x512x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_6 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_8 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call2_cst : Ref sig .tc := ⟨.hbm, 91, rfl⟩
abbrev main_call2_v0 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_9 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_11 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call3_cst : Ref sig .tc := ⟨.hbm, 122, rfl⟩
abbrev main_call3_v0 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_12 : Ref sig .tc := ⟨.hbm, 129, rfl⟩
abbrev main_v86 : Ref sig .tc := ⟨.hbm, 130, rfl⟩
abbrev main_v87 : Ref sig .tc := ⟨.hbm, 131, rfl⟩
abbrev main_c_13 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_14 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call4_cst : Ref sig .tc := ⟨.hbm, 153, rfl⟩
abbrev main_call4_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_15 : Ref sig .tc := ⟨.hbm, 160, rfl⟩
abbrev main_v112 : Ref sig .tc := ⟨.hbm, 161, rfl⟩
abbrev main_v113 : Ref sig .tc := ⟨.hbm, 162, rfl⟩
abbrev main_c_16 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_17 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_call5_cst : Ref sig .tc := ⟨.hbm, 184, rfl⟩
abbrev main_call5_v0 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_c_18 : Ref sig .tc := ⟨.hbm, 191, rfl⟩
abbrev main_v138 : Ref sig .tc := ⟨.hbm, 192, rfl⟩
abbrev main_v139 : Ref sig .tc := ⟨.hbm, 193, rfl⟩
abbrev main_c_19 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_20 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call6_cst : Ref sig .tc := ⟨.hbm, 215, rfl⟩
abbrev main_call6_v0 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_21 : Ref sig .tc := ⟨.hbm, 222, rfl⟩
abbrev main_v164 : Ref sig .tc := ⟨.hbm, 223, rfl⟩
abbrev main_v165 : Ref sig .tc := ⟨.hbm, 224, rfl⟩
abbrev main_c_22 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_23 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩

abbrev nD : Nat := 1
abbrev τ : Topo := Topo.v7x

variable {F : FTy → Type} [FloatOps F]

class Facts₀ : Prop where
  slices_S2x32768_S1x32768_0_0 : S2x32768.Slices ![0, 0] S1x32768
  shapeCasts_S1x32768_S32768 : S1x32768.ShapeCasts S32768
  slices_S2x32768_S1x32768_1_0 : S2x32768.Slices ![1, 0] S1x32768
  bcast_S_S32768 : S_.BroadcastsInDim S32768 (![] : Fin 0 → Fin S32768.rank)
  bcast_S_S512 : S_.BroadcastsInDim S512 (![] : Fin 0 → Fin S512.rank)
  bcast_S32768_S32768x1_0 : S32768.BroadcastsInDim S32768x1 (![0] : Fin 1 → Fin S32768x1.rank)
  slices_S2x50x32_S1x50x32_0_0_0 : S2x50x32.Slices ![0, 0, 0] S1x50x32
  shapeCasts_S1x50x32_S50x32 : S1x50x32.ShapeCasts S50x32
  bcast_S32768x1_S1x32768x1_1_2 : S32768x1.BroadcastsInDim S1x32768x1 (![1, 2] : Fin 2 → Fin S1x32768x1.rank)
  bcast_S1x32768x1_S64x32768x50_0_1_2 : S1x32768x1.BroadcastsInDim S64x32768x50 (![0, 1, 2] : Fin 3 → Fin S64x32768x50.rank)
  bcast_S_S512x50 : S_.BroadcastsInDim S512x50 (![] : Fin 0 → Fin S512x50.rank)
  bcast_S512x50_S64x512x50_1_2 : S512x50.BroadcastsInDim S64x512x50 (![1, 2] : Fin 2 → Fin S64x512x50.rank)
  slices_S2x50x32_S1x50x32_1_0_0 : S2x50x32.Slices ![1, 0, 0] S1x50x32
  bcast_S32_S1x1x32_2 : S32.BroadcastsInDim S1x1x32 (![2] : Fin 1 → Fin S1x1x32.rank)
  bcast_S1x1x32_S64x512x32_0_1_2 : S1x1x32.BroadcastsInDim S64x512x32 (![0, 1, 2] : Fin 3 → Fin S64x512x32.rank)
  bcast_S_S64x512x32 : S_.BroadcastsInDim S64x512x32 (![] : Fin 0 → Fin S64x512x32.rank)
  slices_S2x32x32_S1x32x32_0_0_0 : S2x32x32.Slices ![0, 0, 0] S1x32x32
  shapeCasts_S1x32x32_S32x32 : S1x32x32.ShapeCasts S32x32
  bcast_S1x32768x1_S64x32768x32_0_1_2 : S1x32768x1.BroadcastsInDim S64x32768x32 (![0, 1, 2] : Fin 3 → Fin S64x32768x32.rank)
  bcast_S_S512x32 : S_.BroadcastsInDim S512x32 (![] : Fin 0 → Fin S512x32.rank)
  bcast_S512x32_S64x512x32_1_2 : S512x32.BroadcastsInDim S64x512x32 (![1, 2] : Fin 2 → Fin S64x512x32.rank)
  slices_S2x32x32_S1x32x32_1_0_0 : S2x32x32.Slices ![1, 0, 0] S1x32x32
  shapeCasts_S64x512x32_S64x16384 : S64x512x32.ShapeCasts S64x16384
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S512_S32768x1_S32768_n_0_0_1_wf : ScatterDims.WF S512 S32768x1 S32768 [] [0] [0] 1
  gather_S512_S32768x1_S32768_n_0_n_n_0_1_1_wf : GatherDims.WF S512 S32768x1 S32768 [] [0] [] [0] [] 1 ![1]
  dot_S64x512x50_S50x32_S64x512x32_2_0_01_1_n_n_wf : DotDims.WF S64x512x50 S50x32 S64x512x32 [2] [0] [0, 1] [1] [] []
  gather_S64x512x50_S32768x1_S64x32768x50_02_1_n_n_1_1_64150_wf : GatherDims.WF S64x512x50 S32768x1 S64x32768x50 [0, 2] [1] [] [1] [] 1 ![64, 1, 50]
  scatter_S64x512x50_S32768x1_S64x32768x50_02_1_1_1_wf : ScatterDims.WF S64x512x50 S32768x1 S64x32768x50 [0, 2] [1] [1] 1
  dot_S64x512x32_S32x32_S64x512x32_2_0_01_1_n_n_wf : DotDims.WF S64x512x32 S32x32 S64x512x32 [2] [0] [0, 1] [1] [] []
  gather_S64x512x32_S32768x1_S64x32768x32_02_1_n_n_1_1_64132_wf : GatherDims.WF S64x512x32 S32768x1 S64x32768x32 [0, 2] [1] [] [1] [] 1 ![64, 1, 32]
  scatter_S64x512x32_S32768x1_S64x32768x32_02_1_1_1_wf : ScatterDims.WF S64x512x32 S32768x1 S64x32768x32 [0, 2] [1] [1] 1
  dot_S64x16384_S16384x256_S64x256_1_0_0_1_n_n_wf : DotDims.WF S64x16384 S16384x256 S64x256 [1] [0] [0] [1] [] []
  dot_S64x256_S256x128_S64x128_1_0_0_1_n_n_wf : DotDims.WF S64x256 S256x128 S64x128 [1] [0] [0] [1] [] []
  dot_S64x128_S128x2_S64x2_1_0_0_1_n_n_wf : DotDims.WF S64x128 S128x2 S64x2 [1] [0] [0] [1] [] []

variable [Facts₀]

def scatter_S512_S32768x1_S32768_n_0_0_1 : ScatterDims S512 S32768x1 S32768 where
  updateWindowDims := []
  insertedWindowDims := [0]
  scatterDimsToOperandDims := [0]
  indexVectorDim := 1
  wf := scatter_S512_S32768x1_S32768_n_0_0_1_wf
def gather_S512_S32768x1_S32768_n_0_n_n_0_1_1 : GatherDims S512 S32768x1 S32768 where
  offsetDims := []
  collapsedSliceDims := [0]
  operandBatchingDims := []
  startIndicesBatchingDims := []
  startIndexMap := [0]
  indexVectorDim := 1
  sliceSizes := ![1]
  wf := gather_S512_S32768x1_S32768_n_0_n_n_0_1_1_wf
def dot_S64x512x50_S50x32_S64x512x32_2_0_01_1_n_n : DotDims S64x512x50 S50x32 S64x512x32 where
  lhsContracting := [2]
  rhsContracting := [0]
  lhsNonContracting := [0, 1]
  rhsNonContracting := [1]
  lhsBatch := []
  rhsBatch := []
  wf := dot_S64x512x50_S50x32_S64x512x32_2_0_01_1_n_n_wf
def gather_S64x512x50_S32768x1_S64x32768x50_02_1_n_n_1_1_64150 : GatherDims S64x512x50 S32768x1 S64x32768x50 where
  offsetDims := [0, 2]
  collapsedSliceDims := [1]
  operandBatchingDims := []
  startIndicesBatchingDims := []
  startIndexMap := [1]
  indexVectorDim := 1
  sliceSizes := ![64, 1, 50]
  wf := gather_S64x512x50_S32768x1_S64x32768x50_02_1_n_n_1_1_64150_wf
def scatter_S64x512x50_S32768x1_S64x32768x50_02_1_1_1 : ScatterDims S64x512x50 S32768x1 S64x32768x50 where
  updateWindowDims := [0, 2]
  insertedWindowDims := [1]
  scatterDimsToOperandDims := [1]
  indexVectorDim := 1
  wf := scatter_S64x512x50_S32768x1_S64x32768x50_02_1_1_1_wf
def dot_S64x512x32_S32x32_S64x512x32_2_0_01_1_n_n : DotDims S64x512x32 S32x32 S64x512x32 where
  lhsContracting := [2]
  rhsContracting := [0]
  lhsNonContracting := [0, 1]
  rhsNonContracting := [1]
  lhsBatch := []
  rhsBatch := []
  wf := dot_S64x512x32_S32x32_S64x512x32_2_0_01_1_n_n_wf
def gather_S64x512x32_S32768x1_S64x32768x32_02_1_n_n_1_1_64132 : GatherDims S64x512x32 S32768x1 S64x32768x32 where
  offsetDims := [0, 2]
  collapsedSliceDims := [1]
  operandBatchingDims := []
  startIndicesBatchingDims := []
  startIndexMap := [1]
  indexVectorDim := 1
  sliceSizes := ![64, 1, 32]
  wf := gather_S64x512x32_S32768x1_S64x32768x32_02_1_n_n_1_1_64132_wf
def scatter_S64x512x32_S32768x1_S64x32768x32_02_1_1_1 : ScatterDims S64x512x32 S32768x1 S64x32768x32 where
  updateWindowDims := [0, 2]
  insertedWindowDims := [1]
  scatterDimsToOperandDims := [1]
  indexVectorDim := 1
  wf := scatter_S64x512x32_S32768x1_S64x32768x32_02_1_1_1_wf
def dot_S64x16384_S16384x256_S64x256_1_0_0_1_n_n : DotDims S64x16384 S16384x256 S64x256 where
  lhsContracting := [1]
  rhsContracting := [0]
  lhsNonContracting := [0]
  rhsNonContracting := [1]
  lhsBatch := []
  rhsBatch := []
  wf := dot_S64x16384_S16384x256_S64x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KerRun.lean ====
/-
  THE KERNEL PROGRAM'S RUN, WITH ITS RESULT NAMED.

  From any launch memory with zero counters every weakly fair execution of the program on the TensorCores
  terminates without fault; in every final state the result array holds what the second region's write-backs
  leave (the folded contents of its output window), and every argument array is as launched.
-/
import proofs.«154162_j16277926052608_1_alg».proof.Proof.Gen.KernelIdeal.Frame
import Idealize.ShloMosaic.PureOps.Ideal

set_option maxRecDepth 16384

noncomputable section

namespace Cert.KerHead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- The run of the whole program: it terminates without fault, the result array ends at the folded contents of the
    second region's output window, and each of the 21 argument arrays ends as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v66) = (Gen.dat1 (Gen.V7 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v66 (by decide))).trans (W8_arr m ρ c 7),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)

end Cert.KerHead

end
-- ==== Proof.KerHEntry.lean ====
/-
  WHAT THE SECOND REGION FINDS IN ITS INPUT ARRAYS.

  Between the two regions the program reshapes the first region's result [64, 512, 32] to [64, 16384], changes the
  float format of the three weight matrices (the identity on extended reals) and gives each bias vector [B] a
  leading unit axis [1, B]. No host operation and no region writes a parameter array, so each one is read back,
  boundary by boundary, to the launch memory.
-/
import proofs.«154162_j16277926052608_1_alg».proof.Proof.Gen.KernelIdeal.Frame
import Idealize.ShloMosaic.PureOps.Ideal
import Idealize.ShloMosaic.Lib.ValueIdx
import Idealize.ShloMosaic.Lib.ValueLayout
import Idealize.ShloMosaic.Lib.StableHlo.Run

set_option maxRecDepth 16384

noncomputable section

namespace Cert.KerHead

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg)

/-- Parameter array 15 at the first region's exit is as launched: nothing between the launch and that boundary,
    and nothing after it, writes it. -/
theorem W6_arg15 (c : Dev nD) : W6 m ρ c (Proc.devRef .tc main_arg15) = m ((c : Thread nD τ).loc main_arg15) := by
  have h7 : W7 m ρ c (Proc.devRef .tc main_arg15) = W6 m ρ c (Proc.devRef .tc main_arg15) := by
    show StableHlo.after hostOps1 (W6 m ρ c) (Proc.devRef .tc main_arg15) = _
    after_results
  rw [← h7, ← W8_of_ne m ρ c main_arg15 (by decide)]
  exact W8_main_arg15 m ρ c

/-- Parameter array 16 at the first region's exit is as launched: nothing between the launch and that boundary,
    and nothing after it, writes it. -/
theorem W6_arg16 (c : Dev nD) : W6 m ρ c (Proc.devRef .tc main_arg16) = m ((c : Thread nD τ).loc main_arg16) := by
  have h7 : W7 m ρ c (Proc.devRef .tc main_arg16) = W6 m ρ c (Proc.devRef .tc main_arg16) := by
    show StableHlo.after hostOps1 (W6 m ρ c) (Proc.devRef .tc main_arg16) = _
    after_results
  rw [← h7, ← W8_of_ne m ρ c main_arg16 (by decide)]
  exact W8_main_arg16 m ρ c

/-- Parameter array 17 at the first region's exit is as launched: nothing between the launch and that boundary,
    and nothing after it, writes it. -/
theorem W6_arg17 (c : Dev nD) : W6 m ρ c (Proc.devRef .tc main_arg17) = m ((c : Thread nD τ).loc main_arg17) := by
  have h7 : W7 m ρ c (Proc.devRef .tc main_arg17) = W6 m ρ c (Proc.devRef .tc main_arg17) := by
    show StableHlo.after hostOps1 (W6 m ρ c) (Proc.devRef .tc main_arg17) = _
    after_results
  rw [← h7, ← W8_of_ne m ρ c main_arg17 (by decide)]
  exact W8_main_arg17 m ρ c

/-- Parameter array 18 at the first region's exit is as launched: nothing between the launch and that boundary,
    and nothing after it, writes it. -/
theorem W6_arg18 (c : Dev nD) : W6 m ρ c (Proc.devRef .tc main_arg18) = m ((c : Thread nD τ).loc main_arg18) := by
  have h7 : W7 m ρ c (Proc.devRef .tc main_arg18) = W6 m ρ c (Proc.devRef .tc main_arg18) := by
    show StableHlo.after hostOps1 (W6 m ρ c) (Proc.devRef .tc main_arg18) = _
    after_results
  rw [← h7, ← W8_of_ne m ρ c main_arg18 (by decide)]
  exact W8_main_arg18 m ρ c

/-- Parameter array 19 at the first region's exit is as launched: nothing between the launch and that boundary,
    and nothing after it, writes it. -/
theorem W6_arg19 (c : Dev nD) : W6 m ρ c (Proc.devRef .tc main_arg19) = m ((c : Thread nD τ).loc main_arg19) := by
  have h7 : W7 m ρ c (Proc.devRef .tc main_arg19) = W6 m ρ c (Proc.devRef .tc main_arg19) := by
    show StableHlo.after hostOps1 (W6 m ρ c) (Proc.devRef .tc main_arg19) = _
    after_results
  rw [← h7, ← W8_of_ne m ρ c main_arg19 (by decide)]
  exact W8_main_arg19 m ρ c

/-- Parameter array 20 at the first region's exit is as launched: nothing between the launch and that boundary,
    and nothing after it, writes it. -/
theorem W6_arg20 (c : Dev nD) : W6 m ρ c (Proc.devRef .tc main_arg20) = m ((c : Thread nD τ).loc main_arg20) := by
  have h7 : W7 m ρ c (Proc.devRef .tc main_arg20) = W6 m ρ c (Proc.devRef .tc main_arg20) := by
    show StableHlo.after hostOps1 (W6 m ρ c) (Proc.devRef .tc main_arg20) = _
    after_results
  rw [← h7, ← W8_of_ne m ρ c main_arg20 (by decide)]
  exact W8_main_arg20 m ρ c

/-- The second region finds weight matrix 15, its float format changed (the identity on extended reals), in
    its input array. -/
theorem V7_v60 (c : Dev nD) :
    (V7 m ρ c main_v60 : S16384x256.Idx → EReal) = (m ((c : Thread nD τ).loc main_arg15) : S16384x256.Idx → EReal) := by
  show StableHlo.after hostOps1 (W6 m ρ c) (Proc.devRef .tc main_v60) = _
  after_results
  rw [W6_arg15]
  rfl

/-- The second region finds weight matrix 17, its float format changed (the identity on extended reals), in
    its input array. -/
theorem V7_v61 (c : Dev nD) :
    (V7 m ρ c main_v61 : S256x128.Idx → EReal) = (m ((c : Thread nD τ).loc main_arg17) : S256x128.Idx → EReal) := by
  show StableHlo.after hostOps1 (W6 m ρ c) (Proc.devRef .tc main_v61) = _
  after_results
  rw [W6_arg17]
  rfl

/-- The second region finds weight matrix 19, its float format changed (the identity on extended reals), in
    its input array. -/
theorem V7_v62 (c : Dev nD) :
    (V7 m ρ c main_v62 : S128x2.Idx → EReal) = (m ((c : Thread nD τ).loc main_arg19) : S128x2.Idx → EReal) := by
  show StableHlo.after hostOps1 (W6 m ρ c) (Proc.devRef .tc main_v62) = _
  after_results
  rw [W6_arg19]
  rfl

/-- The second region finds bias vector 16, with a leading unit axis, in its input array. -/
theorem V7_v63 (c : Dev nD) :
    (V7 m ρ c main_v63 : S1x256.Idx → EReal)
      = shapeCast S1x256 (m ((c : Thread nD τ).loc main_arg16) : S256.Idx → EReal) shapeCasts_S256_S1x256 := by
  show StableHlo.after hostOps1 (W6 m ρ c) (Proc.devRef .tc main_v63) = _
  after_results
  rw [W6_arg16]
  rfl

/-- The second region finds bias vector 18, with a leading unit axis, in its input array. -/
theorem V7_v64 (c : Dev nD) :
    (V7 m ρ c main_v64 : S1x128.Idx → EReal)
      = shapeCast S1x128 (m ((c : Thread nD τ).loc main_arg18) : S128.Idx → EReal) shapeCasts_S128_S1x128 := by
  show StableHlo.after hostOps1 (W6 m ρ c) (Proc.devRef .tc main_v64) = _
  after_results
  rw [W6_arg18]
  rfl

/-- The second region finds bias vector 20, with a leading unit axis, in its input array. -/
theorem V7_v65 (c : Dev nD) :
    (V7 m ρ c main_v65 : S1x2.Idx → EReal)
      = shapeCast S1x2 (m ((c : Thread nD τ).loc main_arg20) : S2.Idx → EReal) shapeCasts_S2_S1x2 := by
  show StableHlo.after hostOps1 (W6 m ρ c) (Proc.devRef .tc main_v65) = _
  after_results
  rw [W6_arg20]
  rfl

/-- The second region finds the first region's result, reshaped [64, 512, 32] → [64, 16384], in its first input
    array. -/
theorem V7_v59 (c : Dev nD) :
    (V7 m ρ c main_v59 : S64x16384.Idx → EReal)
      = shapeCast S64x16384 ((dat0 (V5 m ρ) c).arrAt 14 cfg0.N : S64x512x32.Idx → EReal) shapeCasts_S64x512x32_S64x16384 := by
  show StableHlo.after hostOps1 (W6 m ρ c) (Proc.devRef .tc main_v59) = _
  after_results
  rw [show W6 m ρ c (Proc.devRef .tc main_v58) = (dat0 (V5 m ρ) c).arrAt 14 cfg0.N from W6_arr m ρ c 14]
  rfl

end Cert.KerHead

end
-- ==== Proof.KerHBlk.lean ====
/-
  THE SECOND REGION'S BLOCKS ARE WHOLE ARRAYS.

  The second region has one grid point and every window's block is its whole array: each index map is constantly
  zero, so the element at coordinate (p, q) of a block is the element at (p, q) of the array, and the output's
  one block covers the whole result array.
-/
import proofs.«154162_j16277926052608_1_alg».proof.Proof.Gen.KernelIdeal.Frame
import Idealize.ShloMosaic.Lib.ValueIdx

set_option maxRecDepth 16384

noncomputable section

namespace Cert.KerHead

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- The zero offsets of a whole-array access. -/
theorem hz2 : (![0, 0] : Fin 2 → Nat) = fun _ => 0 := funext fun a => by fin_cases a <;> rfl

/-- Every window's block index is zero on both axes at every grid point (decided over the one-point grid). -/
theorem idx_facts : ∀ t : Fin cfg1.N, win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

variable (V : (c : Dev nD) → (b : Ref sig .tc) → Buf (Elt F) ((c : Thread nD τ).loc b))

/-- Input window 0's block at any point is the whole of its array: read at (p, q) it is the array at (p, q). -/
theorem blk1_0 (c : Dev nD) (t : Fin cfg1.N) (p : Fin 64) (q : Fin 16384) :
    iblk1 V c 0 t (ix2 p q) = (V c main_v59 : S64x16384.Idx → Elt F .f32) (ix2 p q) := by
  show V c main_v59 (((cfg1.win 0).blk t).view.emb (ix2 p q)) = V c main_v59 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_0.index t (0 : Fin 2) * 64 + 1 * p.val = p.val; omega
  | ⟨1, _⟩ => show win1_0.index t (1 : Fin 2) * 16384 + 1 * q.val = q.val; omega

/-- Input window 1's block at any point is the whole of its array: read at (p, q) it is the array at (p, q). -/
theorem blk1_1 (c : Dev nD) (t : Fin cfg1.N) (p : Fin 16384) (q : Fin 256) :
    iblk1 V c 1 t (ix2 p q) = (V c main_v60 : S16384x256.Idx → Elt F .bf16) (ix2 p q) := by
  show V c main_v60 (((cfg1.win 1).blk t).view.emb (ix2 p q)) = V c main_v60 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_1.index t (0 : Fin 2) * 16384 + 1 * p.val = p.val; omega
  | ⟨1, _⟩ => show win1_1.index t (1 : Fin 2) * 256 + 1 * q.val = q.val; omega

/-- Input window 2's block at any point is the whole of its array: read at (p, q) it is the array at (p, q). -/
theorem blk1_2 (c : Dev nD) (t : Fin cfg1.N) (p : Fin 1) (q : Fin 256) :
    iblk1 V c 2 t (ix2 p q) = (V c main_v63 : S1x256.Idx → Elt F .f32) (ix2 p q) := by
  show V c main_v63 (((cfg1.win 2).blk t).view.emb (ix2 p q)) = V c main_v63 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_2.index t (0 : Fin 2) * 1 + 1 * p.val = p.val; omega
  | ⟨1, _⟩ => show win1_2.index t (1 : Fin 2) * 256 + 1 * q.val = q.val; omega

/-- Input window 3's block at any point is the whole of its array: read at (p, q) it is the array at (p, q). -/
theorem blk1_3 (c : Dev nD) (t : Fin cfg1.N) (p : Fin 256) (q : Fin 128) :
    iblk1 V c 3 t (ix2 p q) = (V c main_v61 : S256x128.Idx → Elt F .bf16) (ix2 p q) := by
  show V c main_v61 (((cfg1.win 3).blk t).view.emb (ix2 p q)) = V c main_v61 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_3.index t (0 : Fin 2) * 256 + 1 * p.val = p.val; omega
  | ⟨1, _⟩ => show win1_3.index t (1 : Fin 2) * 128 + 1 * q.val = q.val; omega

/-- Input window 4's block at any point is the whole of its array: read at (p, q) it is the array at (p, q). -/
theorem blk1_4 (c : Dev nD) (t : Fin cfg1.N) (p : Fin 1) (q : Fin 128) :
    iblk1 V c 4 t (ix2 p q) = (V c main_v64 : S1x128.Idx → Elt F .f32) (ix2 p q) := by
  show V c main_v64 (((cfg1.win 4).blk t).view.emb (ix2 p q)) = V c main_v64 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_4.index t (0 : Fin 2) * 1 + 1 * p.val = p.val; omega
  | ⟨1, _⟩ => show win1_4.index t (1 : Fin 2) * 128 + 1 * q.val = q.val; omega

/-- Input window 5's block at any point is the whole of its array: read at (p, q) it is the array at (p, q). -/
theorem blk1_5 (c : Dev nD) (t : Fin cfg1.N) (p : Fin 128) (q : Fin 2) :
    iblk1 V c 5 t (ix2 p q) = (V c main_v62 : S128x2.Idx → Elt F .bf16) (ix2 p q) := by
  show V c main_v62 (((cfg1.win 5).blk t).view.emb (ix2 p q)) = V c main_v62 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_5.index t (0 : Fin 2) * 128 + 1 * p.val = p.val; omega
  | ⟨1, _⟩ => show win1_5.index t (1 : Fin 2) * 2 + 1 * q.val = q.val; omega

/-- Input window 6's block at any point is the whole of its array: read at (p, q) it is the array at (p, q). -/
theorem blk1_6 (c : Dev nD) (t : Fin cfg1.N) (p : Fin 1) (q : Fin 2) :
    iblk1 V c 6 t (ix2 p q) = (V c main_v65 : S1x2.Idx → Elt F .f32) (ix2 p q) := by
  show V c main_v65 (((cfg1.win 6).blk t).view.emb (ix2 p q)) = V c main_v65 (ix2 p q)
  refine congrArg _ (funext fun ax => Fin.ext ?_)
  obtain ⟨e00, e01, e10, e11, e20, e21, e30, e31, e40, e41, e50, e51, e60, e61, e70, e71⟩ := idx_facts t
  match ax with
  | ⟨0, _⟩ => show win1_6.index t (0 : Fin 2) * 1 + 1 * p.val = p.val; omega
  | ⟨1, _⟩ => show win1_6.index t (1 : Fin 2) * 2 + 1 * q.val = q.val; omega

/-- The output window's block sits at the array's origin: the block's coordinate (p, q) is the array's (p, q). -/
theorem emb1_7 (t : Fin cfg1.N) (p : Fin 64) (q : Fin 2) :
    ((cfg1.win 7).blk t).view.emb (ix2 p q) = (ix2 p q : S64x2.Idx) := by
  refine funext fun ax => Fin.ext ?_
  obtain ⟨e00, e01, e10, e11, e20, e21, e30, e31, e40, e41, e50, e51, e60, e61, e70, e71⟩ := idx_facts t
  match ax with
  | ⟨0, _⟩ => show win1_7.index t (0 : Fin 2) * 64 + 1 * p.val = p.val; omega
  | ⟨1, _⟩ => show win1_7.index t (1 : Fin 2) * 2 + 1 * q.val = q.val; omega

/-- An index of the result array is in point `t`'s output block iff each coordinate is in the block's range. -/
theorem mem_blk1_7 (t : Fin cfg1.N) (i : S64x2.Idx) :
    i ∈ ((cfg1.win 7).blk t).view.set ↔ ∀ a : Fin 2, win1_7.index t a * S64x2.size a ≤ (i a).val ∧ (i a).val < win1_7.index t a * S64x2.size a + S64x2.size a := by
  show i ∈ ((View.whole main_v66).slice (win1_7.rect t)).set ↔ _
  rw [View.set_slice_whole, Rect.mem_set_unit]
  exact Iff.rfl

/-- The one grid point's output block covers the whole result array. -/
theorem cover1_7_all (i : S64x2.Idx) :
    ∃ t : Fin cfg1.N, (cfg1.win 7).flush t = true ∧ i ∈ ((cfg1.win 7).blk t).view.set := by
  refine ⟨t1_0, flush1_7 t1_0, ?_⟩
  rw [mem_blk1_7]
  obtain ⟨e00, e01, e10, e11, e20, e21, e30, e31, e40, e41, e50, e51, e60, e61, e70, e71⟩ := idx_facts t1_0
  have hi0 : (i 0).val < 64 := (i 0).isLt
  have hi1 : (i 1).val < 2 := (i 1).isLt
  intro a
  match a with
  | ⟨0, _⟩ => show win1_7.index t1_0 (0 : Fin 2) * 64 ≤ (i 0).val ∧ (i 0).val < win1_7.index t1_0 (0 : Fin 2) * 64 + 64; omega
  | ⟨1, _⟩ => show win1_7.index t1_0 (1 : Fin 2) * 2 ≤ (i 1).val ∧ (i 1).val < win1_7.index t1_0 (1 : Fin 2) * 2 + 2; omega

end Cert.KerHead

end
-- ==== Proof.Net.lean ====
/-
  THE NETWORK BOTH PROGRAMS COMPUTE, over the extended reals, index by index.

  A graph on 512 nodes is given by 32768 edges `e` with a source `src e`, a destination `dst e` and a weight
  `nrm e`. PROPAGATION sends node features `h : [512, C]` to the features whose row `n` is the sum, over the
  edges that end in `n`, of `nrm e` times row `src e` of `h` (`propS`: edge by edge). The same map is the product
  with the 512 × 512 matrix whose entry `(n, j)` is the sum of the weights of the edges from `j` to `n`
  (`lap`, `propD`). One LAYER (`cheb`) is `h · W₀ + prop(h) · W₁ + b`; the network (`net`) is six layers, a
  `max(·, 0)` after each of the first five, the 512 × 32 result of each sample flattened row by row to 16384
  numbers, and three affine maps `y ↦ y · F + c`.

  `net` takes the propagation as a parameter `P`: one program propagates through the matrix, the other edge by
  edge. Nothing here says the two agree; that is proved where finiteness is known.
-/
import Idealize.ShloMosaic.PureOps.Ideal
import Idealize.ShloMosaic.Lib.ValueIdx

noncomputable section

open scoped BigOperators

namespace Cert.Cheb

/-- Rows times columns: `(X · W)[a, b] = ∑ k, X[a, k] · W[k, b]`. -/
def mm {A K B : ℕ} (X : Fin A → Fin K → EReal) (W : Fin K → Fin B → EReal) : Fin A → Fin B → EReal :=
  fun a b => ∑ k : Fin K, X a k * W k b

/-- Propagation through a 512 × 512 matrix: row `n` of the result is `∑ j, L[n, j] · h[j, ·]`. -/
def propD (L : Fin 512 → Fin 512 → EReal) {C : ℕ} (h : Fin 512 → Fin C → EReal) : Fin 512 → Fin C → EReal :=
  fun n c => ∑ j : Fin 512, L n j * h j c

/-- The matrix of a weighted edge list: entry `(n, j)` is the sum of the weights of the edges from `j` to `n`. -/
def lap (src dst : Fin 32768 → Fin 512) (nrm : Fin 32768 → EReal) : Fin 512 → Fin 512 → EReal :=
  fun n j => ∑ e : Fin 32768, if dst e = n ∧ src e = j then nrm e else 0

/-- Propagation edge by edge: row `n` of the result is the sum over the edges ending in `n` of the edge's weight
    times the source's row. -/
def propS (src dst : Fin 32768 → Fin 512) (nrm : Fin 32768 → EReal) {C : ℕ} (h : Fin 512 → Fin C → EReal) :
    Fin 512 → Fin C → EReal :=
  fun n c => ∑ e : Fin 32768, if dst e = n then nrm e * h (src e) c else 0

/-- One layer: `h · W₀ + P(h) · W₁ + b`, the bias added to every row. -/
def cheb {C : ℕ} (P : (Fin 512 → Fin C → EReal) → Fin 512 → Fin C → EReal) (W : Fin 2 → Fin C → Fin 32 → EReal)
    (b : Fin 32 → EReal) (h : Fin 512 → Fin C → EReal) : Fin 512 → Fin 32 → EReal :=
  fun n f => mm h (W 0) n f + mm (P h) (W 1) n f + b f

/-- `max(·, 0)`, entry by entry. -/
def relu {A B : ℕ} (h : Fin A → Fin B → EReal) : Fin A → Fin B → EReal := fun a b => max (h a b) 0

/-- An affine map on rows: `X · W + c`. -/
def dense {A K B : ℕ} (X : Fin A → Fin K → EReal) (W : Fin K → Fin B → EReal) (c : Fin B → EReal) :
    Fin A → Fin B → EReal :=
  fun a b => mm X W a b + c b

/-- The parameters of the network. -/
structure Params where
  W1 : Fin 2 → Fin 50 → Fin 32 → EReal
  b1 : Fin 32 → EReal
  W2 : Fin 2 → Fin 32 → Fin 32 → EReal
  b2 : Fin 32 → EReal
  W3 : Fin 2 → Fin 32 → Fin 32 → EReal
  b3 : Fin 32 → EReal
  W4 : Fin 2 → Fin 32 → Fin 32 → EReal
  b4 : Fin 32 → EReal
  W5 : Fin 2 → Fin 32 → Fin 32 → EReal
  b5 : Fin 32 → EReal
  W6 : Fin 2 → Fin 32 → Fin 32 → EReal
  b6 : Fin 32 → EReal
  F1 : Fin 16384 → Fin 256 → EReal
  c1 : Fin 256 → EReal
  F2 : Fin 256 → Fin 128 → EReal
  c2 : Fin 128 → EReal
  F3 : Fin 128 → Fin 2 → EReal
  c3 : Fin 2 → EReal

/-- The six layers on one sample. -/
def stack (P : {C : ℕ} → (Fin 512 → Fin C → EReal) → Fin 512 → Fin C → EReal) (θ : Params)
    (x : Fin 512 → Fin 50 → EReal) : Fin 512 → Fin 32 → EReal :=
  cheb P θ.W6 θ.b6 (relu (cheb P θ.W5 θ.b5 (relu (cheb P θ.W4 θ.b4 (relu (cheb P θ.W3 θ.b3
    (relu (cheb P θ.W2 θ.b2 (relu (cheb P θ.W1 θ.b1 x))))))))))

/-- A sample's 512 × 32 features as 16384 numbers, row by row: position `k` holds entry `(k / 32, k % 32)`. -/
def flat (g : Fin 64 → Fin 512 → Fin 32 → EReal) : Fin 64 → Fin 16384 → EReal :=
  fun s k => g s ⟨k.val / 32, by have := k.isLt; omega⟩ ⟨k.val % 32, Nat.mod_lt _ (by norm_num)⟩

/-- The whole network on the 64 samples. -/
def net (P : {C : ℕ} → (Fin 512 → Fin C → EReal) → Fin 512 → Fin C → EReal) (θ : Params)
    (x : Fin 64 → Fin 512 → Fin 50 → EReal) : Fin 64 → Fin 2 → EReal :=
  dense (dense (dense (flat fun s => stack P θ (x s)) θ.F1 θ.c1) θ.F2 θ.c2) θ.F3 θ.c3

open Idealize.ShloMosaic Idealize.ShloMosaic.ValueIdx in
/-- The parameters read off the eighteen parameter arrays, each at its literal shape. -/
def paramsOf
    (a3 : (⟨3, ![2, 50, 32]⟩ : Shape).Idx → EReal) (a4 : (⟨1, ![32]⟩ : Shape).Idx → EReal)
    (a5 : (⟨3, ![2, 32, 32]⟩ : Shape).Idx → EReal) (a6 : (⟨1, ![32]⟩ : Shape).Idx → EReal)
    (a7 : (⟨3, ![2, 32, 32]⟩ : Shape).Idx → EReal) (a8 : (⟨1, ![32]⟩ : Shape).Idx → EReal)
    (a9 : (⟨3, ![2, 32, 32]⟩ : Shape).Idx → EReal) (a10 : (⟨1, ![32]⟩ : Shape).Idx → EReal)
    (a11 : (⟨3, ![2, 32, 32]⟩ : Shape).Idx → EReal) (a12 : (⟨1, ![32]⟩ : Shape).Idx → EReal)
    (a13 : (⟨3, ![2, 32, 32]⟩ : Shape).Idx → EReal) (a14 : (⟨1, ![32]⟩ : Shape).Idx → EReal)
    (a15 : (⟨2, ![16384, 256]⟩ : Shape).Idx → EReal) (a16 : (⟨1, ![256]⟩ : Shape).Idx → EReal)
    (a17 : (⟨2, ![256, 128]⟩ : Shape).Idx → EReal) (a18 : (⟨1, ![128]⟩ : Shape).Idx → EReal)
    (a19 : (⟨2, ![128, 2]⟩ : Shape).Idx → EReal) (a20 : (⟨1, ![2]⟩ : Shape).Idx → EReal) : Params where
  W1 := fun k c f => a3 (ix3 k c f)
  b1 := fun f => a4 (ix1 f)
  W2 := fun k c f => a5 (ix3 k c f)
  b2 := fun f => a6 (ix1 f)
  W3 := fun k c f => a7 (ix3 k c f)
  b3 := fun f => a8 (ix1 f)
  W4 := fun k c f => a9 (ix3 k c f)
  b4 := fun f => a10 (ix1 f)
  W5 := fun k c f => a11 (ix3 k c f)
  b5 := fun f => a12 (ix1 f)
  W6 := fun k c f => a13 (ix3 k c f)
  b6 := fun f => a14 (ix1 f)
  F1 := fun k j => a15 (ix2 k j)
  c1 := fun j => a16 (ix1 j)
  F2 := fun k j => a17 (ix2 k j)
  c2 := fun j => a18 (ix1 j)
  F3 := fun k j => a19 (ix2 k j)
  c3 := fun j => a20 (ix1 j)

end Cert.Cheb

end
-- ==== Proof.KerHMat.lean ====
/-
  ONE AFFINE STAGE READ AT AN ENTRY.

  A rows-by-columns product into a zero accumulator, read at entry (a, b), is the sum over the contracted
  coordinate k of X[a, k] · W[k, b]; adding a one-row array broadcast over the rows adds that row's entry b.
  Together this is the affine map X · W + c of the network, entry by entry. Everything is over the extended
  reals, where a change of float format is the identity.
-/
import Idealize.ShloMosaic.PureOps.Ideal.Laws
import Idealize.ShloMosaic.Lib.ValueIdx
import Idealize.ShloMosaic.Lib.ValueLayout
import proofs.«154162_j16277926052608_1_alg».proof.Proof.Net

noncomputable section

open scoped BigOperators

namespace Cert.KerHead

open Idealize.ShloMosaic Idealize.ShloMosaic.ValueIdx

/-- A product of an A × K by a K × B matrix into a zero accumulator, read at (a, b), is ∑ k, X[a, k] · W[k, b]. -/
theorem matmul_rows_apply {A K B : ℕ} {φ₁ φ₂ : FTy}
    (w : DotDims.WF ⟨2, ![A, K]⟩ ⟨2, ![K, B]⟩ ⟨2, ![A, B]⟩ [1] [0] [0] [1] [] [])
    (X : FVec Ideal ⟨2, ![A, K]⟩ φ₁) (W : FVec Ideal ⟨2, ![K, B]⟩ φ₂) (a : Fin A) (b : Fin B) :
    matmul (⟨[1], [0], [0], [1], [], [], w⟩ : DotDims _ _ _) none X W (constant ⟨2, ![A, B]⟩ .f32 0x00000000#32) (ix2 a b)
      = ∑ k : Fin K, X (ix2 a k) * W (ix2 k b) := by
  show FloatOps.matmul _ none X W _ (ix2 a b) = _
  rw [Ideal.matmul_constant_zero_apply,
    ← Equiv.sum_comp (contrEquiv1 (⟨[1], [0], [0], [1], [], [], w⟩ : DotDims _ _ _) K rfl rfl).symm]
  refine Finset.sum_congr rfl fun k _ => ?_
  have hk := contrEquiv1_symm_val
    (⟨[1], [0], [0], [1], [], [], w⟩ : DotDims ⟨2, ![A, K]⟩ ⟨2, ![K, B]⟩ ⟨2, ![A, B]⟩) K rfl rfl k
  have el : (⟨[1], [0], [0], [1], [], [], w⟩ : DotDims ⟨2, ![A, K]⟩ ⟨2, ![K, B]⟩ ⟨2, ![A, B]⟩).lhsIdx (ix2 a b)
      ((contrEquiv1 _ K rfl rfl).symm k) = ix2 a k := by
    funext ax; apply Fin.ext
    match ax with
    | ⟨0, _⟩ => simp [DotDims.lhsIdx]; rfl
    | ⟨1, _⟩ => simp [DotDims.lhsIdx]; exact hk
  have er : (⟨[1], [0], [0], [1], [], [], w⟩ : DotDims ⟨2, ![A, K]⟩ ⟨2, ![K, B]⟩ ⟨2, ![A, B]⟩).rhsIdx (ix2 a b)
      ((contrEquiv1 _ K rfl rfl).symm k) = ix2 k b := by
    funext ax; apply Fin.ext
    match ax with
    | ⟨0, _⟩ => simp [DotDims.rhsIdx]; exact hk
    | ⟨1, _⟩ => simp [DotDims.rhsIdx]; rfl
  rw [el, er]

/-- One affine stage, as a function of the entry: the product into a zero accumulator plus the broadcast row is
    `X · W + c`. -/
theorem stage_eq {A K B : ℕ} {φ₁ φ₂ : FTy}
    (w : DotDims.WF ⟨2, ![A, K]⟩ ⟨2, ![K, B]⟩ ⟨2, ![A, B]⟩ [1] [0] [0] [1] [] [])
    (hb : (⟨2, ![1, B]⟩ : Shape).Broadcasts ⟨2, ![A, B]⟩)
    (X : FVec Ideal ⟨2, ![A, K]⟩ φ₁) (W : FVec Ideal ⟨2, ![K, B]⟩ φ₂) (bias : FVec Ideal ⟨2, ![1, B]⟩ .f32) :
    (fun (a : Fin A) (b : Fin B) =>
      addf (matmul (⟨[1], [0], [0], [1], [], [], w⟩ : DotDims _ _ _) none X W (constant ⟨2, ![A, B]⟩ .f32 0x00000000#32))
        (broadcastTo ⟨2, ![A, B]⟩ bias hb) (ix2 a b))
      = Cert.Cheb.dense (fun a k => X (ix2 a k)) (fun k b => W (ix2 k b)) (fun b => bias (ix2 (0 : Fin 1) b)) := by
  funext a b
  rw [addf_apply, matmul_rows_apply, broadcastTo_1b_ab_apply]
  rfl

end Cert.KerHead

end
-- ==== Proof.KerHPay.lean ====
/-
  THE HEAD'S ARITHMETIC READ AT AN ENTRY.

  The body of the second region computes, from the flattened features X [64, 16384], three weight matrices and
  three one-row bias arrays, the value ((X · F₁ + c₁) · F₂ + c₂) · F₃ + c₃: each product accumulates into a zero
  splat, each bias row is broadcast over the 64 rows, and the changes of float format between the stages are the
  identity on extended reals. Read at entry (s, o) this is three nested affine maps of the network.
-/
import proofs.«154162_j16277926052608_1_alg».proof.Proof.Gen.KernelIdeal.Skeleton
import proofs.«154162_j16277926052608_1_alg».proof.Proof.KerHMat

set_option maxRecDepth 16384

noncomputable section

namespace Cert.KerHead

open Cert.KernelIdeal Cert.KernelIdeal.Gen
open Idealize.ShloMosaic Idealize.ShloMosaic.ValueIdx

/-- The head's three affine stages, entry by entry, as a function of the seven arrays the body loads. -/
def headOf (v0 : S64x16384.Idx → EReal) (v3 : S16384x256.Idx → EReal) (v6 : S1x256.Idx → EReal)
    (v11 : S256x128.Idx → EReal) (v14 : S1x128.Idx → EReal) (v19 : S128x2.Idx → EReal) (v22 : S1x2.Idx → EReal) :
    Fin 64 → Fin 2 → EReal :=
  Cert.Cheb.dense (Cert.Cheb.dense (Cert.Cheb.dense (fun a k => v0 (ix2 a k)) (fun k b => v3 (ix2 k b)) (fun b => v6 (ix2 (0 : Fin 1) b)))
    (fun k b => v11 (ix2 k b)) (fun b => v14 (ix2 (0 : Fin 1) b)))
    (fun k b => v19 (ix2 k b)) (fun b => v22 (ix2 (0 : Fin 1) b))

/-- The body's stored value at entry (s, o) is the three nested affine maps of what it loaded. -/
theorem pay1_apply (v0 : Vec Ideal S64x16384 .f32) (v3 : Vec Ideal S16384x256 .bf16) (v6 : Vec Ideal S1x256 .f32)
    (v11 : Vec Ideal S256x128 .bf16) (v14 : Vec Ideal S1x128 .f32) (v19 : Vec Ideal S128x2 .bf16) (v22 : Vec Ideal S1x2 .f32)
    (s : Fin 64) (o : Fin 2) :
    k1_pay1 (F := Ideal) v0 v3 v6 v11 v14 v19 v22 (ix2 s o) = headOf v0 v3 v6 v11 v14 v19 v22 s o := by
  unfold k1_pay1 headOf
  simp only [shapeCast_self]
  refine (congrFun (congrFun (stage_eq dot_S64x128_S128x2_S64x2_1_0_0_1_n_n_wf broadcasts_S1x2_S64x2
    (truncf .bf16 (addf (matmul dot_S64x256_S256x128_S64x128_1_0_0_1_n_n none
      (truncf .bf16 (addf (matmul dot_S64x16384_S16384x256_S64x256_1_0_0_1_n_n none
        (truncf .bf16 (v0 : FVec Ideal S64x16384 .f32) bitsLt_bf16_f32) (v3 : FVec Ideal S16384x256 .bf16) (constant S64x256 .f32 0x00000000#32))
        (broadcastTo S64x256 (v6 : FVec Ideal S1x256 .f32) broadcasts_S1x256_S64x256)) bitsLt_bf16_f32)
      (v11 : FVec Ideal S256x128 .bf16) (constant S64x128 .f32 0x00000000#32))
      (broadcastTo S64x128 (v14 : FVec Ideal S1x128 .f32) broadcasts_S1x128_S64x128)) bitsLt_bf16_f32 : FVec Ideal S64x128 .bf16)
    (v19 : FVec Ideal S128x2 .bf16) (v22 : FVec Ideal S1x2 .f32)) s) o).trans ?_
  refine congrArg (fun X => Cert.Cheb.dense X (fun k b => v19 (ix2 k b)) (fun b => v22 (ix2 (0 : Fin 1) b)) s o) ?_
  refine (stage_eq dot_S64x256_S256x128_S64x128_1_0_0_1_n_n_wf broadcasts_S1x128_S64x128
    (truncf .bf16 (addf (matmul dot_S64x16384_S16384x256_S64x256_1_0_0_1_n_n none
      (truncf .bf16 (v0 : FVec Ideal S64x16384 .f32) bitsLt_bf16_f32) (v3 : FVec Ideal S16384x256 .bf16) (constant S64x256 .f32 0x00000000#32))
      (broadcastTo S64x256 (v6 : FVec Ideal S1x256 .f32) broadcasts_S1x256_S64x256)) bitsLt_bf16_f32 : FVec Ideal S64x256 .bf16)
    (v11 : FVec Ideal S256x128 .bf16) (v14 : FVec Ideal S1x128 .f32)).trans ?_
  refine congrArg (fun X => Cert.Cheb.dense X (fun k b => v11 (ix2 k b)) (fun b => v14 (ix2 (0 : Fin 1) b))) ?_
  exact stage_eq dot_S64x16384_S16384x256_S64x256_1_0_0_1_n_n_wf broadcasts_S1x256_S64x256
    (truncf .bf16 (v0 : FVec Ideal S64x16384 .f32) bitsLt_bf16_f32 : FVec Ideal S64x16384 .bf16)
    (v3 : FVec Ideal S16384x256 .bf16) (v6 : FVec Ideal S1x256 .f32)

end Cert.KerHead

end
-- ==== Proof.KerHead.lean ====
/-
  THE SECOND REGION'S RESULT.

  The second region has one grid point; its body loads seven whole arrays — the first region's result flattened
  row by row to [64, 16384], and the three weight matrices and three bias rows of the head as launched — and
  stores ((X · F₁ + c₁) · F₂ + c₂) · F₃ + c₃ into the whole result array. So the result array ends holding the
  three affine maps of the network applied to the flattened features, entry by entry.
-/
import proofs.«154162_j16277926052608_1_alg».proof.Proof.KerHEntry
import proofs.«154162_j16277926052608_1_alg».proof.Proof.KerHBlk
import proofs.«154162_j16277926052608_1_alg».proof.Proof.KerHPay

set_option maxRecDepth 16384

noncomputable section

namespace Cert.KerHead

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ) (ρ : Dev nD → PrngReg)

/-- The network's parameters as core `c`'s launch memory holds them. -/
abbrev θof (c : Dev nD) : Cert.Cheb.Params :=
  Cert.Cheb.paramsOf (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    (m ((c.tc : Thread nD τ).loc main_arg18))
    (m ((c.tc : Thread nD τ).loc main_arg19))
    (m ((c.tc : Thread nD τ).loc main_arg20))

/-- The head applied to per-sample features `G0`: the three affine maps of the flattened features. -/
abbrev headG (c : Dev nD) (G0 : Fin 64 → Fin 512 → Fin 32 → EReal) : Fin 64 → Fin 2 → EReal :=
  Cert.Cheb.dense (Cert.Cheb.dense (Cert.Cheb.dense (Cert.Cheb.flat G0) (θof m c).F1 (θof m c).c1) (θof m c).F2 (θof m c).c2)
    (θof m c).F3 (θof m c).c3

/-- The head is determined by its seven arrays entry by entry. -/
theorem headOf_eq (v0 : S64x16384.Idx → EReal) (v3 : S16384x256.Idx → EReal) (v6 : S1x256.Idx → EReal)
    (v11 : S256x128.Idx → EReal) (v14 : S1x128.Idx → EReal) (v19 : S128x2.Idx → EReal) (v22 : S1x2.Idx → EReal)
    (X : Fin 64 → Fin 16384 → EReal) (F1 : Fin 16384 → Fin 256 → EReal) (c1 : Fin 256 → EReal)
    (F2 : Fin 256 → Fin 128 → EReal) (c2 : Fin 128 → EReal) (F3 : Fin 128 → Fin 2 → EReal) (c3 : Fin 2 → EReal)
    (h0 : ∀ a k, v0 (ix2 a k) = X a k) (h1 : ∀ k b, v3 (ix2 k b) = F1 k b) (h2 : ∀ b, v6 (ix2 (0 : Fin 1) b) = c1 b)
    (h3 : ∀ k b, v11 (ix2 k b) = F2 k b) (h4 : ∀ b, v14 (ix2 (0 : Fin 1) b) = c2 b)
    (h5 : ∀ k b, v19 (ix2 k b) = F3 k b) (h6 : ∀ b, v22 (ix2 (0 : Fin 1) b) = c3 b) :
    headOf v0 v3 v6 v11 v14 v19 v22
      = Cert.Cheb.dense (Cert.Cheb.dense (Cert.Cheb.dense X F1 c1) F2 c2) F3 c3 := by
  unfold headOf
  rw [show (fun a k => v0 (ix2 a k)) = X from funext fun a => funext fun k => h0 a k,
    show (fun k b => v3 (ix2 k b)) = F1 from funext fun k => funext fun b => h1 k b,
    show (fun b => v6 (ix2 (0 : Fin 1) b)) = c1 from funext fun b => h2 b,
    show (fun k b => v11 (ix2 k b)) = F2 from funext fun k => funext fun b => h3 k b,
    show (fun b => v14 (ix2 (0 : Fin 1) b)) = c2 from funext fun b => h4 b,
    show (fun k b => v19 (ix2 k b)) = F3 from funext fun k => funext fun b => h5 k b,
    show (fun b => v22 (ix2 (0 : Fin 1) b)) = c3 from funext fun b => h6 b]

/-- The reshaped features at (a, k): position `k` of sample `a`'s row is entry (k / 32, k % 32) of its features. -/
theorem v59_apply (c : Dev nD) (G0 : Fin 64 → Fin 512 → Fin 32 → EReal)
    (hG0 : (dat0 (V5 m ρ) c).arrAt 14 cfg0.N = fun i => G0 (i 0) (i 1) (i 2)) (a : Fin 64) (k : Fin 16384) :
    (V7 m ρ c main_v59 : S64x16384.Idx → EReal) (ix2 a k) = Cert.Cheb.flat G0 a k := by
  rw [V7_v59, hG0]
  refine (shapeCast_apply _ _ (ix2 a k)
    (ix3 a (⟨k.val / 32, by have := k.isLt; omega⟩ : Fin 512) (⟨k.val % 32, Nat.mod_lt _ (by norm_num)⟩ : Fin 32)) ?_).trans rfl
  rw [Shape.rowMajor_val_three, Shape.rowMajor_val_two]
  show (a.val * 512 + k.val / 32) * 32 + k.val % 32 = a.val * 16384 + k.val
  omega

/-- WHAT THE ONE POINT WRITES BACK is the block of the head of the flattened features. -/
theorem flushed1_7_eq (c : Dev nD) (G0 : Fin 64 → Fin 512 → Fin 32 → EReal)
    (hG0 : (dat0 (V5 m ρ) c).arrAt 14 cfg0.N = fun i => G0 (i 0) (i 1) (i 2)) (t : Fin cfg1.N) :
    (dat1 (V7 m ρ) c).flushed 7 t
      = ((cfg1.win 7).blk t).view.read (Elt Ideal) (fun i : S64x2.Idx => headG m c G0 (i 0) (i 1)) := by
  show (cfg1.win 7).cut (grid1.coords t) ((dat1 (V7 m ρ) c).after 7 t) = _
  rw [after1_7]
  unfold out1_7
  rw [View.canon_unit_zero hz2]
  simp only [View.ld_unit_zero (S := S64x16384) hz2, View.ld_unit_zero (S := S16384x256) hz2, View.ld_unit_zero (S := S1x256) hz2, View.ld_unit_zero (S := S256x128) hz2, View.ld_unit_zero (S := S1x128) hz2, View.ld_unit_zero (S := S128x2) hz2, View.ld_unit_zero (S := S1x2) hz2]
  funext j
  obtain ⟨s, o, rfl⟩ : ∃ (s : Fin 64) (o : Fin 2), j = ix2 s o := ⟨j 0, j 1, eq_ix2 j⟩
  show k1_pay1 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (ix2 s o)
    = (fun i : S64x2.Idx => headG m c G0 (i 0) (i 1)) (((cfg1.win 7).blk t).view.emb (ix2 s o))
  rw [emb1_7]
  refine (pay1_apply (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) s o).trans ?_
  exact congrFun (congrFun (headOf_eq (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t)
    (Cert.Cheb.flat G0) (θof m c).F1 (θof m c).c1 (θof m c).F2 (θof m c).c2 (θof m c).F3 (θof m c).c3
    (fun a k => (blk1_0 (V7 m ρ) c t a k).trans (v59_apply m ρ c G0 hG0 a k))
    (fun k b => (blk1_1 (V7 m ρ) c t k b).trans (congrFun (V7_v60 m ρ c) (ix2 k b)))
    (fun b => (blk1_2 (V7 m ρ) c t 0 b).trans ((congrFun (V7_v63 m ρ c) (ix2 (0 : Fin 1) b)).trans (shapeCast_a_1a_apply _ _ 0 b)))
    (fun k b => (blk1_3 (V7 m ρ) c t k b).trans (congrFun (V7_v61 m ρ c) (ix2 k b)))
    (fun b => (blk1_4 (V7 m ρ) c t 0 b).trans ((congrFun (V7_v64 m ρ c) (ix2 (0 : Fin 1) b)).trans (shapeCast_a_1a_apply _ _ 0 b)))
    (fun k b => (blk1_5 (V7 m ρ) c t k b).trans (congrFun (V7_v62 m ρ c) (ix2 k b)))
    (fun b => (blk1_6 (V7 m ρ) c t 0 b).trans ((congrFun (V7_v65 m ρ c) (ix2 (0 : Fin 1) b)).trans (shapeCast_a_1a_apply _ _ 0 b)))) s) o

/-- THE SECOND REGION'S RESULT ARRAY, given the first region's result `G0`: entry (s, o) is the three affine maps of
    the network applied to the flattened features of sample `s`, at output `o`. -/
theorem region1 (c : Dev nD) (G0 : Fin 64 → Fin 512 → Fin 32 → EReal)
    (hG0 : (dat0 (V5 m ρ) c).arrAt 14 cfg0.N = fun i => G0 (i 0) (i 1) (i 2)) :
    (dat1 (V7 m ρ) c).arrAt 7 cfg1.N = fun i =>
      Cert.Cheb.dense (Cert.Cheb.dense (Cert.Cheb.dense (Cert.Cheb.flat G0) (θof m c).F1 (θof m c).c1)
        (θof m c).F2 (θof m c).c2) (θof m c).F3 (θof m c).c3 (i 0) (i 1) :=
  (dat1 (V7 m ρ) c).arrAt_eq_of_cover 7 (fun i : S64x2.Idx => headG m c G0 (i 0) (i 1))
    (fun t _ => flushed1_7_eq m ρ c G0 hG0 t) cover1_7_all

end Cert.KerHead

end
-- ==== Proof.KerEntry.lean ====
/-
  What the first kernel finds in its windows' arrays: the arrays after the host operations that precede it.

  No host operation writes an argument, so the sample array is the launch's. Each weight tensor is the
  argument with its float format changed (the identity on the extended reals); each bias row is the argument
  with a unit axis in front; the 512 x 512 matrix is the accumulating scatter of the edge weights into a zero
  matrix at the positions given by the two index rows (each wrapped into range by adding 512 when negative).
-/
import proofs.«154162_j16277926052608_1_alg».proof.Proof.Gen.KernelIdeal.Frame
import Idealize.ShloMosaic.Lib.ValueLayout
import Idealize.ShloMosaic.PureOps.Ideal.Laws

noncomputable section

namespace Cert.KerStack

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The sample array is the launch's: no host operation writes it. -/
theorem V5_arg0 (c : Dev nD) : (V5 m ρ c main_arg0 : S64x512x50.Idx → EReal) = m ((c : Thread nD τ).loc main_arg0) := by
  dsimp only [V5, W5, W4, W3, W2, W1, W0, hostOps0, hostOps0_1, hostOps0_2, hostOps0_3, hostOps0_4]
  after_results_simp
  first | done | rfl

/-- Weight tensor of argument 3: the argument, its float format changed. -/
theorem V5_v46 (c : Dev nD) : (V5 m ρ c main_v46 : S2x50x32.Idx → EReal)
    = truncf (F := Ideal) .bf16 (m ((c : Thread nD τ).loc main_arg3) : S2x50x32.Idx → EReal) bitsLt_bf16_f32 := by
  dsimp only [V5, W5, W4, W3, W2, W1, W0, hostOps0, hostOps0_1, hostOps0_2, hostOps0_3, hostOps0_4]
  after_results_simp
  first | done | rfl

/-- Weight tensor of argument 5: the argument, its float format changed. -/
theorem V5_v47 (c : Dev nD) : (V5 m ρ c main_v47 : S2x32x32.Idx → EReal)
    = truncf (F := Ideal) .bf16 (m ((c : Thread nD τ).loc main_arg5) : S2x32x32.Idx → EReal) bitsLt_bf16_f32 := by
  dsimp only [V5, W5, W4, W3, W2, W1, W0, hostOps0, hostOps0_1, hostOps0_2, hostOps0_3, hostOps0_4]
  after_results_simp
  first | done | rfl

/-- Weight tensor of argument 7: the argument, its float format changed. -/
theorem V5_v48 (c : Dev nD) : (V5 m ρ c main_v48 : S2x32x32.Idx → EReal)
    = truncf (F := Ideal) .bf16 (m ((c : Thread nD τ).loc main_arg7) : S2x32x32.Idx → EReal) bitsLt_bf16_f32 := by
  dsimp only [V5, W5, W4, W3, W2, W1, W0, hostOps0, hostOps0_1, hostOps0_2, hostOps0_3, hostOps0_4]
  after_results_simp
  first | done | rfl

/-- Weight tensor of argument 9: the argument, its float format changed. -/
theorem V5_v49 (c : Dev nD) : (V5 m ρ c main_v49 : S2x32x32.Idx → EReal)
    = truncf (F := Ideal) .bf16 (m ((c : Thread nD τ).loc main_arg9) : S2x32x32.Idx → EReal) bitsLt_bf16_f32 := by
  dsimp only [V5, W5, W4, W3, W2, W1, W0, hostOps0, hostOps0_1, hostOps0_2, hostOps0_3, hostOps0_4]
  after_results_simp
  first | done | rfl

/-- Weight tensor of argument 11: the argument, its float format changed. -/
theorem V5_v50 (c : Dev nD) : (V5 m ρ c main_v50 : S2x32x32.Idx → EReal)
    = truncf (F := Ideal) .bf16 (m ((c : Thread nD τ).loc main_arg11) : S2x32x32.Idx → EReal) bitsLt_bf16_f32 := by
  dsimp only [V5, W5, W4, W3, W2, W1, W0, hostOps0, hostOps0_1, hostOps0_2, hostOps0_3, hostOps0_4]
  after_results_simp
  first | done | rfl

/-- Weight tensor of argument 13: the argument, its float format changed. -/
theorem V5_v51 (c : Dev nD) : (V5 m ρ c main_v51 : S2x32x32.Idx → EReal)
    = truncf (F := Ideal) .bf16 (m ((c : Thread nD τ).loc main_arg13) : S2x32x32.Idx → EReal) bitsLt_bf16_f32 := by
  dsimp only [V5, W5, W4, W3, W2, W1, W0, hostOps0, hostOps0_1, hostOps0_2, hostOps0_3, hostOps0_4]
  after_results_simp
  first | done | rfl

/-- Bias row of argument 4: the argument with a unit axis in front. -/
theorem V5_v52 (c : Dev nD) : (V5 m ρ c main_v52 : S1x32.Idx → EReal)
    = shapeCast S1x32 (m ((c : Thread nD τ).loc main_arg4) : S32.Idx → EReal) shapeCasts_S32_S1x32 := by
  dsimp only [V5, W5, W4, W3, W2, W1, W0, hostOps0, hostOps0_1, hostOps0_2, hostOps0_3, hostOps0_4]
  after_results_simp
  first | done | rfl

/-- Bias row of argument 6: the argument with a unit axis in front. -/
theorem V5_v53 (c : Dev nD) : (V5 m ρ c main_v53 : S1x32.Idx → EReal)
    = shapeCast S1x32 (m ((c : Thread nD τ).loc main_arg6) : S32.Idx → EReal) shapeCasts_S32_S1x32 := by
  dsimp only [V5, W5, W4, W3, W2, W1, W0, hostOps0, hostOps0_1, hostOps0_2, hostOps0_3, hostOps0_4]
  after_results_simp
  first | done | rfl

/-- Bias row of argument 8: the argument with a unit axis in front. -/
theorem V5_v54 (c : Dev nD) : (V5 m ρ c main_v54 : S1x32.Idx → EReal)
    = shapeCast S1x32 (m ((c : Thread nD τ).loc main_arg8) : S32.Idx → EReal) shapeCasts_S32_S1x32 := by
  dsimp only [V5, W5, W4, W3, W2, W1, W0, hostOps0, hostOps0_1, hostOps0_2, hostOps0_3, hostOps0_4]
  after_results_simp
  first | done | rfl

/-- Bias row of argument 10: the argument with a unit axis in front. -/
theorem V5_v55 (c : Dev nD) : (V5 m ρ c main_v55 : S1x32.Idx → EReal)
    = shapeCast S1x32 (m ((c : Thread nD τ).loc main_arg10) : S32.Idx → EReal) shapeCasts_S32_S1x32 := by
  dsimp only [V5, W5, W4, W3, W2, W1, W0, hostOps0, hostOps0_1, hostOps0_2, hostOps0_3, hostOps0_4]
  after_results_simp
  first | done | rfl

/-- Bias row of argument 12: the argument with a unit axis in front. -/
theorem V5_v56 (c : Dev nD) : (V5 m ρ c main_v56 : S1x32.Idx → EReal)
    = shapeCast S1x32 (m ((c : Thread nD τ).loc main_arg12) : S32.Idx → EReal) shapeCasts_S32_S1x32 := by
  dsimp only [V5, W5, W4, W3, W2, W1, W0, hostOps0, hostOps0_1, hostOps0_2, hostOps0_3, hostOps0_4]
  after_results_simp
  first | done | rfl

/-- Bias row of argument 14: the argument with a unit axis in front. -/
theorem V5_v57 (c : Dev nD) : (V5 m ρ c main_v57 : S1x32.Idx → EReal)
    = shapeCast S1x32 (m ((c : Thread nD τ).loc main_arg14) : S32.Idx → EReal) shapeCasts_S32_S1x32 := by
  dsimp only [V5, W5, W4, W3, W2, W1, W0, hostOps0, hostOps0_1, hostOps0_2, hostOps0_3, hostOps0_4]
  after_results_simp
  first | done | rfl

/-- An index row wrapped into range: 512 added where the entry is negative. -/
def wrapIdx (v : IVec S32768 32) : IVec S32768 32 :=
  select (cmpi .slt v (broadcastInDim S32768 ![] bcast_S_S32768 (constantI S_ 32 0#32)))
    (addi v (broadcastInDim S32768 ![] bcast_S_S32768 (constantI S_ 32 512#32))) v

/-- Row 0 of the [2, 32768] edge array as a vector. -/
def edgeRow0 (x1 : IVec S2x32768 32) : IVec S32768 32 :=
  shapeCast S32768 (extractStridedSlice S1x32768 ![0, 0] x1 slices_S2x32768_S1x32768_0_0) shapeCasts_S1x32768_S32768
/-- Row 1 of the [2, 32768] edge array as a vector. -/
def edgeRow1 (x1 : IVec S2x32768 32) : IVec S32768 32 :=
  shapeCast S32768 (extractStridedSlice S1x32768 ![1, 0] x1 slices_S2x32768_S1x32768_1_0) shapeCasts_S1x32768_S32768

/-- The two index columns of the matrix's scatter: wrapped row 1 (destinations), then wrapped row 0 (sources). -/
def scIdx (x1 : IVec S2x32768 32) : IVec S32768x2 32 :=
  concatenate S32768x2 1 [⟨S32768x1, broadcastInDim S32768x1 ![0] bcast_S32768_S32768x1_0 (wrapIdx (edgeRow1 x1))⟩,
    ⟨S32768x1, broadcastInDim S32768x1 ![0] bcast_S32768_S32768x1_0 (wrapIdx (edgeRow0 x1))⟩] concatenates_S32768x1_S32768x1_S32768x2_d1

/-- The matrix the kernel loads: the edge weights scattered, accumulating, into the zero matrix. -/
theorem V5_v45 (c : Dev nD) : (V5 m ρ c main_v45 : S512x512.Idx → EReal)
    = truncf (F := Ideal) .bf16 (Host.scatterAdd (F := Ideal) scatter_S512x512_S32768x2_S32768_n_01_01_1
        (broadcastInDim S512x512 ![] bcast_S_S512x512 (constant (F := Ideal) S_ .f32 0x00000000#32))
        (scIdx (m ((c : Thread nD τ).loc main_arg1)))
        (V5 m ρ c main_v29 : S32768.Idx → EReal)) bitsLt_bf16_f32 := by
  dsimp only [V5, W5, W4, W3, W2, W1, W0, hostOps0, hostOps0_1, hostOps0_2, hostOps0_3, hostOps0_4]
  after_results_simp
  first | done | rfl

end Cert.KerStack

end
-- ==== Proof.KerLayer.lean ====
/-
  One layer of the network as the kernel's body computes it on a sample's block, read entry by entry.

  The body works on whole 512-row blocks: a product with a 32-column slice of the weights, a product of the
  propagated block (the 512 x 512 matrix times the block) with the other slice, the bias row added to every row,
  and the maximum with zero between layers. Read at an entry, a block product into a zero accumulator is the sum
  over the contracted coordinate; changes of float format are the identity on the extended reals. So each of these
  block operations is the corresponding operation of Cert.Cheb on the block's entries.
-/
import proofs.«154162_j16277926052608_1_alg».proof.Proof.Net
import proofs.«154162_j16277926052608_1_alg».proof.Proof.Gen.KernelIdeal
import Idealize.ShloMosaic.Lib.ValueLayout
import Idealize.ShloMosaic.PureOps.Ideal.Laws

noncomputable section

open scoped BigOperators

namespace Cert.KerStack

open Idealize.ShloMosaic Idealize.ShloMosaic.ValueIdx Cert.KernelIdeal Cert.KernelIdeal.Gen

/-- On the row axis the left operand of this product is read at the result's row. -/
theorem mm_h32_w_l0 (i : S512x32.Idx) (q : dot_S512x32_S32x32_S512x32_1_0_0_1_n_n.contr.Idx) : (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide),
    dif_pos (show (0 : Fin S512x32.rank) ∈ dot_S512x32_S32x32_S512x32_1_0_0_1_n_n.lhsNonContracting by decide)]
  rfl

/-- On the column axis the right operand of this product is read at the result's column. -/
theorem mm_h32_w_r1 (i : S512x32.Idx) (q : dot_S512x32_S32x32_S512x32_1_0_0_1_n_n.contr.Idx) : (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide),
    dif_pos (show (1 : Fin S32x32.rank) ∈ dot_S512x32_S32x32_S512x32_1_0_0_1_n_n.rhsNonContracting by decide)]
  rfl

/-- A 512 x 32 block times a 32 x 32 matrix into the zero accumulator, at entry (n, f): the sum over the 32 contracted columns. -/
theorem mm_h32_w (X : FVec Ideal S512x32 .bf16) (Y : FVec Ideal S32x32 .bf16) (n : Fin 512) (f : Fin 32) :
    matmul dot_S512x32_S32x32_S512x32_1_0_0_1_n_n none X Y (constant S512x32 .f32 0x00000000#32) (ix2 n f)
      = ∑ k : Fin 32, X (ix2 n k) * Y (ix2 k f) := by
  simp only [matmul]
  rw [Ideal.matmul_constant_zero_apply, ← Equiv.sum_comp (contrEquiv1 dot_S512x32_S32x32_S512x32_1_0_0_1_n_n 32 rfl rfl).symm]
  refine Finset.sum_congr rfl fun k _ => ?_
  have hk := contrEquiv1_symm_val dot_S512x32_S32x32_S512x32_1_0_0_1_n_n 32 rfl rfl k
  have el : dot_S512x32_S32x32_S512x32_1_0_0_1_n_n.lhsIdx (ix2 n f) ((contrEquiv1 dot_S512x32_S32x32_S512x32_1_0_0_1_n_n 32 rfl rfl).symm k) = ix2 n k :=
    funext fun a => Fin.ext (by
      match a with
      | ⟨0, _⟩ => exact mm_h32_w_l0 _ _
      | ⟨1, _⟩ => exact (dot_S512x32_S32x32_S512x32_1_0_0_1_n_n.lhsIdx_val_of_single rfl _ _).trans hk)
  have er : dot_S512x32_S32x32_S512x32_1_0_0_1_n_n.rhsIdx (ix2 n f) ((contrEquiv1 dot_S512x32_S32x32_S512x32_1_0_0_1_n_n 32 rfl rfl).symm k) = ix2 k f :=
    funext fun a => Fin.ext (by
      match a with
      | ⟨0, _⟩ => exact (dot_S512x32_S32x32_S512x32_1_0_0_1_n_n.rhsIdx_val_of_single rfl _ _).trans hk
      | ⟨1, _⟩ => exact mm_h32_w_r1 _ _)
  rw [el, er]

/-- On the row axis the left operand of this product is read at the result's row. -/
theorem mm_h50_w_l0 (i : S512x32.Idx) (q : dot_S512x50_S50x32_S512x32_1_0_0_1_n_n.contr.Idx) : (dot_S512x50_S50x32_S512x32_1_0_0_1_n_n.lhsIdx i q 0).val = (i 0).val := by
  unfold DotDims.lhsIdx
  rw [dif_neg (show ¬(0 : Fin S512x50.rank) ∈ dot_S512x50_S50x32_S512x32_1_0_0_1_n_n.lhsBatch by decide),
    dif_pos (show (0 : Fin S512x50.rank) ∈ dot_S512x50_S50x32_S512x32_1_0_0_1_n_n.lhsNonContracting by decide)]
  rfl

/-- On the column axis the right operand of this product is read at the result's column. -/
theorem mm_h50_w_r1 (i : S512x32.Idx) (q : dot_S512x50_S50x32_S512x32_1_0_0_1_n_n.contr.Idx) : (dot_S512x50_S50x32_S512x32_1_0_0_1_n_n.rhsIdx i q 1).val = (i 1).val := by
  unfold DotDims.rhsIdx
  rw [dif_neg (show ¬(1 : Fin S50x32.rank) ∈ dot_S512x50_S50x32_S512x32_1_0_0_1_n_n.rhsBatch by decide),
    dif_pos (show (1 : Fin S50x32.rank) ∈ dot_S512x50_S50x32_S512x32_1_0_0_1_n_n.rhsNonContracting by decide)]
  rfl

/-- A 512 x 50 block times a 50 x 32 matrix into the zero accumulator, at entry (n, f): the sum over the 50 contracted columns. -/
theorem mm_h50_w (X : FVec Ideal S512x50 .bf16) (Y : FVec Ideal S50x32 .bf16) (n : Fin 512) (f : Fin 32) :
    matmul dot_S512x50_S50x32_S512x32_1_0_0_1_n_n none X Y (constant S512x32 .f32 0x00000000#32) (ix2 n f)
      = ∑ k : Fin 50, X (ix2 n k) * Y (ix2 k f) := by
  simp only [matmul]
  rw [Ideal.matmul_constant_zero_apply, ← Equiv.sum_comp (contrEquiv1 dot_S512x50_S50x32_S512x32_1_0_0_1_n_n 50 rfl rfl).symm]
  refine Finset.sum_congr rfl fun k _ => ?_
  have hk := contrEquiv1_symm_val dot_S512x50_S50x32_S512x32_1_0_0_1_n_n 50 rfl rfl k
  have el : dot_S512x50_S50x32_S512x32_1_0_0_1_n_n.lhsIdx (ix2 n f) ((contrEquiv1 dot_S512x50_S50x32_S512x32_1_0_0_1_n_n 50 rfl rfl).symm k) = ix2 n k :=
    funext fun a => Fin.ext (by
      match a with
      | ⟨0, _⟩ => exact mm_h50_w_l0 _ _
      | ⟨1, _⟩ => exact (dot_S512x50_S50x32_S512x32_1_0_0_1_n_n.lhsIdx_val_of_single rfl _ _).trans hk)
  have er : dot_S512x50_S50x32_S512x32_1_0_0_1_n_n.rhsIdx (ix2 n f) ((contrEquiv1 dot_S512x50_S50x32_S512x32_1_0_0_1_n_n 50 rfl rfl).symm k) = ix2 k f :=
    funext fun a => Fin.ext (by
      match a with
      | ⟨0, _⟩ => exact (dot_S512x50_S50x32_S512x32_1_0_0_1_n_n.rhsIdx_val_of_single rfl _ _).trans hk
      | ⟨1, _⟩ => exact mm_h50_w_r1 _ _)
  rw [el, er]

/-- On the row axis the left operand of this product is read at the result's row. -/
theorem mm_l_h32_l0 (i : S512x32.Idx) (q : dot_S512x512_S512x32_S512x32_1_0_0_1_n_n.contr.Idx) : (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide),
    dif_pos (show (0 : Fin S512x512.rank) ∈ dot_S512x512_S512x32_S512x32_1_0_0_1_n_n.lhsNonContracting by decide)]
  rfl

/-- On the column axis the right operand of this product is read at the result's column. -/
theorem mm_l_h32_r1 (i : S512x32.Idx) (q : dot_S512x512_S512x32_S512x32_1_0_0_1_n_n.contr.Idx) : (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide),
    dif_pos (show (1 : Fin S512x32.rank) ∈ dot_S512x512_S512x32_S512x32_1_0_0_1_n_n.rhsNonContracting by decide)]
  rfl

/-- The 512 x 512 matrix times a 512 x 32 block into the zero accumulator, at entry (n, c): the sum over the 512 nodes. -/
theorem mm_l_h32 (X : FVec Ideal S512x512 .bf16) (Y : FVec Ideal S512x32 .bf16) (n : Fin 512) (f : Fin 32) :
    matmul dot_S512x512_S512x32_S512x32_1_0_0_1_n_n none X Y (constant S512x32 .f32 0x00000000#32) (ix2 n f)
      = ∑ k : Fin 512, X (ix2 n k) * Y (ix2 k f) := by
  simp only [matmul]
  rw [Ideal.matmul_constant_zero_apply, ← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 n f) ((contrEquiv1 dot_S512x512_S512x32_S512x32_1_0_0_1_n_n 512 rfl rfl).symm k) = ix2 n k :=
    funext fun a => Fin.ext (by
      match a with
      | ⟨0, _⟩ => exact mm_l_h32_l0 _ _
      | ⟨1, _⟩ => exact (dot_S512x512_S512x32_S512x32_1_0_0_1_n_n.lhsIdx_val_of_single rfl _ _).trans hk)
  have er : dot_S512x512_S512x32_S512x32_1_0_0_1_n_n.rhsIdx (ix2 n f) ((contrEquiv1 dot_S512x512_S512x32_S512x32_1_0_0_1_n_n 512 rfl rfl).symm k) = ix2 k f :=
    funext fun a => Fin.ext (by
      match a with
      | ⟨0, _⟩ => exact (dot_S512x512_S512x32_S512x32_1_0_0_1_n_n.rhsIdx_val_of_single rfl _ _).trans hk
      | ⟨1, _⟩ => exact mm_l_h32_r1 _ _)
  rw [el, er]

/-- On the row axis the left operand of this product is read at the result's row. -/
theorem mm_l_h50_l0 (i : S512x50.Idx) (q : dot_S512x512_S512x50_S512x50_1_0_0_1_n_n.contr.Idx) : (dot_S512x512_S512x50_S512x50_1_0_0_1_n_n.lhsIdx i q 0).val = (i 0).val := by
  unfold DotDims.lhsIdx
  rw [dif_neg (show ¬(0 : Fin S512x512.rank) ∈ dot_S512x512_S512x50_S512x50_1_0_0_1_n_n.lhsBatch by decide),
    dif_pos (show (0 : Fin S512x512.rank) ∈ dot_S512x512_S512x50_S512x50_1_0_0_1_n_n.lhsNonContracting by decide)]
  rfl

/-- On the column axis the right operand of this product is read at the result's column. -/
theorem mm_l_h50_r1 (i : S512x50.Idx) (q : dot_S512x512_S512x50_S512x50_1_0_0_1_n_n.contr.Idx) : (dot_S512x512_S512x50_S512x50_1_0_0_1_n_n.rhsIdx i q 1).val = (i 1).val := by
  unfold DotDims.rhsIdx
  rw [dif_neg (show ¬(1 : Fin S512x50.rank) ∈ dot_S512x512_S512x50_S512x50_1_0_0_1_n_n.rhsBatch by decide),
    dif_pos (show (1 : Fin S512x50.rank) ∈ dot_S512x512_S512x50_S512x50_1_0_0_1_n_n.rhsNonContracting by decide)]
  rfl

/-- The 512 x 512 matrix times a 512 x 50 block into the zero accumulator, at entry (n, c): the sum over the 512 nodes. -/
theorem mm_l_h50 (X : FVec Ideal S512x512 .bf16) (Y : FVec Ideal S512x50 .bf16) (n : Fin 512) (f : Fin 50) :
    matmul dot_S512x512_S512x50_S512x50_1_0_0_1_n_n none X Y (constant S512x50 .f32 0x00000000#32) (ix2 n f)
      = ∑ k : Fin 512, X (ix2 n k) * Y (ix2 k f) := by
  simp only [matmul]
  rw [Ideal.matmul_constant_zero_apply, ← Equiv.sum_comp (contrEquiv1 dot_S512x512_S512x50_S512x50_1_0_0_1_n_n 512 rfl rfl).symm]
  refine Finset.sum_congr rfl fun k _ => ?_
  have hk := contrEquiv1_symm_val dot_S512x512_S512x50_S512x50_1_0_0_1_n_n 512 rfl rfl k
  have el : dot_S512x512_S512x50_S512x50_1_0_0_1_n_n.lhsIdx (ix2 n f) ((contrEquiv1 dot_S512x512_S512x50_S512x50_1_0_0_1_n_n 512 rfl rfl).symm k) = ix2 n k :=
    funext fun a => Fin.ext (by
      match a with
      | ⟨0, _⟩ => exact mm_l_h50_l0 _ _
      | ⟨1, _⟩ => exact (dot_S512x512_S512x50_S512x50_1_0_0_1_n_n.lhsIdx_val_of_single rfl _ _).trans hk)
  have er : dot_S512x512_S512x50_S512x50_1_0_0_1_n_n.rhsIdx (ix2 n f) ((contrEquiv1 dot_S512x512_S512x50_S512x50_1_0_0_1_n_n 512 rfl rfl).symm k) = ix2 k f :=
    funext fun a => Fin.ext (by
      match a with
      | ⟨0, _⟩ => exact (dot_S512x512_S512x50_S512x50_1_0_0_1_n_n.rhsIdx_val_of_single rfl _ _).trans hk
      | ⟨1, _⟩ => exact mm_l_h50_r1 _ _)
  rw [el, er]

/-! ## The block operations of one layer, named -/

/-- Slice 0 of a [2, 32, 32] weight tensor as a 32 x 32 matrix. -/
def wsl32_0 (W : FVec Ideal S2x32x32 .bf16) : FVec Ideal S32x32 .bf16 :=
  shapeCast S32x32 (extractStridedSlice S1x32x32 ![0, 0, 0] (shapeCast S2x32x32 W shapeCasts_S2x32x32_S2x32x32) slices_S2x32x32_o0_0_0_S1x32x32) shapeCasts_S1x32x32_S32x32

/-- Slice 1 of a [2, 32, 32] weight tensor as a 32 x 32 matrix. -/
def wsl32_1 (W : FVec Ideal S2x32x32 .bf16) : FVec Ideal S32x32 .bf16 :=
  shapeCast S32x32 (extractStridedSlice S1x32x32 ![1, 0, 0] (shapeCast S2x32x32 W shapeCasts_S2x32x32_S2x32x32) slices_S2x32x32_o1_0_0_S1x32x32) shapeCasts_S1x32x32_S32x32

/-- Slice 0 of the [2, 50, 32] weight tensor as a 50 x 32 matrix. -/
def wsl50_0 (W : FVec Ideal S2x50x32 .bf16) : FVec Ideal S50x32 .bf16 :=
  shapeCast S50x32 (extractStridedSlice S1x50x32 ![0, 0, 0] (shapeCast S2x50x32 W shapeCasts_S2x50x32_S2x50x32) slices_S2x50x32_o0_0_0_S1x50x32) shapeCasts_S1x50x32_S50x32

/-- Slice 1 of the [2, 50, 32] weight tensor as a 50 x 32 matrix. -/
def wsl50_1 (W : FVec Ideal S2x50x32 .bf16) : FVec Ideal S50x32 .bf16 :=
  shapeCast S50x32 (extractStridedSlice S1x50x32 ![1, 0, 0] (shapeCast S2x50x32 W shapeCasts_S2x50x32_S2x50x32) slices_S2x50x32_o1_0_0_S1x50x32) shapeCasts_S1x50x32_S50x32

/-- The two products of a layer on a 512 x 32 block h: h times slice 0, plus (L times h) times slice 1. -/
def lin32 (L : FVec Ideal S512x512 .bf16) (W : FVec Ideal S2x32x32 .bf16) (h : FVec Ideal S512x32 .bf16) :
    FVec Ideal S512x32 .f32 :=
  addf (matmul dot_S512x32_S32x32_S512x32_1_0_0_1_n_n none h (wsl32_0 W) (constant S512x32 .f32 0x00000000#32))
    (matmul dot_S512x32_S32x32_S512x32_1_0_0_1_n_n none (truncf .bf16 (matmul dot_S512x512_S512x32_S512x32_1_0_0_1_n_n none L h (constant S512x32 .f32 0x00000000#32)) bitsLt_bf16_f32) (wsl32_1 W) (constant S512x32 .f32 0x00000000#32))

/-- The two products of the first layer on a 512 x 50 block h. -/
def lin50 (L : FVec Ideal S512x512 .bf16) (W : FVec Ideal S2x50x32 .bf16) (h : FVec Ideal S512x50 .bf16) :
    FVec Ideal S512x32 .f32 :=
  addf (matmul dot_S512x50_S50x32_S512x32_1_0_0_1_n_n none h (wsl50_0 W) (constant S512x32 .f32 0x00000000#32))
    (matmul dot_S512x50_S50x32_S512x32_1_0_0_1_n_n none (truncf .bf16 (matmul dot_S512x512_S512x50_S512x50_1_0_0_1_n_n none L h (constant S512x50 .f32 0x00000000#32)) bitsLt_bf16_f32) (wsl50_1 W) (constant S512x32 .f32 0x00000000#32))

/-- The bias row repeated over the 512 rows. -/
def biasV (b : FVec Ideal S1x32 .f32) : FVec Ideal S512x32 .f32 :=
  broadcastTo S512x32 (shapeCast S1x32 b shapeCasts_S1x32_S1x32) broadcasts_S1x32_S512x32

/-- The maximum with zero, entry by entry (then a change of float format). -/
def act (x : FVec Ideal S512x32 .f32) : FVec Ideal S512x32 .bf16 :=
  truncf .bf16 (maximumf x (broadcast S512x32 (Scalar.ofBits .f32 0x00000000#32))) bitsLt_bf16_f32

/-! ## The same, entry by entry -/

/-- A two-axis block as a function of its row and column. -/
def ent {C : ℕ} (x : (⟨2, ![512, C]⟩ : Shape).Idx → EReal) : Fin 512 → Fin C → EReal := fun n c => x (ix2 n c)

/-- A [2, C, 32] weight tensor as a function of slice, row and column. -/
def entW {C : ℕ} (W : (⟨3, ![2, C, 32]⟩ : Shape).Idx → EReal) : Fin 2 → Fin C → Fin 32 → EReal :=
  fun k c f => W (ix3 k c f)

/-- A [1, 32] bias row as a function of the column. -/
def entB (b : (⟨2, ![1, 32]⟩ : Shape).Idx → EReal) : Fin 32 → EReal := fun f => b (ix2 (0 : Fin 1) f)

/-- Slice 0 of a [2, 32, 32] tensor at (c, f) is the tensor at (0, c, f). -/
theorem wsl32_0_apply (W : FVec Ideal S2x32x32 .bf16) (c f : Fin 32) : wsl32_0 W (ix2 c f) = W (ix3 (0 : Fin 2) c f) := by
  unfold wsl32_0
  rw [shapeCast_1ab_ab_apply, shapeCast_self]
  exact extractStridedSlice_apply _ _ _ _ _ (fun a => by
    match a with
    | ⟨0, _⟩ => rfl
    | ⟨1, _⟩ => exact (Nat.zero_add _).symm
    | ⟨2, _⟩ => exact (Nat.zero_add _).symm)

/-- Slice 1 of a [2, 32, 32] tensor at (c, f) is the tensor at (1, c, f). -/
theorem wsl32_1_apply (W : FVec Ideal S2x32x32 .bf16) (c f : Fin 32) : wsl32_1 W (ix2 c f) = W (ix3 (1 : Fin 2) c f) := by
  unfold wsl32_1
  rw [shapeCast_1ab_ab_apply, shapeCast_self]
  exact extractStridedSlice_apply _ _ _ _ _ (fun a => by
    match a with
    | ⟨0, _⟩ => rfl
    | ⟨1, _⟩ => exact (Nat.zero_add _).symm
    | ⟨2, _⟩ => exact (Nat.zero_add _).symm)

/-- Slice 0 of the [2, 50, 32] tensor at (c, f) is the tensor at (0, c, f). -/
theorem wsl50_0_apply (W : FVec Ideal S2x50x32 .bf16) (c : Fin 50) (f : Fin 32) : wsl50_0 W (ix2 c f) = W (ix3 (0 : Fin 2) c f) := by
  unfold wsl50_0
  rw [shapeCast_1ab_ab_apply, shapeCast_self]
  exact extractStridedSlice_apply _ _ _ _ _ (fun a => by
    match a with
    | ⟨0, _⟩ => rfl
    | ⟨1, _⟩ => exact (Nat.zero_add _).symm
    | ⟨2, _⟩ => exact (Nat.zero_add _).symm)

/-- Slice 1 of the [2, 50, 32] tensor at (c, f) is the tensor at (1, c, f). -/
theorem wsl50_1_apply (W : FVec Ideal S2x50x32 .bf16) (c : Fin 50) (f : Fin 32) : wsl50_1 W (ix2 c f) = W (ix3 (1 : Fin 2) c f) := by
  unfold wsl50_1
  rw [shapeCast_1ab_ab_apply, shapeCast_self]
  exact extractStridedSlice_apply _ _ _ _ _ (fun a => by
    match a with
    | ⟨0, _⟩ => rfl
    | ⟨1, _⟩ => exact (Nat.zero_add _).symm
    | ⟨2, _⟩ => exact (Nat.zero_add _).symm)

/-- The bias block at (n, f) is the bias row at f. -/
theorem biasV_apply (b : FVec Ideal S1x32 .f32) (n : Fin 512) (f : Fin 32) : biasV b (ix2 n f) = entB b f := by
  unfold biasV entB
  rw [broadcastTo_1b_ab_apply, shapeCast_self]

/-- A layer on a 512 x 32 block, entry by entry: the layer of Cert.Cheb propagating through the matrix L. -/
theorem layer32_ent (L : FVec Ideal S512x512 .bf16) (W : FVec Ideal S2x32x32 .bf16) (b : FVec Ideal S1x32 .f32)
    (h : FVec Ideal S512x32 .bf16) :
    ent (addf (lin32 L W h) (biasV b)) = Cert.Cheb.cheb (Cert.Cheb.propD (ent L)) (entW W) (entB b) (ent h) := by
  funext n f
  show lin32 L W h (ix2 n f) + biasV b (ix2 n f) = _
  rw [biasV_apply]
  unfold lin32
  rw [addf_apply, mm_h32_w, mm_h32_w]
  unfold Cert.Cheb.cheb Cert.Cheb.mm Cert.Cheb.propD
  refine congrArg (· + entB b f) (congrArg₂ (· + ·) (Finset.sum_congr rfl fun k _ => ?_) (Finset.sum_congr rfl fun k _ => ?_))
  · rw [wsl32_0_apply]; rfl
  · rw [wsl32_1_apply, truncf_apply, mm_l_h32]; rfl

/-- The first layer on a 512 x 50 block, entry by entry. -/
theorem layer50_ent (L : FVec Ideal S512x512 .bf16) (W : FVec Ideal S2x50x32 .bf16) (b : FVec Ideal S1x32 .f32)
    (h : FVec Ideal S512x50 .bf16) :
    ent (addf (lin50 L W h) (biasV b)) = Cert.Cheb.cheb (Cert.Cheb.propD (ent L)) (entW W) (entB b) (ent h) := by
  funext n f
  show lin50 L W h (ix2 n f) + biasV b (ix2 n f) = _
  rw [biasV_apply]
  unfold lin50
  rw [addf_apply, mm_h50_w, mm_h50_w]
  unfold Cert.Cheb.cheb Cert.Cheb.mm Cert.Cheb.propD
  refine congrArg (· + entB b f) (congrArg₂ (· + ·) (Finset.sum_congr rfl fun k _ => ?_) (Finset.sum_congr rfl fun k _ => ?_))
  · rw [wsl50_0_apply]; rfl
  · rw [wsl50_1_apply, truncf_apply, mm_l_h50]; rfl

/-- The maximum with the zero block, entry by entry, is the maximum with zero. -/
theorem act_ent (x : FVec Ideal S512x32 .f32) : ent (act x) = Cert.Cheb.relu (ent x) := by
  funext n f
  show max (x (ix2 n f)) (Ideal.ofBits .f32 0x00000000#32) = max (x (ix2 n f)) 0
  rw [Ideal.ofBits_zero_f32]

end Cert.KerStack

end
-- ==== Proof.KerPay.lean ====
/-
  The body of the first kernel on one sample, as the six layers of Cert.Cheb.

  The body's arithmetic is printed as five pure terms of the loaded blocks. Each is a composition of the block
  operations of one layer (products with the two weight slices, the propagated block, the bias rows, the maximum
  with zero), so the stored block, read at (0, n, f), is the six-layer network applied to the sample's 512 x 50
  block, propagating through the loaded 512 x 512 matrix.
-/
import proofs.«154162_j16277926052608_1_alg».proof.Proof.KerLayer
import proofs.«154162_j16277926052608_1_alg».proof.Proof.Gen.KernelIdeal.Skeleton

noncomputable section

open scoped BigOperators

namespace Cert.KerStack

open Idealize.ShloMosaic Idealize.ShloMosaic.ValueIdx Cert.KernelIdeal Cert.KernelIdeal.Gen

/-- The matrix block passes through unchanged. -/
theorem pay2_eq (v0 : FVec Ideal S512x512 .bf16) : k0_pay2 (F := Ideal) v0 = v0 := by
  unfold k0_pay2
  exact shapeCast_self _ _

/-- The sample's block with its unit axis dropped. -/
def xblk (x0 : FVec Ideal S1x512x50 .f32) : FVec Ideal S512x50 .bf16 :=
  truncf .bf16 (shapeCast S512x50 x0 shapeCasts_S1x512x50_S512x50) bitsLt_bf16_f32

/-- Entry (n, c) of the sample's block is entry (0, n, c) of the loaded [1, 512, 50] block. -/
theorem xblk_ent (x0 : FVec Ideal S1x512x50 .f32) : ent (xblk x0) = fun n c => x0 (ix3 (0 : Fin 1) n c) := by
  funext n c
  show shapeCast S512x50 x0 shapeCasts_S1x512x50_S512x50 (ix2 n c) = _
  rw [shapeCast_1ab_ab_apply]

/-- The third payload: layer 1 in full, then the two products of layer 2. -/
theorem pay3_eq (v0 : FVec Ideal S512x512 .bf16) (v2 : FVec Ideal S1x512x50 .f32) (v5 : FVec Ideal S2x50x32 .bf16)
    (v16 : FVec Ideal S1x32 .f32) (v23 : FVec Ideal S2x32x32 .bf16) :
    k0_pay3 (F := Ideal) v0 v2 v5 v16 v23
      = lin32 (k0_pay2 v0) v23 (act (addf (lin50 (k0_pay2 v0) v5 (xblk v2)) (biasV v16))) := rfl

/-- The fourth payload: layer 2's bias block. -/
theorem pay4_eq (v34 : FVec Ideal S1x32 .f32) : k0_pay4 (F := Ideal) v34 = biasV v34 := rfl

/-- The fifth payload: the rest of layer 2, then layers 3 and 4, each followed by the maximum with zero. -/
theorem pay5_eq (v1 : FVec Ideal S512x512 .bf16) (v33 v36 : FVec Ideal S512x32 .f32) (v41 : FVec Ideal S2x32x32 .bf16)
    (v52 : FVec Ideal S1x32 .f32) (v59 : FVec Ideal S2x32x32 .bf16) (v70 : FVec Ideal S1x32 .f32) :
    k0_pay5 (F := Ideal) v1 v33 v36 v41 v52 v59 v70
      = act (addf (lin32 v1 v59 (act (addf (lin32 v1 v41 (act (addf v33 v36))) (biasV v52)))) (biasV v70)) := rfl

/-- The first payload (the stored block): layer 5 with the maximum with zero, then layer 6, a unit axis added. -/
theorem pay1_eq (v1 : FVec Ideal S512x512 .bf16) (v76 : FVec Ideal S512x32 .bf16) (v77 : FVec Ideal S2x32x32 .bf16)
    (v88 : FVec Ideal S1x32 .f32) (v95 : FVec Ideal S2x32x32 .bf16) (v106 : FVec Ideal S1x32 .f32) :
    k0_pay1 (F := Ideal) v1 v76 v77 v88 v95 v106
      = shapeCast S1x512x32 (addf (lin32 v1 v95 (act (addf (lin32 v1 v77 v76) (biasV v88)))) (biasV v106))
          shapeCasts_S512x32_S1x512x32 := rfl

/-- The six layers on entry functions: what the stored block holds. -/
def sixLayers (L : Fin 512 → Fin 512 → EReal) (W1 : Fin 2 → Fin 50 → Fin 32 → EReal) (b1 : Fin 32 → EReal)
    (W2 : Fin 2 → Fin 32 → Fin 32 → EReal) (b2 : Fin 32 → EReal) (W3 : Fin 2 → Fin 32 → Fin 32 → EReal) (b3 : Fin 32 → EReal)
    (W4 : Fin 2 → Fin 32 → Fin 32 → EReal) (b4 : Fin 32 → EReal) (W5 : Fin 2 → Fin 32 → Fin 32 → EReal) (b5 : Fin 32 → EReal)
    (W6 : Fin 2 → Fin 32 → Fin 32 → EReal) (b6 : Fin 32 → EReal) (x : Fin 512 → Fin 50 → EReal) : Fin 512 → Fin 32 → EReal :=
  Cert.Cheb.cheb (Cert.Cheb.propD L) W6 b6 (Cert.Cheb.relu (Cert.Cheb.cheb (Cert.Cheb.propD L) W5 b5
    (Cert.Cheb.relu (Cert.Cheb.cheb (Cert.Cheb.propD L) W4 b4 (Cert.Cheb.relu (Cert.Cheb.cheb (Cert.Cheb.propD L) W3 b3
      (Cert.Cheb.relu (Cert.Cheb.cheb (Cert.Cheb.propD L) W2 b2 (Cert.Cheb.relu (Cert.Cheb.cheb (Cert.Cheb.propD L) W1 b1 x))))))))))

/-- The stored block at (u, n, f) is the six layers of the sample's block, through the loaded matrix, with the
    loaded weight tensors and bias rows. -/
theorem body_apply (x0 : FVec Ideal S1x512x50 .f32) (x1 : FVec Ideal S512x512 .bf16) (x2 : FVec Ideal S2x50x32 .bf16)
    (x3 x4 x5 x6 x7 : FVec Ideal S2x32x32 .bf16) (x8 x9 x10 x11 x12 x13 : FVec Ideal S1x32 .f32)
    (u : Fin 1) (n : Fin 512) (f : Fin 32) :
    k0_pay1 (F := Ideal) (k0_pay2 x1) (k0_pay5 (k0_pay2 x1) (k0_pay3 x1 x0 x2 x8 x3) (k0_pay4 x9) x4 x10 x5 x11) x6 x12 x7 x13
        (ix3 u n f)
      = sixLayers (ent x1) (entW x2) (entB x8) (entW x3) (entB x9) (entW x4) (entB x10) (entW x5) (entB x11)
          (entW x6) (entB x12) (entW x7) (entB x13) (fun n c => x0 (ix3 (0 : Fin 1) n c)) n f := by
  rw [pay1_eq, pay5_eq, pay3_eq, pay4_eq, pay2_eq, shapeCast_ab_1ab_apply]
  show ent (addf (lin32 x1 x7 _) (biasV x13)) n f = _
  rw [layer32_ent, act_ent, layer32_ent, act_ent, layer32_ent, act_ent, layer32_ent, act_ent, layer32_ent, act_ent,
    layer50_ent, xblk_ent]
  rfl

end Cert.KerStack

end
-- ==== Proof.KerFlush.lean ====
/-
  From the blocks the first kernel stores to the whole result array.

  Point t of the grid works on sample t: its input block is rows (t, ·, ·) of the sample array, the other
  windows hand it their whole arrays, and it writes back block (t, ·, ·) of the result. So every entry
  (s, n, f) of the result array is covered by point s, and holds the six layers applied to sample s.
-/
import proofs.«154162_j16277926052608_1_alg».proof.Proof.Gen.KernelIdeal.Frame
import proofs.«154162_j16277926052608_1_alg».proof.Proof.KerPay
import Idealize.ShloMosaic.Lib.Pipeline.Value

noncomputable section

namespace Cert.KerStack

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a two-axis access, as the constant function. -/
theorem hz2 : (![0, 0] : Fin 2 → Nat) = fun _ => 0 := funext fun a => by fin_cases a <;> rfl
/-- The zero offsets of a three-axis access, as the constant function. -/
theorem hz3 : (![0, 0, 0] : Fin 3 → Nat) = fun _ => 0 := funext fun a => by fin_cases a <;> rfl

/-- The grid has 64 points; point t is sample t. -/
def smp (t : Fin cfg0.N) : Fin 64 := ⟨t.val, by have h := t.isLt; have hN : cfg0.N = 64 := N_0; omega⟩

/-- The sample window's block index is (t, 0, 0). -/
theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The result window's block index is (t, 0, 0). -/
theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)

/-- Window 1's block index is zero on every axis: the block is the whole array. -/
theorem idx_1 : ∀ t : Fin cfg0.N, win0_1.index t (0 : Fin 2) = 0 ∧ win0_1.index t (1 : Fin 2) = 0 :=
  (by decide +kernel : ∀ t : Fin grid0.N, _)

/-- Window 1's block at any point is its whole array. -/
theorem iblk_1 (c : Dev nD) (t : Fin cfg0.N) :
    (iblk0 V c 1 t : S512x512.Idx → EReal) = (V c main_v45 : S512x512.Idx → EReal) := by
  obtain ⟨e0, e1⟩ := idx_1 t
  refine funext fun (y : S512x512.Idx) => ?_
  unfold iblk0
  rw [View.read_apply]
  show (V c main_v45 : S512x512.Idx → EReal) _ = _
  refine congrArg (V c main_v45 : S512x512.Idx → EReal) (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- Window 2's block index is zero on every axis: the block is the whole array. -/
theorem idx_2 : ∀ t : Fin cfg0.N, win0_2.index t (0 : Fin 3) = 0 ∧ win0_2.index t (1 : Fin 3) = 0 ∧ win0_2.index t (2 : Fin 3) = 0 :=
  (by decide +kernel : ∀ t : Fin grid0.N, _)

/-- Window 2's block at any point is its whole array. -/
theorem iblk_2 (c : Dev nD) (t : Fin cfg0.N) :
    (iblk0 V c 2 t : S2x50x32.Idx → EReal) = (V c main_v46 : S2x50x32.Idx → EReal) := by
  obtain ⟨e0, e1, e2⟩ := idx_2 t
  refine funext fun (y : S2x50x32.Idx) => ?_
  unfold iblk0
  rw [View.read_apply]
  show (V c main_v46 : S2x50x32.Idx → EReal) _ = _
  refine congrArg (V c main_v46 : S2x50x32.Idx → EReal) (funext fun a => Fin.ext ?_)
  match a with
  | ⟨0, _⟩ => show win0_2.index t (0 : Fin 3) * 2 + 1 * (y 0).val = (y 0).val; rw [e0]; omega
  | ⟨1, _⟩ => show win0_2.index t (1 : Fin 3) * 50 + 1 * (y 1).val = (y 1).val; rw [e1]; omega
  | ⟨2, _⟩ => show win0_2.index t (2 : Fin 3) * 32 + 1 * (y 2).val = (y 2).val; rw [e2]; omega

/-- Window 3's block index is zero on every axis: the block is the whole array. -/
theorem idx_3 : ∀ t : Fin cfg0.N, win0_3.index t (0 : Fin 3) = 0 ∧ win0_3.index t (1 : Fin 3) = 0 ∧ win0_3.index t (2 : Fin 3) = 0 :=
  (by decide +kernel : ∀ t : Fin grid0.N, _)

/-- Window 3's block at any point is its whole array. -/
theorem iblk_3 (c : Dev nD) (t : Fin cfg0.N) :
    (iblk0 V c 3 t : S2x32x32.Idx → EReal) = (V c main_v47 : S2x32x32.Idx → EReal) := by
  obtain ⟨e0, e1, e2⟩ := idx_3 t
  refine funext fun (y : S2x32x32.Idx) => ?_
  unfold iblk0
  rw [View.read_apply]
  show (V c main_v47 : S2x32x32.Idx → EReal) _ = _
  refine congrArg (V c main_v47 : S2x32x32.Idx → EReal) (funext fun a => Fin.ext ?_)
  match a with
  | ⟨0, _⟩ => show win0_3.index t (0 : Fin 3) * 2 + 1 * (y 0).val = (y 0).val; rw [e0]; omega
  | ⟨1, _⟩ => show win0_3.index t (1 : Fin 3) * 32 + 1 * (y 1).val = (y 1).val; rw [e1]; omega
  | ⟨2, _⟩ => show win0_3.index t (2 : Fin 3) * 32 + 1 * (y 2).val = (y 2).val; rw [e2]; omega

/-- Window 4's block index is zero on every axis: the block is the whole array. -/
theorem idx_4 : ∀ t : Fin cfg0.N, win0_4.index t (0 : Fin 3) = 0 ∧ win0_4.index t (1 : Fin 3) = 0 ∧ win0_4.index t (2 : Fin 3) = 0 :=
  (by decide +kernel : ∀ t : Fin grid0.N, _)

/-- Window 4's block at any point is its whole array. -/
theorem iblk_4 (c : Dev nD) (t : Fin cfg0.N) :
    (iblk0 V c 4 t : S2x32x32.Idx → EReal) = (V c main_v48 : S2x32x32.Idx → EReal) := by
  obtain ⟨e0, e1, e2⟩ := idx_4 t
  refine funext fun (y : S2x32x32.Idx) => ?_
  unfold iblk0
  rw [View.read_apply]
  show (V c main_v48 : S2x32x32.Idx → EReal) _ = _
  refine congrArg (V c main_v48 : S2x32x32.Idx → EReal) (funext fun a => Fin.ext ?_)
  match a with
  | ⟨0, _⟩ => show win0_4.index t (0 : Fin 3) * 2 + 1 * (y 0).val = (y 0).val; rw [e0]; omega
  | ⟨1, _⟩ => show win0_4.index t (1 : Fin 3) * 32 + 1 * (y 1).val = (y 1).val; rw [e1]; omega
  | ⟨2, _⟩ => show win0_4.index t (2 : Fin 3) * 32 + 1 * (y 2).val = (y 2).val; rw [e2]; omega

/-- Window 5's block index is zero on every axis: the block is the whole array. -/
theorem idx_5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5's block at any point is its whole array. -/
theorem iblk_5 (c : Dev nD) (t : Fin cfg0.N) :
    (iblk0 V c 5 t : S2x32x32.Idx → EReal) = (V c main_v49 : S2x32x32.Idx → EReal) := by
  obtain ⟨e0, e1, e2⟩ := idx_5 t
  refine funext fun (y : S2x32x32.Idx) => ?_
  unfold iblk0
  rw [View.read_apply]
  show (V c main_v49 : S2x32x32.Idx → EReal) _ = _
  refine congrArg (V c main_v49 : S2x32x32.Idx → EReal) (funext fun a => Fin.ext ?_)
  match a with
  | ⟨0, _⟩ => show win0_5.index t (0 : Fin 3) * 2 + 1 * (y 0).val = (y 0).val; rw [e0]; omega
  | ⟨1, _⟩ => show win0_5.index t (1 : Fin 3) * 32 + 1 * (y 1).val = (y 1).val; rw [e1]; omega
  | ⟨2, _⟩ => show win0_5.index t (2 : Fin 3) * 32 + 1 * (y 2).val = (y 2).val; rw [e2]; omega

/-- Window 6's block index is zero on every axis: the block is the whole array. -/
theorem idx_6 : ∀ t : Fin cfg0.N, win0_6.index t (0 : Fin 3) = 0 ∧ win0_6.index t (1 : Fin 3) = 0 ∧ win0_6.index t (2 : Fin 3) = 0 :=
  (by decide +kernel : ∀ t : Fin grid0.N, _)

/-- Window 6's block at any point is its whole array. -/
theorem iblk_6 (c : Dev nD) (t : Fin cfg0.N) :
    (iblk0 V c 6 t : S2x32x32.Idx → EReal) = (V c main_v50 : S2x32x32.Idx → EReal) := by
  obtain ⟨e0, e1, e2⟩ := idx_6 t
  refine funext fun (y : S2x32x32.Idx) => ?_
  unfold iblk0
  rw [View.read_apply]
  show (V c main_v50 : S2x32x32.Idx → EReal) _ = _
  refine congrArg (V c main_v50 : S2x32x32.Idx → EReal) (funext fun a => Fin.ext ?_)
  match a with
  | ⟨0, _⟩ => show win0_6.index t (0 : Fin 3) * 2 + 1 * (y 0).val = (y 0).val; rw [e0]; omega
  | ⟨1, _⟩ => show win0_6.index t (1 : Fin 3) * 32 + 1 * (y 1).val = (y 1).val; rw [e1]; omega
  | ⟨2, _⟩ => show win0_6.index t (2 : Fin 3) * 32 + 1 * (y 2).val = (y 2).val; rw [e2]; omega

/-- Window 7's block index is zero on every axis: the block is the whole array. -/
theorem idx_7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Window 7's block at any point is its whole array. -/
theorem iblk_7 (c : Dev nD) (t : Fin cfg0.N) :
    (iblk0 V c 7 t : S2x32x32.Idx → EReal) = (V c main_v51 : S2x32x32.Idx → EReal) := by
  obtain ⟨e0, e1, e2⟩ := idx_7 t
  refine funext fun (y : S2x32x32.Idx) => ?_
  unfold iblk0
  rw [View.read_apply]
  show (V c main_v51 : S2x32x32.Idx → EReal) _ = _
  refine congrArg (V c main_v51 : S2x32x32.Idx → EReal) (funext fun a => Fin.ext ?_)
  match a with
  | ⟨0, _⟩ => show win0_7.index t (0 : Fin 3) * 2 + 1 * (y 0).val = (y 0).val; rw [e0]; omega
  | ⟨1, _⟩ => show win0_7.index t (1 : Fin 3) * 32 + 1 * (y 1).val = (y 1).val; rw [e1]; omega
  | ⟨2, _⟩ => show win0_7.index t (2 : Fin 3) * 32 + 1 * (y 2).val = (y 2).val; rw [e2]; omega

/-- Window 8's block index is zero on every axis: the block is the whole array. -/
theorem idx_8 : ∀ t : Fin cfg0.N, win0_8.index t (0 : Fin 2) = 0 ∧ win0_8.index t (1 : Fin 2) = 0 :=
  (by decide +kernel : ∀ t : Fin grid0.N, _)

/-- Window 8's block at any point is its whole array. -/
theorem iblk_8 (c : Dev nD) (t : Fin cfg0.N) :
    (iblk0 V c 8 t : S1x32.Idx → EReal) = (V c main_v52 : S1x32.Idx → EReal) := by
  obtain ⟨e0, e1⟩ := idx_8 t
  refine funext fun (y : S1x32.Idx) => ?_
  unfold iblk0
  rw [View.read_apply]
  show (V c main_v52 : S1x32.Idx → EReal) _ = _
  refine congrArg (V c main_v52 : S1x32.Idx → EReal) (funext fun a => Fin.ext ?_)
  match a with
  | ⟨0, _⟩ => show win0_8.index t (0 : Fin 2) * 1 + 1 * (y 0).val = (y 0).val; rw [e0]; omega
  | ⟨1, _⟩ => show win0_8.index t (1 : Fin 2) * 32 + 1 * (y 1).val = (y 1).val; rw [e1]; omega

/-- Window 9's block index is zero on every axis: the block is the whole array. -/
theorem idx_9 : ∀ t : Fin cfg0.N, win0_9.index t (0 : Fin 2) = 0 ∧ win0_9.index t (1 : Fin 2) = 0 :=
  (by decide +kernel : ∀ t : Fin grid0.N, _)

/-- Window 9's block at any point is its whole array. -/
theorem iblk_9 (c : Dev nD) (t : Fin cfg0.N) :
    (iblk0 V c 9 t : S1x32.Idx → EReal) = (V c main_v53 : S1x32.Idx → EReal) := by
  obtain ⟨e0, e1⟩ := idx_9 t
  refine funext fun (y : S1x32.Idx) => ?_
  unfold iblk0
  rw [View.read_apply]
  show (V c main_v53 : S1x32.Idx → EReal) _ = _
  refine congrArg (V c main_v53 : S1x32.Idx → EReal) (funext fun a => Fin.ext ?_)
  match a with
  | ⟨0, _⟩ => show win0_9.index t (0 : Fin 2) * 1 + 1 * (y 0).val = (y 0).val; rw [e0]; omega
  | ⟨1, _⟩ => show win0_9.index t (1 : Fin 2) * 32 + 1 * (y 1).val = (y 1).val; rw [e1]; omega

/-- Window 10's block index is zero on every axis: the block is the whole array. -/
theorem idx_10 : ∀ t : Fin cfg0.N, win0_10.index t (0 : Fin 2) = 0 ∧ win0_10.index t (1 : Fin 2) = 0 :=
  (by decide +kernel : ∀ t : Fin grid0.N, _)

/-- Window 10's block at any point is its whole array. -/
theorem iblk_10 (c : Dev nD) (t : Fin cfg0.N) :
    (iblk0 V c 10 t : S1x32.Idx → EReal) = (V c main_v54 : S1x32.Idx → EReal) := by
  obtain ⟨e0, e1⟩ := idx_10 t
  refine funext fun (y : S1x32.Idx) => ?_
  unfold iblk0
  rw [View.read_apply]
  show (V c main_v54 : S1x32.Idx → EReal) _ = _
  refine congrArg (V c main_v54 : S1x32.Idx → EReal) (funext fun a => Fin.ext ?_)
  match a with
  | ⟨0, _⟩ => show win0_10.index t (0 : Fin 2) * 1 + 1 * (y 0).val = (y 0).val; rw [e0]; omega
  | ⟨1, _⟩ => show win0_10.index t (1 : Fin 2) * 32 + 1 * (y 1).val = (y 1).val; rw [e1]; omega

/-- Window 11's block index is zero on every axis: the block is the whole array. -/
theorem idx_11 : ∀ t : Fin cfg0.N, win0_11.index t (0 : Fin 2) = 0 ∧ win0_11.index t (1 : Fin 2) = 0 :=
  (by decide +kernel : ∀ t : Fin grid0.N, _)

/-- Window 11's block at any point is its whole array. -/
theorem iblk_11 (c : Dev nD) (t : Fin cfg0.N) :
    (iblk0 V c 11 t : S1x32.Idx → EReal) = (V c main_v55 : S1x32.Idx → EReal) := by
  obtain ⟨e0, e1⟩ := idx_11 t
  refine funext fun (y : S1x32.Idx) => ?_
  unfold iblk0
  rw [View.read_apply]
  show (V c main_v55 : S1x32.Idx → EReal) _ = _
  refine congrArg (V c main_v55 : S1x32.Idx → EReal) (funext fun a => Fin.ext ?_)
  match a with
  | ⟨0, _⟩ => show win0_11.index t (0 : Fin 2) * 1 + 1 * (y 0).val = (y 0).val; rw [e0]; omega
  | ⟨1, _⟩ => show win0_11.index t (1 : Fin 2) * 32 + 1 * (y 1).val = (y 1).val; rw [e1]; omega

/-- Window 12's block index is zero on every axis: the block is the whole array. -/
theorem idx_12 : ∀ t : Fin cfg0.N, win0_12.index t (0 : Fin 2) = 0 ∧ win0_12.index t (1 : Fin 2) = 0 :=
  (by decide +kernel : ∀ t : Fin grid0.N, _)

/-- Window 12's block at any point is its whole array. -/
theorem iblk_12 (c : Dev nD) (t : Fin cfg0.N) :
    (iblk0 V c 12 t : S1x32.Idx → EReal) = (V c main_v56 : S1x32.Idx → EReal) := by
  obtain ⟨e0, e1⟩ := idx_12 t
  refine funext fun (y : S1x32.Idx) => ?_
  unfold iblk0
  rw [View.read_apply]
  show (V c main_v56 : S1x32.Idx → EReal) _ = _
  refine congrArg (V c main_v56 : S1x32.Idx → EReal) (funext fun a => Fin.ext ?_)
  match a with
  | ⟨0, _⟩ => show win0_12.index t (0 : Fin 2) * 1 + 1 * (y 0).val = (y 0).val; rw [e0]; omega
  | ⟨1, _⟩ => show win0_12.index t (1 : Fin 2) * 32 + 1 * (y 1).val = (y 1).val; rw [e1]; omega

/-- Window 13's block index is zero on every axis: the block is the whole array. -/
theorem idx_13 : ∀ t : Fin cfg0.N, win0_13.index t (0 : Fin 2) = 0 ∧ win0_13.index t (1 : Fin 2) = 0 :=
  (by decide +kernel : ∀ t : Fin grid0.N, _)

/-- Window 13's block at any point is its whole array. -/
theorem iblk_13 (c : Dev nD) (t : Fin cfg0.N) :
    (iblk0 V c 13 t : S1x32.Idx → EReal) = (V c main_v57 : S1x32.Idx → EReal) := by
  obtain ⟨e0, e1⟩ := idx_13 t
  refine funext fun (y : S1x32.Idx) => ?_
  unfold iblk0
  rw [View.read_apply]
  show (V c main_v57 : S1x32.Idx → EReal) _ = _
  refine congrArg (V c main_v57 : S1x32.Idx → EReal) (funext fun a => Fin.ext ?_)
  match a with
  | ⟨0, _⟩ => show win0_13.index t (0 : Fin 2) * 1 + 1 * (y 0).val = (y 0).val; rw [e0]; omega
  | ⟨1, _⟩ => show win0_13.index t (1 : Fin 2) * 32 + 1 * (y 1).val = (y 1).val; rw [e1]; omega

/-- The sample window's block at point t is sample t: entry (0, n, k) of the block is entry (t, n, k) of the array. -/
theorem iblk_0 (c : Dev nD) (t : Fin cfg0.N) :
    (fun (n : Fin 512) (k : Fin 50) => (iblk0 V c 0 t : S1x512x50.Idx → EReal) (ix3 (0 : Fin 1) n k))
      = fun n k => (V c main_arg0 : S64x512x50.Idx → EReal) (ix3 (smp t) n k) := by
  obtain ⟨e0, e1, e2⟩ := idx_0 t
  funext n k
  unfold iblk0
  rw [View.read_apply]
  show (V c main_arg0 : S64x512x50.Idx → EReal) _ = _
  refine congrArg (V c main_arg0 : S64x512x50.Idx → EReal) (funext fun a => Fin.ext ?_)
  match a with
  | ⟨0, _⟩ => show win0_0.index t (0 : Fin 3) * 1 + 1 * 0 = t.val; rw [e0]; omega
  | ⟨1, _⟩ => show win0_0.index t (1 : Fin 3) * 512 + 1 * n.val = n.val; rw [e1]; omega
  | ⟨2, _⟩ => show win0_0.index t (2 : Fin 3) * 50 + 1 * k.val = k.val; rw [e2]; omega

/-- The result array as one function of the arrays the region finds: entry (s, n, f) is the six layers on
    sample s, through the matrix array, with the weight and bias arrays. -/
def GV (c : Dev nD) : S64x512x32.Idx → EReal := fun i =>
  sixLayers (ent (V c main_v45 : S512x512.Idx → EReal))
    (entW (V c main_v46 : S2x50x32.Idx → EReal)) (entB (V c main_v52 : S1x32.Idx → EReal))
    (entW (V c main_v47 : S2x32x32.Idx → EReal)) (entB (V c main_v53 : S1x32.Idx → EReal))
    (entW (V c main_v48 : S2x32x32.Idx → EReal)) (entB (V c main_v54 : S1x32.Idx → EReal))
    (entW (V c main_v49 : S2x32x32.Idx → EReal)) (entB (V c main_v55 : S1x32.Idx → EReal))
    (entW (V c main_v50 : S2x32x32.Idx → EReal)) (entB (V c main_v56 : S1x32.Idx → EReal))
    (entW (V c main_v51 : S2x32x32.Idx → EReal)) (entB (V c main_v57 : S1x32.Idx → EReal))
    (fun n k => (V c main_arg0 : S64x512x50.Idx → EReal) (ix3 (i 0) n k)) (i 1) (i 2)

/-- What point t writes back is block t of that function. -/
theorem flushed_eq (c : Dev nD) (t : Fin cfg0.N) :
    (dat0 V c).flushed 14 t = ((cfg0.win 14).blk t).view.read (Elt Ideal) (GV V c) := by
  show (cfg0.win 14).cut (grid0.coords t) ((dat0 V c).after 14 t) = _
  rw [after0_14]
  unfold out0_14
  rw [View.canon_unit_zero hz3]
  simp only [View.ld_unit_zero (S := S512x512) hz2, View.ld_unit_zero (S := S1x512x50) hz3,
    View.ld_unit_zero (S := S2x50x32) hz3, View.ld_unit_zero (S := S2x32x32) hz3, View.ld_unit_zero (S := S1x32) hz2]
  obtain ⟨e0, e1, e2⟩ := idx_14 t
  refine funext fun (j : S1x512x32.Idx) => ?_
  obtain ⟨u, n, f, rfl⟩ : ∃ (u : Fin 1) (n : Fin 512) (f : Fin 32), j = ix3 u n f := ⟨j 0, j 1, j 2, eq_ix3 j⟩
  have hemb : (((cfg0.win 14).blk t).view.emb (ix3 u n f) : S64x512x32.Idx) = ix3 (smp t) n f :=
    funext fun a => Fin.ext (by
      match a with
      | ⟨0, _⟩ => show win0_14.index t (0 : Fin 3) * 1 + 1 * u.val = t.val; rw [e0]; omega
      | ⟨1, _⟩ => show win0_14.index t (1 : Fin 3) * 512 + 1 * n.val = n.val; rw [e1]; omega
      | ⟨2, _⟩ => show win0_14.index t (2 : Fin 3) * 32 + 1 * f.val = f.val; rw [e2]; omega)
  show k0_pay1 (F := Ideal) _ _ _ _ _ _ (ix3 u n f) = GV V c (((cfg0.win 14).blk t).view.emb (ix3 u n f))
  rw [hemb, body_apply, iblk_0 V c t, iblk_1 V c t, iblk_2 V c t, iblk_3 V c t, iblk_4 V c t, iblk_5 V c t, iblk_6 V c t,
    iblk_7 V c t, iblk_8 V c t, iblk_9 V c t, iblk_10 V c t, iblk_11 V c t, iblk_12 V c t, iblk_13 V c t]
  rfl

/-- Every entry of the result array is in the block of the point of its sample. -/
theorem cover (i : S64x512x32.Idx) :
    ∃ t : Fin cfg0.N, (cfg0.win 14).flush t = true ∧ i ∈ ((cfg0.win 14).blk t).view.set := by
  have hN : cfg0.N = 64 := N_0
  have h0 : (i 0).val < 64 := (i 0).isLt
  have h1 : (i 1).val < 512 := (i 1).isLt
  have h2 : (i 2).val < 32 := (i 2).isLt
  let t : Fin cfg0.N := ⟨(i 0).val, by rw [hN]; exact h0⟩
  obtain ⟨e0, e1, e2⟩ := idx_14 t
  refine ⟨t, flush0_14 t, ?_⟩
  show i ∈ ((View.whole main_v58).slice (win0_14.rect t)).set
  rw [View.set_slice_whole, Rect.mem_set_unit]
  intro a
  match a with
  | ⟨0, _⟩ => show win0_14.index t (0 : Fin 3) * 1 ≤ (i 0).val ∧ (i 0).val < win0_14.index t (0 : Fin 3) * 1 + 1; rw [e0]; show (i 0).val * 1 ≤ (i 0).val ∧ (i 0).val < (i 0).val * 1 + 1; omega
  | ⟨1, _⟩ => show win0_14.index t (1 : Fin 3) * 512 ≤ (i 1).val ∧ (i 1).val < win0_14.index t (1 : Fin 3) * 512 + 512; rw [e1]; omega
  | ⟨2, _⟩ => show win0_14.index t (2 : Fin 3) * 32 ≤ (i 2).val ∧ (i 2).val < win0_14.index t (2 : Fin 3) * 32 + 32; rw [e2]; omega

/-- The result array after the region is that function of the arrays the region finds. -/
theorem final_V (c : Dev nD) : (dat0 V c).arrAt 14 cfg0.N = GV V c :=
  (dat0 V c).arrAt_eq_of_cover 14 (GV V c) (fun t _ => flushed_eq V c t) (cover)

end Cert.KerStack

end
-- ==== Proof.KerLap.lean ====
/-
  The dense 512 x 512 matrix the kernel propagates through, read entry by entry.

  It is built by an accumulating scatter into a zero matrix: edge e adds its weight at the position
  (row, column) read from the two index columns. With the first column holding the edge's destination and the
  second its source, both inside [0, 512), no update is dropped, and the entry (n, j) is the sum of the weights
  of the edges from j to n: the matrix Cert.Cheb.lap of the weighted edge list.
-/
import proofs.«154162_j16277926052608_1_alg».proof.Proof.Net
import proofs.«154162_j16277926052608_1_alg».proof.Proof.Gen.KernelIdeal
import Idealize.ShloMosaic.Lib.ValueLayout
import Idealize.ShloMosaic.PureOps.Ideal.Laws

noncomputable section

open scoped BigOperators

namespace Cert.KerStack

open Idealize.ShloMosaic Idealize.ShloMosaic.ValueIdx Cert.KernelIdeal Cert.KernelIdeal.Gen

/-- The scatter's dimension numbers: both operand axes inserted, the index vector along axis 1. -/
abbrev sc2 : ScatterDims S512x512 S32768x2 S32768 := scatter_S512x512_S32768x2_S32768_n_01_01_1

/-- Edge e reads its row from the first index column. -/
theorem sc2_start0 (idx : IVec S32768x2 32) (e : Fin 32768) :
    sc2.start (ix1 e) idx (0 : Fin 2) = (idx (ix2 e (0 : Fin 2))).toInt := by
  unfold ScatterDims.start
  rw [dif_pos (show (0 : Fin S512x512.rank) ∈ sc2.scatterDimsToOperandDims by decide)]
  refine congrArg (fun k => (idx k).toInt) (funext fun b => ?_)
  match b with
  | ⟨0, _⟩ => rfl
  | ⟨1, _⟩ => rfl

/-- Edge e reads its column from the second index column. -/
theorem sc2_start1 (idx : IVec S32768x2 32) (e : Fin 32768) :
    sc2.start (ix1 e) idx (1 : Fin 2) = (idx (ix2 e (1 : Fin 2))).toInt := by
  unfold ScatterDims.start
  rw [dif_pos (show (1 : Fin S512x512.rank) ∈ sc2.scatterDimsToOperandDims by decide)]
  refine congrArg (fun k => (idx k).toInt) (funext fun b => ?_)
  match b with
  | ⟨0, _⟩ => rfl
  | ⟨1, _⟩ => rfl

/-- No operand axis carries a window coordinate: both are inserted. -/
theorem sc2_window (j : S32768.Idx) (a : Fin 2) : sc2.window j a = 0 := by
  unfold ScatterDims.window
  rw [dif_neg (by revert a; decide)]

/-- With the index columns holding destinations and sources in range, edge e lands at (dst e, src e). -/
theorem sc2_resultIdx (idx : IVec S32768x2 32) (src dst : Fin 32768 → Fin 512)
    (h0 : ∀ e : Fin 32768, (idx (ix2 e (0 : Fin 2))).toInt = ((dst e).val : ℤ))
    (h1 : ∀ e : Fin 32768, (idx (ix2 e (1 : Fin 2))).toInt = ((src e).val : ℤ)) (e : Fin 32768) :
    sc2.resultIdx? (ix1 e) idx = some (ix2 (dst e) (src e)) := by
  have hs : ∀ a : Fin 2, sc2.start (ix1 e) idx a + (sc2.window (ix1 e) a : ℤ) = ((ix2 (dst e) (src e) : S512x512.Idx) a).val := by
    intro a
    rw [sc2_window]
    match a with
    | ⟨0, _⟩ => rw [show (⟨0, _⟩ : Fin 2) = 0 from rfl, sc2_start0, h0]; simp
    | ⟨1, _⟩ => rw [show (⟨1, _⟩ : Fin 2) = 1 from rfl, sc2_start1, h1]; simp
  unfold ScatterDims.resultIdx?
  rw [dif_pos (fun a => by
    rw [hs a]
    exact ⟨Int.natCast_nonneg _, by exact_mod_cast ((ix2 (dst e) (src e) : S512x512.Idx) a).isLt⟩)]
  refine congrArg some (funext fun a => Fin.ext ?_)
  show (sc2.start (ix1 e) idx a + (sc2.window (ix1 e) a : ℤ)).toNat = _
  rw [hs a, Int.toNat_natCast]

/-- The edge list's positions are the one-coordinate indices. -/
def edgeEquiv : Fin 32768 ≃ S32768.Idx where
  toFun e := ix1 e
  invFun j := j 0
  left_inv _ := rfl
  right_inv j := (eq_ix1 j).symm

/-- The accumulating scatter of the edge weights into the zero matrix, at entry (n, j), is the sum of the
    weights of the edges from j to n. -/
theorem scatter_lap (Z : FVec Ideal S512x512 .f32) (hZ : ∀ i, Z i = 0) (idx : IVec S32768x2 32)
    (upd : FVec Ideal S32768 .f32) (src dst : Fin 32768 → Fin 512)
    (h0 : ∀ e : Fin 32768, (idx (ix2 e (0 : Fin 2))).toInt = ((dst e).val : ℤ))
    (h1 : ∀ e : Fin 32768, (idx (ix2 e (1 : Fin 2))).toInt = ((src e).val : ℤ)) (n j : Fin 512) :
    Host.scatterAdd scatter_S512x512_S32768x2_S32768_n_01_01_1 Z idx upd (ix2 n j)
      = Cert.Cheb.lap src dst (fun e => upd (ix1 e)) n j := by
  classical
  unfold Host.scatterAdd
  rw [Ideal.hostScatterAdd_def]
  unfold Ideal.hostScatterAdd
  rw [hZ, zero_add, Finset.sum_filter, ← Equiv.sum_comp edgeEquiv]
  unfold Cert.Cheb.lap
  refine Finset.sum_congr rfl fun e _ => ?_
  show (if sc2.resultIdx? (ix1 e) idx = some (ix2 n j) then upd (ix1 e) else 0) = _
  rw [sc2_resultIdx idx src dst h0 h1 e]
  refine if_congr ⟨fun h => ?_, fun h => ?_⟩ rfl rfl
  · have h' := Option.some.inj h
    exact ⟨congrFun h' 0, congrFun h' 1⟩
  · rw [h.1, h.2]

end Cert.KerStack

end
-- ==== Proof.KerNrm.lean ====
/-
  The edge weights the first kernel's matrix is built from are the reference's edge weights: both programs
  compute them from the edge array and the raw weights by the same chain of host operations (degrees by an
  accumulating scatter, their inverse square roots where positive, two gathers, two products, a negation).
-/
import proofs.«154162_j16277926052608_1_alg».proof.Proof.Gen.KernelIdeal.Frame
import proofs.«154162_j16277926052608_1_alg».proof.Proof.RefRead

noncomputable section

namespace Cert.KerStack

open Idealize.ShloMosaic Idealize.ShloMosaic.TcCoe Idealize.SL.Sem Idealize.ShloMosaic.StableHlo
open Cert.KernelIdeal Cert.KernelIdeal.Gen

set_option maxRecDepth 1000000 in
/-- The edge weights at the first region's entry are the reference's composed term of the edge array and the
    raw weights. -/
theorem nrm_eq (m : (ℓ : Loc nD τ sig) → Buf (Elt Ideal) ℓ) (ρ : Dev nD → PrngReg) (c : Dev nD) :
    (V5 m ρ c main_v29 : S32768.Idx → EReal)
      = Cert.ReferenceIdeal.Read.val_main_v29 (F := Ideal) (m ((c : Thread nD τ).loc main_arg1)) (m ((c : Thread nD τ).loc main_arg2)) := by
  dsimp only [V5, W5, W4, W3, W2, W1, W0, hostOps0, hostOps0_1, hostOps0_2, hostOps0_3, hostOps0_4]
  after_results_simp
  first | done | rfl

end Cert.KerStack

end
-- ==== Proof.KerStack.lean ====
/-
  The first kernel's result array, in terms of the launch memory: the six-layer network on every sample.

  The region finds, in its windows' arrays, the sample array untouched, the weight tensors and bias rows as the
  arguments (up to a change of float format and a unit axis), and the 512 x 512 matrix built from the edge list by
  an accumulating scatter. The two index columns of that scatter are the edge array's rows wrapped into range; with
  every edge endpoint already in [0, 512) the wrapping changes nothing, so the matrix is Cert.Cheb.lap of the
  edge list with the normalised weights, and the result array at (s, n, f) is Cert.Cheb.stack on sample s.
-/
import proofs.«154162_j16277926052608_1_alg».proof.Proof.KerEntry
import proofs.«154162_j16277926052608_1_alg».proof.Proof.KerFlush
import proofs.«154162_j16277926052608_1_alg».proof.Proof.KerLap
import proofs.«154162_j16277926052608_1_alg».proof.Proof.KerNrm

noncomputable section

namespace Cert.KerStack

open Idealize.ShloMosaic Idealize.ShloMosaic.TcCoe Idealize.ShloMosaic.ValueIdx Idealize.SL.Sem Idealize.ShloMosaic.StableHlo
open Cert.KernelIdeal Cert.KernelIdeal.Gen

/-- Wrapping an index into range leaves it where it is not negative. -/
theorem wrapIdx_apply (v : IVec S32768 32) (j : S32768.Idx) (h : 0 ≤ (v j).toInt) : wrapIdx v j = v j := by
  have hlt : (v j).slt 0#32 = false := by
    simp only [BitVec.slt, BitVec.toInt_zero, decide_eq_false_iff_not, Int.not_lt]
    exact h
  show (if BitVec.ofBool ((v j).slt 0#32) = 1 then _ else _) = _
  rw [hlt]
  rfl

/-- Row 0 of the edge array at position e. -/
theorem edgeRow0_apply (x1 : IVec S2x32768 32) (e : Fin 32768) : edgeRow0 x1 (ix1 e) = x1 (ix2 (0 : Fin 2) e) := by
  unfold edgeRow0
  rw [shapeCast_1a_a_apply]
  exact extractStridedSlice_apply _ _ _ _ _ (fun a => by
    match a with
    | ⟨0, _⟩ => rfl
    | ⟨1, _⟩ => exact (Nat.zero_add _).symm)

/-- Row 1 of the edge array at position e. -/
theorem edgeRow1_apply (x1 : IVec S2x32768 32) (e : Fin 32768) : edgeRow1 x1 (ix1 e) = x1 (ix2 (1 : Fin 2) e) := by
  unfold edgeRow1
  rw [shapeCast_1a_a_apply]
  exact extractStridedSlice_apply _ _ _ _ _ (fun a => by
    match a with
    | ⟨0, _⟩ => rfl
    | ⟨1, _⟩ => exact (Nat.zero_add _).symm)

/-- The scatter's first index column at edge e is row 1 of the edge array there, when that entry is not negative. -/
theorem scIdx_col0 (x1 : IVec S2x32768 32) (e : Fin 32768) (h : 0 ≤ (x1 (ix2 (1 : Fin 2) e)).toInt) :
    scIdx x1 (ix2 e (0 : Fin 2)) = x1 (ix2 (1 : Fin 2) e) := by
  unfold scIdx
  rw [concatenate_pair_apply_left (t := S32768x2) (s₁ := S32768x1) (s₂ := S32768x1) (1 : Fin 2) _ _ _ (ix2 e (0 : Fin 2)) rfl (ix2 e (0 : Fin 1)) (fun b => by
    match b with
    | ⟨0, _⟩ => rfl
    | ⟨1, _⟩ => rfl)]
  rw [broadcastInDim_apply _ _ _ _ (ix1 e) (fun a => by
    match a with
    | ⟨0, _⟩ => show e.val = if (32768 : ℕ) = 1 then 0 else e.val; rw [if_neg (by decide)])]
  rw [wrapIdx_apply _ _ (by rw [edgeRow1_apply]; exact h), edgeRow1_apply]

/-- The scatter's second index column at edge e is row 0 of the edge array there, when that entry is not negative. -/
theorem scIdx_col1 (x1 : IVec S2x32768 32) (e : Fin 32768) (h : 0 ≤ (x1 (ix2 (0 : Fin 2) e)).toInt) :
    scIdx x1 (ix2 e (1 : Fin 2)) = x1 (ix2 (0 : Fin 2) e) := by
  unfold scIdx
  rw [concatenate_pair_apply_right (t := S32768x2) (s₁ := S32768x1) (s₂ := S32768x1) (1 : Fin 2) _ _ _ (ix2 e (1 : Fin 2)) rfl rfl (ix2 e (0 : Fin 1)) (fun b hb => by
    match b with
    | ⟨0, _⟩ => rfl
    | ⟨1, _⟩ => exact absurd rfl hb) rfl]
  rw [broadcastInDim_apply _ _ _ _ (ix1 e) (fun a => by
    match a with
    | ⟨0, _⟩ => show e.val = if (32768 : ℕ) = 1 then 0 else e.val; rw [if_neg (by decide)])]
  rw [wrapIdx_apply _ _ (by rw [edgeRow0_apply]; exact h), edgeRow0_apply]

variable (m : (ℓ : Loc nD τ sig) → Buf (Elt Ideal) ℓ) (ρ : Dev nD → PrngReg)

/-- The matrix the kernel loads, entry by entry, is the matrix of the weighted edge list. -/
theorem entL_V5 (c : Dev nD) (src dst : Fin 32768 → Fin 512)
    (hsrc : ∀ e : Fin 32768, ((m ((c : Thread nD τ).loc main_arg1) : S2x32768.Idx → BitVec 32) (ix2 (0 : Fin 2) e)).toInt = ((src e).val : ℤ))
    (hdst : ∀ e : Fin 32768, ((m ((c : Thread nD τ).loc main_arg1) : S2x32768.Idx → BitVec 32) (ix2 (1 : Fin 2) e)).toInt = ((dst e).val : ℤ)) :
    ent (V5 m ρ c main_v45 : S512x512.Idx → EReal)
      = Cert.Cheb.lap src dst (fun e => (V5 m ρ c main_v29 : S32768.Idx → EReal) (ix1 e)) := by
  funext n j
  rw [V5_v45]
  exact scatter_lap _ (fun _ => Ideal.ofBits_zero_f32) _ _ src dst
    (fun e => by rw [scIdx_col0 _ e (by rw [hdst e]; exact Int.natCast_nonneg _)]; exact hdst e)
    (fun e => by rw [scIdx_col1 _ e (by rw [hsrc e]; exact Int.natCast_nonneg _)]; exact hsrc e) n j

/-- The first layer's weight tensor as the region finds it is the argument's. -/
theorem entW_V5_46 (c : Dev nD) : entW (V5 m ρ c main_v46 : S2x50x32.Idx → EReal)
    = fun k c' f => (m ((c : Thread nD τ).loc main_arg3) : S2x50x32.Idx → EReal) (ix3 k c' f) := by
  rw [V5_v46]; rfl

/-- Layer 2's weight tensor as the region finds it is the argument's. -/
theorem entW_V5_47 (c : Dev nD) : entW (V5 m ρ c main_v47 : S2x32x32.Idx → EReal)
    = fun k c' f => (m ((c : Thread nD τ).loc main_arg5) : S2x32x32.Idx → EReal) (ix3 k c' f) := by
  rw [V5_v47]; rfl

/-- Layer 3's weight tensor as the region finds it is the argument's. -/
theorem entW_V5_48 (c : Dev nD) : entW (V5 m ρ c main_v48 : S2x32x32.Idx → EReal)
    = fun k c' f => (m ((c : Thread nD τ).loc main_arg7) : S2x32x32.Idx → EReal) (ix3 k c' f) := by
  rw [V5_v48]; rfl

/-- Layer 4's weight tensor as the region finds it is the argument's. -/
theorem entW_V5_49 (c : Dev nD) : entW (V5 m ρ c main_v49 : S2x32x32.Idx → EReal)
    = fun k c' f => (m ((c : Thread nD τ).loc main_arg9) : S2x32x32.Idx → EReal) (ix3 k c' f) := by
  rw [V5_v49]; rfl

/-- Layer 5's weight tensor as the region finds it is the argument's. -/
theorem entW_V5_50 (c : Dev nD) : entW (V5 m ρ c main_v50 : S2x32x32.Idx → EReal)
    = fun k c' f => (m ((c : Thread nD τ).loc main_arg11) : S2x32x32.Idx → EReal) (ix3 k c' f) := by
  rw [V5_v50]; rfl

/-- Layer 6's weight tensor as the region finds it is the argument's. -/
theorem entW_V5_51 (c : Dev nD) : entW (V5 m ρ c main_v51 : S2x32x32.Idx → EReal)
    = fun k c' f => (m ((c : Thread nD τ).loc main_arg13) : S2x32x32.Idx → EReal) (ix3 k c' f) := by
  rw [V5_v51]; rfl

/-- Layer 1's bias row as the region finds it is the argument's. -/
theorem entB_V5_52 (c : Dev nD) : entB (V5 m ρ c main_v52 : S1x32.Idx → EReal)
    = fun f => (m ((c : Thread nD τ).loc main_arg4) : S32.Idx → EReal) (ix1 f) := by
  rw [V5_v52]; funext f; exact shapeCast_a_1a_apply _ _ _ _

/-- Layer 2's bias row as the region finds it is the argument's. -/
theorem entB_V5_53 (c : Dev nD) : entB (V5 m ρ c main_v53 : S1x32.Idx → EReal)
    = fun f => (m ((c : Thread nD τ).loc main_arg6) : S32.Idx → EReal) (ix1 f) := by
  rw [V5_v53]; funext f; exact shapeCast_a_1a_apply _ _ _ _

/-- Layer 3's bias row as the region finds it is the argument's. -/
theorem entB_V5_54 (c : Dev nD) : entB (V5 m ρ c main_v54 : S1x32.Idx → EReal)
    = fun f => (m ((c : Thread nD τ).loc main_arg8) : S32.Idx → EReal) (ix1 f) := by
  rw [V5_v54]; funext f; exact shapeCast_a_1a_apply _ _ _ _

/-- Layer 4's bias row as the region finds it is the argument's. -/
theorem entB_V5_55 (c : Dev nD) : entB (V5 m ρ c main_v55 : S1x32.Idx → EReal)
    = fun f => (m ((c : Thread nD τ).loc main_arg10) : S32.Idx → EReal) (ix1 f) := by
  rw [V5_v55]; funext f; exact shapeCast_a_1a_apply _ _ _ _

/-- Layer 5's bias row as the region finds it is the argument's. -/
theorem entB_V5_56 (c : Dev nD) : entB (V5 m ρ c main_v56 : S1x32.Idx → EReal)
    = fun f => (m ((c : Thread nD τ).loc main_arg12) : S32.Idx → EReal) (ix1 f) := by
  rw [V5_v56]; funext f; exact shapeCast_a_1a_apply _ _ _ _

/-- Layer 6's bias row as the region finds it is the argument's. -/
theorem entB_V5_57 (c : Dev nD) : entB (V5 m ρ c main_v57 : S1x32.Idx → EReal)
    = fun f => (m ((c : Thread nD τ).loc main_arg14) : S32.Idx → EReal) (ix1 f) := by
  rw [V5_v57]; funext f; exact shapeCast_a_1a_apply _ _ _ _

/-- The result function, with each array it reads replaced by an equal function. -/
theorem GV_eq (V : (c : Dev nD) → (b : Ref sig .tc) → Buf (Elt Ideal) ((c : Thread nD τ).loc b)) (c : Dev nD)
    (L : Fin 512 → Fin 512 → EReal) (W1 : Fin 2 → Fin 50 → Fin 32 → EReal) (b1 : Fin 32 → EReal)
    (W2 : Fin 2 → Fin 32 → Fin 32 → EReal) (b2 : Fin 32 → EReal) (W3 : Fin 2 → Fin 32 → Fin 32 → EReal) (b3 : Fin 32 → EReal)
    (W4 : Fin 2 → Fin 32 → Fin 32 → EReal) (b4 : Fin 32 → EReal) (W5 : Fin 2 → Fin 32 → Fin 32 → EReal) (b5 : Fin 32 → EReal)
    (W6 : Fin 2 → Fin 32 → Fin 32 → EReal) (b6 : Fin 32 → EReal) (X : S64x512x50.Idx → EReal)
    (hL : ent (V c main_v45 : S512x512.Idx → EReal) = L)
    (hW1 : entW (V c main_v46 : S2x50x32.Idx → EReal) = W1) (hb1 : entB (V c main_v52 : S1x32.Idx → EReal) = b1)
    (hW2 : entW (V c main_v47 : S2x32x32.Idx → EReal) = W2) (hb2 : entB (V c main_v53 : S1x32.Idx → EReal) = b2)
    (hW3 : entW (V c main_v48 : S2x32x32.Idx → EReal) = W3) (hb3 : entB (V c main_v54 : S1x32.Idx → EReal) = b3)
    (hW4 : entW (V c main_v49 : S2x32x32.Idx → EReal) = W4) (hb4 : entB (V c main_v55 : S1x32.Idx → EReal) = b4)
    (hW5 : entW (V c main_v50 : S2x32x32.Idx → EReal) = W5) (hb5 : entB (V c main_v56 : S1x32.Idx → EReal) = b5)
    (hW6 : entW (V c main_v51 : S2x32x32.Idx → EReal) = W6) (hb6 : entB (V c main_v57 : S1x32.Idx → EReal) = b6)
    (hX : (V c main_arg0 : S64x512x50.Idx → EReal) = X) (i : S64x512x32.Idx) :
    GV V c i = sixLayers L W1 b1 W2 b2 W3 b3 W4 b4 W5 b5 W6 b6 (fun n k => X (ix3 (i 0) n k)) (i 1) (i 2) := by
  subst hL hW1 hb1 hW2 hb2 hW3 hb3 hW4 hb4 hW5 hb5 hW6 hb6 hX
  rfl

/-- The six layers with the parameters read off the eighteen parameter arrays are the network's stack. -/
theorem sixLayers_eq_stack (L : Fin 512 → Fin 512 → EReal)
    (a3 : S2x50x32.Idx → EReal) (a4 : S32.Idx → EReal) (a5 : S2x32x32.Idx → EReal) (a6 : S32.Idx → EReal)
    (a7 : S2x32x32.Idx → EReal) (a8 : S32.Idx → EReal) (a9 : S2x32x32.Idx → EReal) (a10 : S32.Idx → EReal)
    (a11 : S2x32x32.Idx → EReal) (a12 : S32.Idx → EReal) (a13 : S2x32x32.Idx → EReal) (a14 : S32.Idx → EReal)
    (a15 : S16384x256.Idx → EReal) (a16 : S256.Idx → EReal) (a17 : S256x128.Idx → EReal) (a18 : S128.Idx → EReal)
    (a19 : S128x2.Idx → EReal) (a20 : S2.Idx → EReal) (x : Fin 512 → Fin 50 → EReal) :
    sixLayers L (fun k c' f => a3 (ix3 k c' f)) (fun f => a4 (ix1 f)) (fun k c' f => a5 (ix3 k c' f)) (fun f => a6 (ix1 f))
        (fun k c' f => a7 (ix3 k c' f)) (fun f => a8 (ix1 f)) (fun k c' f => a9 (ix3 k c' f)) (fun f => a10 (ix1 f))
        (fun k c' f => a11 (ix3 k c' f)) (fun f => a12 (ix1 f)) (fun k c' f => a13 (ix3 k c' f)) (fun f => a14 (ix1 f)) x
      = Cert.Cheb.stack (Cert.Cheb.propD L) (Cert.Cheb.paramsOf a3 a4 a5 a6 a7 a8 a9 a10 a11 a12 a13 a14 a15 a16 a17 a18 a19 a20) x := rfl

/-- THE FIRST KERNEL'S RESULT: entry (s, n, f) of its result array is the six layers on sample s, propagating
    through the matrix of the edge list (sources src, destinations dst) with the weights the host operations
    computed, with the parameters read off the launch's arrays. -/
theorem region0 (c : Dev nD) (src dst : Fin 32768 → Fin 512)
    (hsrc : ∀ e : Fin 32768, ((m ((c : Thread nD τ).loc main_arg1) : S2x32768.Idx → BitVec 32) (ix2 (0 : Fin 2) e)).toInt = ((src e).val : ℤ))
    (hdst : ∀ e : Fin 32768, ((m ((c : Thread nD τ).loc main_arg1) : S2x32768.Idx → BitVec 32) (ix2 (1 : Fin 2) e)).toInt = ((dst e).val : ℤ)) :
    (dat0 (V5 m ρ) c).arrAt 14 cfg0.N = fun i =>
      Cert.Cheb.stack (Cert.Cheb.propD (Cert.Cheb.lap src dst (fun e => (V5 m ρ c main_v29 : S32768.Idx → EReal) (ix1 e))))
        (Cert.Cheb.paramsOf
          (m ((c : Thread nD τ).loc main_arg3) : S2x50x32.Idx → EReal)
          (m ((c : Thread nD τ).loc main_arg4) : S32.Idx → EReal)
          (m ((c : Thread nD τ).loc main_arg5) : S2x32x32.Idx → EReal)
          (m ((c : Thread nD τ).loc main_arg6) : S32.Idx → EReal)
          (m ((c : Thread nD τ).loc main_arg7) : S2x32x32.Idx → EReal)
          (m ((c : Thread nD τ).loc main_arg8) : S32.Idx → EReal)
          (m ((c : Thread nD τ).loc main_arg9) : S2x32x32.Idx → EReal)
          (m ((c : Thread nD τ).loc main_arg10) : S32.Idx → EReal)
          (m ((c : Thread nD τ).loc main_arg11) : S2x32x32.Idx → EReal)
          (m ((c : Thread nD τ).loc main_arg12) : S32.Idx → EReal)
          (m ((c : Thread nD τ).loc main_arg13) : S2x32x32.Idx → EReal)
          (m ((c : Thread nD τ).loc main_arg14) : S32.Idx → EReal)
          (m ((c : Thread nD τ).loc main_arg15) : S16384x256.Idx → EReal)
          (m ((c : Thread nD τ).loc main_arg16) : S256.Idx → EReal)
          (m ((c : Thread nD τ).loc main_arg17) : S256x128.Idx → EReal)
          (m ((c : Thread nD τ).loc main_arg18) : S128.Idx → EReal)
          (m ((c : Thread nD τ).loc main_arg19) : S128x2.Idx → EReal)
          (m ((c : Thread nD τ).loc main_arg20) : S2.Idx → EReal))
        (fun n k => (m ((c : Thread nD τ).loc main_arg0) : S64x512x50.Idx → EReal) (ix3 (i 0) n k)) (i 1) (i 2) := by
  refine (final_V (V5 m ρ) c).trans (funext fun i => ?_)
  refine (GV_eq (V5 m ρ) c _ _ _ _ _ _ _ _ _ _ _ _ _ _ (entL_V5 m ρ c src dst hsrc hdst)
    (entW_V5_46 m ρ c) (entB_V5_52 m ρ c) (entW_V5_47 m ρ c) (entB_V5_53 m ρ c) (entW_V5_48 m ρ c) (entB_V5_54 m ρ c)
    (entW_V5_49 m ρ c) (entB_V5_55 m ρ c) (entW_V5_50 m ρ c) (entB_V5_56 m ρ c) (entW_V5_51 m ρ c) (entB_V5_57 m ρ c)
    (V5_arg0 m ρ c) i).trans ?_
  exact congrFun (congrFun (sixLayers_eq_stack
    (Cert.Cheb.lap src dst (fun e => (V5 m ρ c main_v29 : S32768.Idx → EReal) (ix1 e)))
    (m ((c : Thread nD τ).loc main_arg3) : S2x50x32.Idx → EReal)
    (m ((c : Thread nD τ).loc main_arg4) : S32.Idx → EReal)
    (m ((c : Thread nD τ).loc main_arg5) : S2x32x32.Idx → EReal)
    (m ((c : Thread nD τ).loc main_arg6) : S32.Idx → EReal)
    (m ((c : Thread nD τ).loc main_arg7) : S2x32x32.Idx → EReal)
    (m ((c : Thread nD τ).loc main_arg8) : S32.Idx → EReal)
    (m ((c : Thread nD τ).loc main_arg9) : S2x32x32.Idx → EReal)
    (m ((c : Thread nD τ).loc main_arg10) : S32.Idx → EReal)
    (m ((c : Thread nD τ).loc main_arg11) : S2x32x32.Idx → EReal)
    (m ((c : Thread nD τ).loc main_arg12) : S32.Idx → EReal)
    (m ((c : Thread nD τ).loc main_arg13) : S2x32x32.Idx → EReal)
    (m ((c : Thread nD τ).loc main_arg14) : S32.Idx → EReal)
    (m ((c : Thread nD τ).loc main_arg15) : S16384x256.Idx → EReal)
    (m ((c : Thread nD τ).loc main_arg16) : S256.Idx → EReal)
    (m ((c : Thread nD τ).loc main_arg17) : S256x128.Idx → EReal)
    (m ((c : Thread nD τ).loc main_arg18) : S128.Idx → EReal)
    (m ((c : Thread nD τ).loc main_arg19) : S128x2.Idx → EReal)
    (m ((c : Thread nD τ).loc main_arg20) : S2.Idx → EReal)
    (fun n k => (m ((c : Thread nD τ).loc main_arg0) : S64x512x50.Idx → EReal) (ix3 (i 0) n k))) (i 1)) (i 2)

end Cert.KerStack

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.Dense.lean ====
/-
  PROPAGATING THROUGH THE MATRIX IS PROPAGATING EDGE BY EDGE, on finite data.

  With real edge weights `a e` and real features `g`, row `n` of the matrix product is
  `∑ j, (∑ e, [dst e = n ∧ src e = j] a e) · g j c`. Distributing the product over the inner sum and exchanging
  the two sums gives `∑ e, ∑ j, [dst e = n ∧ src e = j] a e · g j c`, and for each edge only `j = src e`
  contributes: `∑ e, [dst e = n] a e · g (src e) c`, the edge-by-edge propagation. Distributivity is a law of
  the reals, not of the extended reals (`(⊤ + ⊥) · c` is not `⊤ · c + ⊥ · c`), which is why both the weights and
  the features are asked to be real numbers. A layer keeps real features real, so the two networks agree layer
  after layer.
-/
import proofs.«154162_j16277926052608_1_alg».proof.Proof.Net
import proofs.«154162_j16277926052608_1_alg».proof.Proof.LibFinite

noncomputable section

open scoped BigOperators

namespace Cert.Cheb

open Cert.LibFinite

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry of a matrix of extended reals is a real number. -/
def Fin2 {A B : ℕ} (h : Fin A → Fin B → EReal) : Prop := ∀ a b, IsFin (h a b)

/-- On real weights and real features the matrix product with `lap` is the edge-by-edge propagation. -/
theorem prop_eq (src dst : Fin 32768 → Fin 512) (nrm : Fin 32768 → EReal) (hn : ∀ e, IsFin (nrm e)) {C : ℕ}
    (h : Fin 512 → Fin C → EReal) (hh : Fin2 h) : propD (lap src dst nrm) h = propS src dst nrm h := by
  choose a ha using hn
  choose g hg using hh
  funext n c
  unfold propD lap propS
  have L : ∀ j : Fin 512, (∑ e : Fin 32768, if dst e = n ∧ src e = j then nrm e else 0)
      = ((∑ e : Fin 32768, if dst e = n ∧ src e = j then a e else 0 : ℝ) : EReal) := by
    intro j
    rw [coe_sum]
    refine Finset.sum_congr rfl fun e _ => ?_
    split_ifs
    · exact ha e
    · exact (EReal.coe_zero).symm
  have R : ∀ e : Fin 32768, (if dst e = n then nrm e * h (src e) c else 0)
      = ((if dst e = n then a e * g (src e) c else 0 : ℝ) : EReal) := by
    intro e
    split_ifs
    · rw [ha e, hg (src e) c, EReal.coe_mul]
    · exact (EReal.coe_zero).symm
  have M : ∀ j : Fin 512, (((∑ e : Fin 32768, if dst e = n ∧ src e = j then a e else 0 : ℝ) : EReal)) * h j c
      = (((∑ e : Fin 32768, if dst e = n ∧ src e = j then a e else 0) * g j c : ℝ) : EReal) := by
    intro j
    rw [hg j c, EReal.coe_mul]
  simp only [L, M, R]
  rw [← coe_sum, ← coe_sum]
  refine congrArg _ ?_
  simp only [Finset.sum_mul]
  rw [Finset.sum_comm]
  refine Finset.sum_congr rfl fun e _ => ?_
  by_cases hd : dst e = n
  · simp only [hd, true_and, if_true]
    rw [Finset.sum_eq_single (src e)]
    · rw [if_pos rfl]
    · intro j _ hj
      rw [if_neg (fun h' => hj h'.symm), zero_mul]
    · intro h'
      exact absurd (Finset.mem_univ _) h'
  · simp only [hd, false_and, if_false, zero_mul, Finset.sum_const_zero]

/-- A product of real matrices is real. -/
theorem Fin2.mm {A K B : ℕ} {X : Fin A → Fin K → EReal} {W : Fin K → Fin B → EReal} (hX : Fin2 X) (hW : Fin2 W) :
    Fin2 (mm X W) := fun a b => IsFin.sum _ _ fun k _ => (hX a k).mul (hW k b)

/-- Edge-by-edge propagation of real features with real weights is real. -/
theorem Fin2.propS (src dst : Fin 32768 → Fin 512) {nrm : Fin 32768 → EReal} (hn : ∀ e, IsFin (nrm e)) {C : ℕ}
    {h : Fin 512 → Fin C → EReal} (hh : Fin2 h) : Fin2 (propS src dst nrm h) := fun n c =>
  IsFin.sum _ _ fun e _ => by
    split_ifs
    · exact (hn e).mul (hh (src e) c)
    · exact isFin_zero

/-- `max(·, 0)` of a real matrix is real. -/
theorem Fin2.relu {A B : ℕ} {h : Fin A → Fin B → EReal} (hh : Fin2 h) : Fin2 (relu h) := fun a b =>
  (hh a b).max isFin_zero

/-- A layer with real parameters, propagating edge by edge with real weights, keeps real features real. -/
theorem Fin2.cheb (src dst : Fin 32768 → Fin 512) {nrm : Fin 32768 → EReal} (hn : ∀ e, IsFin (nrm e)) {C : ℕ}
    {W : Fin 2 → Fin C → Fin 32 → EReal} (hW : ∀ k, Fin2 (W k)) {b : Fin 32 → EReal} (hb : ∀ f, IsFin (b f))
    {h : Fin 512 → Fin C → EReal} (hh : Fin2 h) : Fin2 (Cheb.cheb (Cheb.propS src dst nrm) W b h) := fun n f =>
  (((hh.mm (hW 0)) n f).add (((Fin2.propS src dst hn hh).mm (hW 1)) n f)).add (hb f)

/-- On real features the layer through the matrix is the layer edge by edge. -/
theorem cheb_eq (src dst : Fin 32768 → Fin 512) {nrm : Fin 32768 → EReal} (hn : ∀ e, IsFin (nrm e)) {C : ℕ}
    (W : Fin 2 → Fin C → Fin 32 → EReal) (b : Fin 32 → EReal) {h : Fin 512 → Fin C → EReal} (hh : Fin2 h) :
    cheb (propD (lap src dst nrm)) W b h = cheb (propS src dst nrm) W b h := by
  unfold cheb
  rw [prop_eq src dst nrm hn h hh]

/-- The convolution parameters are real numbers. -/
structure Params.ConvFin (θ : Params) : Prop where
  W1 : ∀ k, Fin2 (θ.W1 k)
  b1 : ∀ f, IsFin (θ.b1 f)
  W2 : ∀ k, Fin2 (θ.W2 k)
  b2 : ∀ f, IsFin (θ.b2 f)
  W3 : ∀ k, Fin2 (θ.W3 k)
  b3 : ∀ f, IsFin (θ.b3 f)
  W4 : ∀ k, Fin2 (θ.W4 k)
  b4 : ∀ f, IsFin (θ.b4 f)
  W5 : ∀ k, Fin2 (θ.W5 k)
  b5 : ∀ f, IsFin (θ.b5 f)
  W6 : ∀ k, Fin2 (θ.W6 k)
  b6 : ∀ f, IsFin (θ.b6 f)

/-- The six layers through the matrix are the six layers edge by edge, on a real sample with real weights and
    real parameters: each layer's input is real because the previous layer kept it so. -/
theorem stack_eq (src dst : Fin 32768 → Fin 512) {nrm : Fin 32768 → EReal} (hn : ∀ e, IsFin (nrm e)) {θ : Params}
    (hθ : θ.ConvFin) {x : Fin 512 → Fin 50 → EReal} (hx : Fin2 x) :
    stack (propD (lap src dst nrm)) θ x = stack (propS src dst nrm) θ x := by
  have f1 := (Fin2.cheb src dst hn hθ.W1 hθ.b1 hx).relu
  have f2 := (Fin2.cheb src dst hn hθ.W2 hθ.b2 f1).relu
  have f3 := (Fin2.cheb src dst hn hθ.W3 hθ.b3 f2).relu
  have f4 := (Fin2.cheb src dst hn hθ.W4 hθ.b4 f3).relu
  have f5 := (Fin2.cheb src dst hn hθ.W5 hθ.b5 f4).relu
  unfold stack
  rw [cheb_eq src dst hn θ.W1 θ.b1 hx, cheb_eq src dst hn θ.W2 θ.b2 f1, cheb_eq src dst hn θ.W3 θ.b3 f2,
    cheb_eq src dst hn θ.W4 θ.b4 f3, cheb_eq src dst hn θ.W5 θ.b5 f4, cheb_eq src dst hn θ.W6 θ.b6 f5]

/-- The two networks agree on real samples, real edge weights and real convolution parameters. -/
theorem net_eq (src dst : Fin 32768 → Fin 512) {nrm : Fin 32768 → EReal} (hn : ∀ e, IsFin (nrm e)) {θ : Params}
    (hθ : θ.ConvFin) {x : Fin 64 → Fin 512 → Fin 50 → EReal} (hx : ∀ s, Fin2 (x s)) :
    net (propD (lap src dst nrm)) θ x = net (propS src dst nrm) θ x := by
  unfold net
  have e : (fun s => stack (propD (lap src dst nrm)) θ (x s)) = fun s => stack (propS src dst nrm) θ (x s) :=
    funext fun s => stack_eq src dst hn hθ (hx s)
  rw [e]

end Cert.Cheb

end
-- ==== Proof.NrmFin.lean ====
/-
  THE EDGE WEIGHTS ARE REAL NUMBERS.

  The weight of edge `e` is `-(dinv[src e] · w e · dinv[dst e])`, where `w e` is the edge's input weight or `0` on a
  self-loop, and `dinv[n]` is `1/√(deg n)` where the degree is positive and `0` elsewhere. Whatever extended real
  the degree is, `dinv` is a real number: a positive real has a real inverse root, the inverse root of `+∞` is `0`,
  and every other case takes the `0` branch. A gathered entry is one of the entries gathered from. So with real
  input weights every edge weight is a product of three reals, negated.
-/
import proofs.«154162_j16277926052608_1_alg».proof.Proof.RefRead
import proofs.«154162_j16277926052608_1_alg».proof.Proof.LibFinite
import Idealize.ShloMosaic.PureOps.Ideal.Laws

noncomputable section

namespace Cert.NrmFin

open Cert.ReferenceIdeal Cert.ReferenceIdeal.Read Idealize.ShloMosaic Cert.LibFinite

/-- The negation of a real is a real. -/
theorem isFin_neg {x : EReal} (hx : IsFin x) : IsFin (-x) := by
  obtain ⟨a, rfl⟩ := hx
  exact ⟨-a, (EReal.coe_neg a).symm⟩

/-- `1/√d` where `d > 0`, and `0` elsewhere, is a real number for every extended real `d`. -/
theorem isFin_dinv (d : EReal) :
    IsFin (if Ideal.cmp .ogt d (Ideal.ofBits .f32 0x00000000#32) = 1#1 then Ideal.rsqrt d
      else Ideal.ofBits .f32 0x00000000#32) := by
  rw [Ideal.ofBits_zero_f32]
  split_ifs with h
  · induction d using EReal.rec with
    | bot => exact absurd h (by simp [Ideal.cmp])
    | top => exact ⟨0, (show Ideal.rsqrt ⊤ = (0 : EReal) from rfl).trans EReal.coe_zero.symm⟩
    | coe r =>
      have hr : (0 : ℝ) < r := by
        by_contra hn
        have hn' : ¬ ((0 : EReal) < (r : EReal)) := by exact_mod_cast hn
        simp [Ideal.cmp, hn'] at h
      refine ⟨(Real.sqrt r)⁻¹, ?_⟩
      show (if r < 0 then (⊥ : EReal) else if r = 0 then ⊤ else (((Real.sqrt r)⁻¹ : ℝ) : EReal)) = _
      rw [if_neg (not_lt.mpr hr.le), if_neg hr.ne']
  · exact isFin_zero

/-- The inverse root of the degree, zero where the degree is not positive, is real at every node. -/
theorem dinv_fin (x1 : (⟨S2x32768, .i32⟩ : BufTy).Contents (Elt Ideal)) (x2 : (⟨S32768, .f32⟩ : BufTy).Contents (Elt Ideal))
    (i : S512.Idx) : IsFin (val_main_v12 (F := Ideal) x1 x2 i) := by
  unfold val_main_v12 val_main_v10 val_main_v11
  generalize val_main_v8 (F := Ideal) x1 x2 = d
  exact isFin_dinv (d i)

/-- An edge's input weight, zeroed on a self-loop, is real when the input weights are. -/
theorem w_fin (x1 : (⟨S2x32768, .i32⟩ : BufTy).Contents (Elt Ideal)) (x2 : (⟨S32768, .f32⟩ : BufTy).Contents (Elt Ideal))
    (h2 : ∀ i, IsFin (x2 i)) (i : S32768.Idx) : IsFin (val_main_v5 (F := Ideal) x1 x2 i) := by
  unfold val_main_v5
  show IsFin (if val_main_v4 (F := Ideal) x1 i = 1#1 then Ideal.ofBits .f32 0x00000000#32 else x2 i)
  split_ifs
  · rw [Ideal.ofBits_zero_f32]; exact isFin_zero
  · exact h2 i

/-- Every edge weight is a real number when the input weights are. -/
theorem nrm_fin (x1 : (⟨S2x32768, .i32⟩ : BufTy).Contents (Elt Ideal)) (x2 : (⟨S32768, .f32⟩ : BufTy).Contents (Elt Ideal))
    (h2 : ∀ i, IsFin (x2 i)) (i : S32768.Idx) : IsFin (val_main_v29 (F := Ideal) x1 x2 i) := by
  unfold val_main_v29 val_main_v28 val_main_v20 val_main_v19 val_main_v27
  exact isFin_neg (((dinv_fin x1 x2 _).mul (w_fin x1 x2 h2 i)).mul (dinv_fin x1 x2 _))

end Cert.NrmFin

end
-- ==== Proof.PreLaws.lean ====
/-
  READING A PRECONDITION BACK.

  A precondition is printed as one bit: the conjunction of a few `all(...)` reductions. `all(|x| < +∞)` being `1`
  says every entry of `x` is a real number: an entry whose absolute value `max x (-x)` is below `+∞` is neither
  infinity. `all(x ≥ 0)` and `all(x < 512)` on 32-bit integers say every entry, read signed, is in `[0, 512)`.
-/
import Idealize.ShloMosaic.Lib.ReduceAll
import Idealize.ShloMosaic.Lib.ValueIdx
import Idealize.ShloMosaic.PureOps.Ideal.Laws
import proofs.«154162_j16277926052608_1_alg».proof.Proof.LibFinite

noncomputable section

namespace Cert.PreLaws

open Idealize.ShloMosaic Idealize.ShloMosaic.ValueIdx Cert.LibFinite

/-- The rank-0 shape has one index. -/
instance : Subsingleton (⟨0, ![]⟩ : Shape).Idx := ⟨fun a b => funext fun d => d.elim0⟩

/-- The pattern of `+∞`. -/
theorem ofBits_inf : Ideal.ofBits .f32 0x7F800000#32 = (⊤ : EReal) := by simp [Ideal.ofBits, Ideal.ieee]

/-- An extended real whose absolute value is below `+∞` is a real number. -/
theorem isFin_of_abs_lt (x : EReal)
    (h : Ideal.cmp .olt (max x (-x)) (Ideal.ofBits .f32 0x7F800000#32) = 1#1) : IsFin x := by
  rw [ofBits_inf] at h
  induction x using EReal.rec with
  | bot => exact absurd h (by simp [Ideal.cmp])
  | coe r => exact ⟨r, rfl⟩
  | top => exact absurd h (by simp [Ideal.cmp])

/-- `all(|x| < +∞)` is `1`: every entry of `x` is a real number. -/
theorem all_fin {S : Shape} {axes : List (Fin S.rank)} (x : FVec Ideal S .f32)
    (bc : (⟨0, ![]⟩ : Shape).BroadcastsInDim S (![] : Fin 0 → Fin S.rank)) (red : S.ReducesTo axes ⟨0, ![]⟩)
    (hS : 0 < (⟨0, ![]⟩ : Shape).numel)
    (h : Host.reduce IntOp.andi
        (cmpf .olt (Host.absf x) (broadcastInDim S ![] bc (constant (F := Ideal) ⟨0, ![]⟩ .f32 0x7F800000#32)))
        (constantI ⟨0, ![]⟩ 1 1#1) red hS ix0 = 1#1) (i : S.Idx) : IsFin (x i) :=
  isFin_of_abs_lt (x i) (Host.reduce_andi_all _ _ red hS ix0 h i)

theorem ofBool_eq_one (b : Bool) : BitVec.ofBool b = 1#1 ↔ b = true := by cases b <;> decide

/-- `all(x ≥ 0)` is `1`: every entry, read signed, is nonnegative. -/
theorem all_ge {S : Shape} {axes : List (Fin S.rank)} (x : IVec S 32)
    (bc : (⟨0, ![]⟩ : Shape).BroadcastsInDim S (![] : Fin 0 → Fin S.rank)) (red : S.ReducesTo axes ⟨0, ![]⟩)
    (hS : 0 < (⟨0, ![]⟩ : Shape).numel)
    (h : Host.reduce IntOp.andi (cmpi .sge x (broadcastInDim S ![] bc (constantI ⟨0, ![]⟩ 32 0#32)))
        (constantI ⟨0, ![]⟩ 1 1#1) red hS ix0 = 1#1) (i : S.Idx) : 0 ≤ (x i).toInt := by
  have e : IntOp.cmpi .sge (x i) 0#32 = 1#1 := Host.reduce_andi_all _ _ red hS ix0 h i
  unfold IntOp.cmpi at e
  rw [ofBool_eq_one] at e
  simpa [BitVec.sle] using e

/-- `all(x < 512)` is `1`: every entry, read signed, is below 512. -/
theorem all_lt {S : Shape} {axes : List (Fin S.rank)} (x : IVec S 32)
    (bc : (⟨0, ![]⟩ : Shape).BroadcastsInDim S (![] : Fin 0 → Fin S.rank)) (red : S.ReducesTo axes ⟨0, ![]⟩)
    (hS : 0 < (⟨0, ![]⟩ : Shape).numel)
    (h : Host.reduce IntOp.andi (cmpi .slt x (broadcastInDim S ![] bc (constantI ⟨0, ![]⟩ 32 512#32)))
        (constantI ⟨0, ![]⟩ 1 1#1) red hS ix0 = 1#1) (i : S.Idx) : (x i).toInt < 512 := by
  have e : IntOp.cmpi .slt (x i) 512#32 = 1#1 := Host.reduce_andi_all _ _ red hS ix0 h i
  unfold IntOp.cmpi at e
  rw [ofBool_eq_one] at e
  simpa [BitVec.slt] using e

end Cert.PreLaws

end
-- ==== Proof.PreFacts.lean ====
/-
  THE PRECONDITION, DECODED.

  The precondition is the conjunction of twenty `all(|x| < +∞)`, one per float input, and of `all(edge_index ≥ 0)`
  and `all(edge_index < 512)`. Read back: every float input holds real numbers and every edge endpoint, read
  signed, is a node number in `[0, 512)`.
-/
import proofs.«154162_j16277926052608_1_alg».proof.Pre_finite_inputs
import proofs.«154162_j16277926052608_1_alg».proof.Proof.PreLaws

set_option maxRecDepth 16384

noncomputable section

namespace Cert.PreFacts

open Cert.Pre_finite_inputs Idealize.ShloMosaic Idealize.ShloMosaic.ValueIdx Cert.LibFinite Cert.PreLaws

variable [Facts]
open Facts

/-- What the precondition says of the 21 inputs. -/
structure Decoded (a0 : FVec Ideal S64x512x50 .f32) (a1 : IVec S2x32768 32) (a2 : FVec Ideal S32768 .f32) (a3 : FVec Ideal S2x50x32 .f32) (a4 : FVec Ideal S32 .f32) (a5 : FVec Ideal S2x32x32 .f32) (a6 : FVec Ideal S32 .f32) (a7 : FVec Ideal S2x32x32 .f32) (a8 : FVec Ideal S32 .f32) (a9 : FVec Ideal S2x32x32 .f32) (a10 : FVec Ideal S32 .f32) (a11 : FVec Ideal S2x32x32 .f32) (a12 : FVec Ideal S32 .f32) (a13 : FVec Ideal S2x32x32 .f32) (a14 : FVec Ideal S32 .f32) (a15 : FVec Ideal S16384x256 .f32) (a16 : FVec Ideal S256 .f32) (a17 : FVec Ideal S256x128 .f32) (a18 : FVec Ideal S128 .f32) (a19 : FVec Ideal S128x2 .f32) (a20 : FVec Ideal S2 .f32) : Prop where
  f0 : ∀ i, IsFin (a0 i)
  f2 : ∀ i, IsFin (a2 i)
  f3 : ∀ i, IsFin (a3 i)
  f4 : ∀ i, IsFin (a4 i)
  f5 : ∀ i, IsFin (a5 i)
  f6 : ∀ i, IsFin (a6 i)
  f7 : ∀ i, IsFin (a7 i)
  f8 : ∀ i, IsFin (a8 i)
  f9 : ∀ i, IsFin (a9 i)
  f10 : ∀ i, IsFin (a10 i)
  f11 : ∀ i, IsFin (a11 i)
  f12 : ∀ i, IsFin (a12 i)
  f13 : ∀ i, IsFin (a13 i)
  f14 : ∀ i, IsFin (a14 i)
  f15 : ∀ i, IsFin (a15 i)
  f16 : ∀ i, IsFin (a16 i)
  f17 : ∀ i, IsFin (a17 i)
  f18 : ∀ i, IsFin (a18 i)
  f19 : ∀ i, IsFin (a19 i)
  f20 : ∀ i, IsFin (a20 i)
  ge : ∀ i, 0 ≤ (a1 i).toInt
  lt : ∀ i, (a1 i).toInt < 512

/-- The precondition's bit is `1`: the float inputs are real and the edge endpoints are node numbers. -/
theorem decode (a0 : FVec Ideal S64x512x50 .f32) (a1 : IVec S2x32768 32) (a2 : FVec Ideal S32768 .f32) (a3 : FVec Ideal S2x50x32 .f32) (a4 : FVec Ideal S32 .f32) (a5 : FVec Ideal S2x32x32 .f32) (a6 : FVec Ideal S32 .f32) (a7 : FVec Ideal S2x32x32 .f32) (a8 : FVec Ideal S32 .f32) (a9 : FVec Ideal S2x32x32 .f32) (a10 : FVec Ideal S32 .f32) (a11 : FVec Ideal S2x32x32 .f32) (a12 : FVec Ideal S32 .f32) (a13 : FVec Ideal S2x32x32 .f32) (a14 : FVec Ideal S32 .f32) (a15 : FVec Ideal S16384x256 .f32) (a16 : FVec Ideal S256 .f32) (a17 : FVec Ideal S256x128 .f32) (a18 : FVec Ideal S128 .f32) (a19 : FVec Ideal S128x2 .f32) (a20 : FVec Ideal S2 .f32)
    (h : fn (F := Ideal) a0 a1 a2 a3 a4 a5 a6 a7 a8 a9 a10 a11 a12 a13 a14 a15 a16 a17 a18 a19 a20 = fun _ => 1#1) : Decoded a0 a1 a2 a3 a4 a5 a6 a7 a8 a9 a10 a11 a12 a13 a14 a15 a16 a17 a18 a19 a20 := by
  have e := congrFun h ix0
  dsimp only [fn, fn_part1, fn_part2, fn_part3, fn_part4, fn_part5, fn_part6] at e
  simp only [andi, IntOp.andi_eq_one] at e
  obtain ⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, hge⟩, hlt⟩ := e
  exact ⟨all_fin a0 _ _ _ h0, all_fin a2 _ _ _ h2, all_fin a3 _ _ _ h3, all_fin a4 _ _ _ h4, all_fin a5 _ _ _ h5, all_fin a6 _ _ _ h6, all_fin a7 _ _ _ h7, all_fin a8 _ _ _ h8, all_fin a9 _ _ _ h9, all_fin a10 _ _ _ h10, all_fin a11 _ _ _ h11, all_fin a12 _ _ _ h12, all_fin a13 _ _ _ h13, all_fin a14 _ _ _ h14, all_fin a15 _ _ _ h15, all_fin a16 _ _ _ h16, all_fin a17 _ _ _ h17, all_fin a18 _ _ _ h18, all_fin a19 _ _ _ h19, all_fin a20 _ _ _ h20, all_ge a1 _ _ _ hge, all_lt a1 _ _ _ hlt⟩

/-- Endpoints in `[0, 512)` are node numbers: the sources (row 0 of the edge list) and the destinations (row 1) as
    functions into `Fin 512`. -/
theorem endpoints (a1 : IVec S2x32768 32) (ge : ∀ i, 0 ≤ (a1 i).toInt) (lt : ∀ i, (a1 i).toInt < 512) :
    ∃ src dst : Fin 32768 → Fin 512,
      (∀ e : Fin 32768, (a1 (ix2 (0 : Fin 2) e)).toInt = ((src e).val : ℤ))
      ∧ (∀ e : Fin 32768, (a1 (ix2 (1 : Fin 2) e)).toInt = ((dst e).val : ℤ)) := by
  refine ⟨fun e => ⟨(a1 (ix2 (0 : Fin 2) e)).toInt.toNat, ?_⟩, fun e => ⟨(a1 (ix2 (1 : Fin 2) e)).toInt.toNat, ?_⟩,
    fun e => (Int.toNat_of_nonneg (ge _)).symm, fun e => (Int.toNat_of_nonneg (ge _)).symm⟩
  · have h1 := ge (ix2 (0 : Fin 2) e); have h2 := lt (ix2 (0 : Fin 2) e); omega
  · have h1 := ge (ix2 (1 : Fin 2) e); have h2 := lt (ix2 (1 : Fin 2) e); omega

end Cert.PreFacts

end
-- ==== Proof.RefRows.lean ====
/-
  ROWS MOVED BY AN EDGE LIST. Two host operations on arrays of shape [64, 512, C] (64 samples, 512 nodes, C features),
  read at an index:

  * the row gather: the array [64, 32768, C] whose row `e` (of every sample) is row `idx[e]` of the operand, the start
    index read signed and clamped into [0, 511];
  * the accumulating row scatter: the operand plus, at row `n`, the sum of the update rows `e` whose index `idx[e]` is `n`
    (an update whose index is outside [0, 512) is dropped; none is when every index is a node).

  Also the index wrap `if t < 0 then t + 512 else t`, which is the identity on a non-negative word.
-/
import Idealize.ShloMosaic.PureOps.Ideal
import Idealize.ShloMosaic.PureOps.Ideal.Laws
import Idealize.ShloMosaic.Lib.ValueIdx

noncomputable section

open scoped BigOperators

namespace Cert.RefRows

open Idealize.ShloMosaic Idealize.ShloMosaic.ValueIdx

/-- The wrap of a possibly negative index, `if t < 0 then t + 512 else t`, returns a non-negative word unchanged. -/
theorem wrap_of_nonneg (t : BitVec 32) (k : Nat) (h : t.toInt = (k : ℤ)) :
    Scalar.select (IntOp.cmpi .slt t 0#32) (IntOp.addi t 512#32) t = t := by
  have hs : t.slt 0#32 = false := by
    simp [BitVec.slt, h]
  unfold IntOp.cmpi
  simp only [hs]
  exact select_zero _ _

section Gather
variable {α : Type}

/-- The dimension numbers of the row gather: operand [64, 512, C], start indices [32768, 1], result [64, 32768, C];
    the result's axes 0 and 2 are the operand's, its axis 1 runs over the start indices, which select the operand's axis 1. -/
abbrev gatherDims (C : Nat)
    (wf : GatherDims.WF ⟨3, ![64, 512, C]⟩ ⟨2, ![32768, 1]⟩ ⟨3, ![64, 32768, C]⟩ [0, 2] [1] [] [1] [] 1 ![64, 1, C]) :
    GatherDims ⟨3, ![64, 512, C]⟩ ⟨2, ![32768, 1]⟩ ⟨3, ![64, 32768, C]⟩ where
  offsetDims := [0, 2]
  collapsedSliceDims := [1]
  operandBatchingDims := []
  startIndicesBatchingDims := []
  startIndexMap := [1]
  indexVectorDim := 1
  sliceSizes := ![64, 1, C]
  wf := wf

/-- The row gather at `(s, e, c)` is the operand at `(s, idx[e, 0], c)`, the start index read signed and clamped into [0, 511]. -/
theorem gather_rows_apply {C w : Nat}
    (wf : GatherDims.WF ⟨3, ![64, 512, C]⟩ ⟨2, ![32768, 1]⟩ ⟨3, ![64, 32768, C]⟩ [0, 2] [1] [] [1] [] 1 ![64, 1, C])
    (x : (⟨3, ![64, 512, C]⟩ : Shape).Idx → α) (idx : IVec ⟨2, ![32768, 1]⟩ w) (s : Fin 64) (e : Fin 32768) (c : Fin C) :
    Host.gather (gatherDims C wf) x idx (ix3 s e c)
      = x (ix3 s ⟨min (idx (ix2 e (0 : Fin 1))).toInt.toNat 511, by omega⟩ c) := by
  have hb : ∀ a, (gatherDims C wf).batchCoord (ix3 s e c) a = 0 := fun a =>
    GatherDims.batchCoord_eq_zero _ _ _ List.not_mem_nil
  have e0 : (gatherDims C wf).start (ix3 s e c) idx 0 + (gatherDims C wf).batchCoord (ix3 s e c) 0
      + (gatherDims C wf).offCoord (ix3 s e c) 0 = s.val := by
    have hn : (0 : Fin (⟨3, ![64, 512, C]⟩ : Shape).rank) ∉ (gatherDims C wf).startIndexMap := by
      show (0 : Fin 3) ∉ ([1] : List (Fin 3)); decide
    have h0 : (0 : Fin (⟨3, ![64, 512, C]⟩ : Shape).rank) ∈ (gatherDims C wf).sKept :=
      (GatherDims.mem_sKept _ _).2 ⟨by show (0 : Fin 3) ∉ ([1] : List (Fin 3)); decide, List.not_mem_nil⟩
    rw [hb, Nat.add_zero]
    unfold GatherDims.start GatherDims.offCoord
    rw [dif_neg hn, dif_pos h0, Nat.zero_add]
    rfl
  have e1 : (gatherDims C wf).start (ix3 s e c) idx 1 + (gatherDims C wf).batchCoord (ix3 s e c) 1
      + (gatherDims C wf).offCoord (ix3 s e c) 1 = min (idx (ix2 e (0 : Fin 1))).toInt.toNat 511 := by
    rw [hb, Nat.add_zero, GatherDims.offCoord_eq_zero _ _ _
      (fun h => ((GatherDims.mem_sKept _ _).1 h).1 (List.mem_singleton.2 rfl)), Nat.add_zero]
    unfold GatherDims.start
    rw [dif_pos (show (1 : Fin (⟨3, ![64, 512, C]⟩ : Shape).rank) ∈ (gatherDims C wf).startIndexMap from List.mem_singleton.2 rfl)]
    have hsi : (gatherDims C wf).siIdx (ix3 s e c) ⟨List.idxOf (1 : Fin (⟨3, ![64, 512, C]⟩ : Shape).rank) (gatherDims C wf).startIndexMap,
        List.idxOf_lt_length_iff.2 (List.mem_singleton.2 rfl)⟩ = ix2 e (0 : Fin 1) := by
      funext b; refine Fin.ext ?_
      match b with
      | ⟨0, _⟩ => rfl
      | ⟨1, _⟩ => rfl
    rw [hsi]
    rfl
  have e2 : (gatherDims C wf).start (ix3 s e c) idx 2 + (gatherDims C wf).batchCoord (ix3 s e c) 2
      + (gatherDims C wf).offCoord (ix3 s e c) 2 = c.val := by
    have hn : (2 : Fin (⟨3, ![64, 512, C]⟩ : Shape).rank) ∉ (gatherDims C wf).startIndexMap := by
      show (2 : Fin 3) ∉ ([1] : List (Fin 3)); decide
    have h2 : (2 : Fin (⟨3, ![64, 512, C]⟩ : Shape).rank) ∈ (gatherDims C wf).sKept :=
      (GatherDims.mem_sKept _ _).2 ⟨by show (2 : Fin 3) ∉ ([1] : List (Fin 3)); decide, List.not_mem_nil⟩
    rw [hb, Nat.add_zero]
    unfold GatherDims.start GatherDims.offCoord
    rw [dif_neg hn, dif_pos h2, Nat.zero_add]
    rfl
  unfold Host.gather
  congr 1
  funext a
  refine Fin.ext ?_
  match a with
  | ⟨0, _⟩ => exact e0
  | ⟨1, _⟩ => exact e1
  | ⟨2, _⟩ => exact e2

end Gather

section Scatter

/-- The dimension numbers of the accumulating row scatter: operand [64, 512, C], scatter indices [32768, 1], updates
    [64, 32768, C]; the updates' axes 0 and 2 are the operand's, their axis 1 runs over the scatter indices, which give the
    operand's axis 1. -/
abbrev scatterDims (C : Nat)
    (wf : ScatterDims.WF ⟨3, ![64, 512, C]⟩ ⟨2, ![32768, 1]⟩ ⟨3, ![64, 32768, C]⟩ [0, 2] [1] [1] 1) :
    ScatterDims ⟨3, ![64, 512, C]⟩ ⟨2, ![32768, 1]⟩ ⟨3, ![64, 32768, C]⟩ where
  updateWindowDims := [0, 2]
  insertedWindowDims := [1]
  scatterDimsToOperandDims := [1]
  indexVectorDim := 1
  wf := wf

/-- Update element `(s, e, c)` lands at `(s, n, c)` when the scatter index of `e` is the node `n`. -/
theorem scatter_lands {C w : Nat}
    (wf : ScatterDims.WF ⟨3, ![64, 512, C]⟩ ⟨2, ![32768, 1]⟩ ⟨3, ![64, 32768, C]⟩ [0, 2] [1] [1] 1)
    (idx : IVec ⟨2, ![32768, 1]⟩ w) (s : Fin 64) (e : Fin 32768) (c : Fin C) (n : Fin 512)
    (h : (idx (ix2 e (0 : Fin 1))).toInt = (n.val : ℤ)) :
    (scatterDims C wf).resultIdx? (ix3 s e c) idx = some (ix3 s n c) := by
  have e0 : (scatterDims C wf).start (ix3 s e c) idx 0 + ((scatterDims C wf).window (ix3 s e c) 0 : ℤ) = (s.val : ℤ) := by
    have hn : (0 : Fin (⟨3, ![64, 512, C]⟩ : Shape).rank) ∉ (scatterDims C wf).scatterDimsToOperandDims := by
      show (0 : Fin 3) ∉ ([1] : List (Fin 3)); decide
    have h0 : (0 : Fin (⟨3, ![64, 512, C]⟩ : Shape).rank) ∈ (scatterDims C wf).sKept := by
      show (0 : Fin 3) ∈ (List.finRange 3).filter (fun a => a ∉ ([1] : List (Fin 3))); decide
    unfold ScatterDims.start ScatterDims.window
    rw [dif_neg hn, dif_pos h0, Int.zero_add]
    rfl
  have e1 : (scatterDims C wf).start (ix3 s e c) idx 1 + ((scatterDims C wf).window (ix3 s e c) 1 : ℤ) = (n.val : ℤ) := by
    have h1 : (1 : Fin (⟨3, ![64, 512, C]⟩ : Shape).rank) ∉ (scatterDims C wf).sKept := by
      show (1 : Fin 3) ∉ (List.finRange 3).filter (fun a => a ∉ ([1] : List (Fin 3))); decide
    unfold ScatterDims.start ScatterDims.window
    rw [dif_pos (show (1 : Fin (⟨3, ![64, 512, C]⟩ : Shape).rank) ∈ (scatterDims C wf).scatterDimsToOperandDims from
      List.mem_singleton.2 rfl), dif_neg h1]
    have hsi : (scatterDims C wf).siIdx (ix3 s e c) ⟨List.idxOf (1 : Fin (⟨3, ![64, 512, C]⟩ : Shape).rank)
        (scatterDims C wf).scatterDimsToOperandDims, List.idxOf_lt_length_iff.2 (List.mem_singleton.2 rfl)⟩
        = ix2 e (0 : Fin 1) := by
      funext b; refine Fin.ext ?_
      match b with
      | ⟨0, _⟩ => rfl
      | ⟨1, _⟩ => rfl
    rw [hsi, h]
    simp
  have e2 : (scatterDims C wf).start (ix3 s e c) idx 2 + ((scatterDims C wf).window (ix3 s e c) 2 : ℤ) = (c.val : ℤ) := by
    have hn : (2 : Fin (⟨3, ![64, 512, C]⟩ : Shape).rank) ∉ (scatterDims C wf).scatterDimsToOperandDims := by
      show (2 : Fin 3) ∉ ([1] : List (Fin 3)); decide
    have h2 : (2 : Fin (⟨3, ![64, 512, C]⟩ : Shape).rank) ∈ (scatterDims C wf).sKept := by
      show (2 : Fin 3) ∈ (List.finRange 3).filter (fun a => a ∉ ([1] : List (Fin 3))); decide
    unfold ScatterDims.start ScatterDims.window
    rw [dif_neg hn, dif_pos h2, Int.zero_add]
    rfl
  have hst : ∀ a, (scatterDims C wf).start (ix3 s e c) idx a + ((scatterDims C wf).window (ix3 s e c) a : ℤ)
      = (((ix3 s n c : (⟨3, ![64, 512, C]⟩ : Shape).Idx) a).val : ℤ) := by
    intro a
    match a with
    | ⟨0, _⟩ => exact e0
    | ⟨1, _⟩ => exact e1
    | ⟨2, _⟩ => exact e2
  have hin : ∀ a, 0 ≤ (scatterDims C wf).start (ix3 s e c) idx a + ((scatterDims C wf).window (ix3 s e c) a : ℤ) ∧
      (scatterDims C wf).start (ix3 s e c) idx a + ((scatterDims C wf).window (ix3 s e c) a : ℤ)
        < ((⟨3, ![64, 512, C]⟩ : Shape).size a : ℤ) := by
    intro a
    rw [hst a]
    exact ⟨Int.natCast_nonneg _, Int.ofNat_lt.2 ((ix3 s n c : (⟨3, ![64, 512, C]⟩ : Shape).Idx) a).isLt⟩
  unfold ScatterDims.resultIdx?
  rw [dif_pos hin]
  congr 1
  funext a
  refine Fin.ext ?_
  show ((scatterDims C wf).start (ix3 s e c) idx a + ((scatterDims C wf).window (ix3 s e c) a : ℤ)).toNat = _
  rw [hst a]
  exact Int.toNat_natCast _

/-- THE ROW SCATTER READ AT `(s, n, c)`, when every scatter index is a node (`dst`): the operand there plus the sum of
    the update elements `(s, e, c)` over the edges `e` with `dst e = n`. -/
theorem scatterAdd_rows_apply {C w : Nat}
    (wf : ScatterDims.WF ⟨3, ![64, 512, C]⟩ ⟨2, ![32768, 1]⟩ ⟨3, ![64, 32768, C]⟩ [0, 2] [1] [1] 1)
    (x : (⟨3, ![64, 512, C]⟩ : Shape).Idx → EReal) (idx : IVec ⟨2, ![32768, 1]⟩ w)
    (upd : (⟨3, ![64, 32768, C]⟩ : Shape).Idx → EReal) (dst : Fin 32768 → Fin 512)
    (hdst : ∀ e : Fin 32768, (idx (ix2 e (0 : Fin 1))).toInt = ((dst e).val : ℤ))
    (s : Fin 64) (n : Fin 512) (c : Fin C) :
    Ideal.hostScatterAdd (scatterDims C wf) x idx upd (ix3 s n c)
      = x (ix3 s n c) + ∑ e : Fin 32768, if dst e = n then upd (ix3 s e c) else 0 := by
  unfold Ideal.hostScatterAdd
  refine congrArg (fun z => x (ix3 s n c) + z) ?_
  rw [← Finset.sum_filter]
  have key : ∀ (s' : Fin 64) (e : Fin 32768) (c' : Fin C),
      (scatterDims C wf).resultIdx? (ix3 s' e c') idx = some (ix3 s n c) ↔ (s' = s ∧ dst e = n ∧ c' = c) := by
    intro s' e c'
    rw [scatter_lands wf idx s' e c' (dst e) (hdst e)]
    constructor
    · intro h
      have h' := Option.some.inj h
      exact ⟨congrFun h' 0, congrFun h' 1, congrFun h' 2⟩
    · rintro ⟨rfl, rfl, rfl⟩; rfl
  refine Finset.sum_nbij' (fun j => (j 1 : Fin 32768)) (fun e => ix3 s e c) ?_ ?_ ?_ ?_ ?_
  · intro j hj
    obtain ⟨s', e, c', rfl⟩ : ∃ (s' : Fin 64) (e : Fin 32768) (c' : Fin C), j = ix3 s' e c' := ⟨j 0, j 1, j 2, eq_ix3 j⟩
    exact Finset.mem_filter.2 ⟨Finset.mem_univ _, ((key s' e c').1 (Finset.mem_filter.1 hj).2).2.1⟩
  · intro e he
    exact Finset.mem_filter.2 ⟨Finset.mem_univ _, (key s e c).2 ⟨rfl, (Finset.mem_filter.1 he).2, rfl⟩⟩
  · intro j hj
    obtain ⟨s', e, c', rfl⟩ : ∃ (s' : Fin 64) (e : Fin 32768) (c' : Fin C), j = ix3 s' e c' := ⟨j 0, j 1, j 2, eq_ix3 j⟩
    obtain ⟨rfl, -, rfl⟩ := (key s' e c').1 (Finset.mem_filter.1 hj).2
    rfl
  · intro e _; rfl
  · intro j hj
    obtain ⟨s', e, c', rfl⟩ : ∃ (s' : Fin 64) (e : Fin 32768) (c' : Fin C), j = ix3 s' e c' := ⟨j 0, j 1, j 2, eq_ix3 j⟩
    obtain ⟨rfl, -, rfl⟩ := (key s' e c').1 (Finset.mem_filter.1 hj).2
    rfl

end Scatter

end Cert.RefRows

end
-- ==== Proof.RefLayer1.lean ====
/-
  LAYER 1 OF THE REFERENCE, read index by index: from the input features `h` (per sample a 512 × 50 array) the reference
  computes `h · W₀ + S · W₁ + b` followed by `max(·, 0)`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src1 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v39 (F := Ideal) x1 (ix2 e (0 : Fin 1))).toInt = ((src e).val : ℤ) := by
  have hi : idx_main_v0 (idx_main_v1 (idx_main_v39 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v39_apply, val_main_v38_apply, val_main_v35_apply, val_main_v37_apply, val_main_v34_apply, val_main_v36_apply, val_main_c_6_apply, val_main_c_7_apply,
    val_main_v1_apply, val_main_v0_apply, hi, RefRows.wrap_of_nonneg _ _ (hsrc e)]
  exact hsrc e

/-- The scatter's index of edge `e` is the edge's destination. -/
theorem dst1 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v45 (F := Ideal) x1 (ix2 e (0 : Fin 1))).toInt = ((dst e).val : ℤ) := by
  have hi : idx_main_v2 (idx_main_v3 (idx_main_v45 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v45_apply, val_main_v3_apply, val_main_v2_apply, hi]
  exact hdst e

/-- The gathered array: row `e` is row `src e` of the layer's input. -/
theorem gathered1 (x0 : (⟨S64x512x50, .f32⟩ : BufTy).Contents (Elt Ideal)) (x1 : (⟨S2x32768, .i32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 50) :
    val_main_v40 (F := Ideal) x0 x1 (ix3 s e c) = x0 (ix3 s (src e) c) := by
  unfold val_main_v40
  refine (RefRows.gather_rows_apply (C := 50) gather_S64x512x50_S32768x1_S64x32768x50_02_1_n_n_1_1_64150_wf x0 (val_main_v39 (F := Ideal) x1) s e c).trans ?_
  have hv := src1 x1 src hsrc e
  refine congrArg (fun r : Fin 512 => x0 (ix3 s r c)) (Fin.ext ?_)
  show min (val_main_v39 (F := Ideal) x1 (ix2 e (0 : Fin 1))).toInt.toNat 511 = (src e).val
  rw [hv, Int.toNat_natCast]
  have := (src e).isLt; omega

/-- The scaled rows: row `e` of the gathered array times the weight of edge `e`. -/
theorem scaled1 (x0 : (⟨S64x512x50, .f32⟩ : BufTy).Contents (Elt Ideal)) (x1 : (⟨S2x32768, .i32⟩ : BufTy).Contents (Elt Ideal)) (x2 : (⟨S32768, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 50) :
    val_main_v43 (F := Ideal) x0 x1 x2 (ix3 s e c) = val_main_v29 (F := Ideal) x1 x2 (ix1 e) * x0 (ix3 s (src e) c) := by
  have hi : idx_main_v33 (idx_main_v41 (idx_main_v42 (ix3 s e c))) = ix1 e := by
    funext a; match a with | ⟨0, _⟩ => rfl
  rw [val_main_v43_apply, val_main_v42_apply, val_main_v41_apply, val_main_v33_apply, hi, gathered1 x0 x1 src hsrc s e c]
  rfl

/-- The scattered array: row `n` is the sum of the scaled rows of the edges that end in `n`. -/
theorem scattered1 (x0 : (⟨S64x512x50, .f32⟩ : BufTy).Contents (Elt Ideal)) (x1 : (⟨S2x32768, .i32⟩ : BufTy).Contents (Elt Ideal)) (x2 : (⟨S32768, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 50) :
    val_main_v47 (F := Ideal) x0 x1 x2 (ix3 s n c)
      = ∑ e : Fin 32768, if dst e = n then val_main_v29 (F := Ideal) x1 x2 (ix1 e) * x0 (ix3 s (src e) c) else 0 := by
  unfold val_main_v47
  refine (RefRows.scatterAdd_rows_apply (C := 50) scatter_S64x512x50_S32768x1_S64x32768x50_02_1_1_1_wf (val_main_v46 (F := Ideal)) (val_main_v45 (F := Ideal) x1)
    (val_main_v43 (F := Ideal) x0 x1 x2) dst (dst1 x1 dst hdst) s n c).trans ?_
  rw [val_main_v46_apply, val_main_v44_apply, val_main_cst_8_apply]
  show Ideal.ofBits .f32 0x00000000#32 + _ = _
  rw [Ideal.ofBits_zero_f32, zero_add]
  refine Finset.sum_congr rfl fun e _ => ?_
  rw [scaled1 x0 x1 x2 src hsrc s e c]

/-- The first product: the input times `W₀`. -/
theorem dotA1 (x0 : (⟨S64x512x50, .f32⟩ : BufTy).Contents (Elt Ideal)) (x3 : (⟨S2x50x32, .f32⟩ : BufTy).Contents (Elt Ideal)) (s : Fin 64) (n : Fin 512) (f : Fin 32) :
    val_main_v32 (F := Ideal) x0 x3 (ix3 s n f) = ∑ k : Fin 50, x0 (ix3 s n k) * x3 (ix3 (0 : Fin 2) k f) := by
  rw [val_main_v32_apply]
  refine Finset.sum_congr rfl fun k _ => ?_
  have hl : lidx_main_v32 (ix3 s n f) k = ix3 s n k := by
    funext a; match a with | ⟨0, _⟩ => rfl | ⟨1, _⟩ => rfl | ⟨2, _⟩ => rfl
  have hr : idx_main_v30 (idx_main_v31 (ridx_main_v32 (ix3 s n f) k)) = ix3 (0 : Fin 2) k f := by
    funext a; refine Fin.ext ?_
    match a with
    | ⟨0, _⟩ => rfl
    | ⟨1, _⟩ => show (k.val * 32 + f.val) / 32 % 50 = k.val; have := k.isLt; have := f.isLt; omega
    | ⟨2, _⟩ => show (k.val * 32 + f.val) % 32 = f.val; have := k.isLt; have := f.isLt; omega
  rw [val_main_v31_apply, val_main_v30_apply, hl, hr]

/-- The second product: the scattered array times `W₁`. -/
theorem dotB1 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v50 (F := Ideal) x0 x1 x2 x3 (ix3 s n f)
      = ∑ k : Fin 50, (∑ e : Fin 32768, if dst e = n then val_main_v29 (F := Ideal) x1 x2 (ix1 e) * x0 (ix3 s (src e) k) else 0)
          * x3 (ix3 (1 : Fin 2) k f) := by
  rw [val_main_v50_apply]
  refine Finset.sum_congr rfl fun k _ => ?_
  have hl : lidx_main_v50 (ix3 s n f) k = ix3 s n k := by
    funext a; match a with | ⟨0, _⟩ => rfl | ⟨1, _⟩ => rfl | ⟨2, _⟩ => rfl
  have hr : idx_main_v48 (idx_main_v49 (ridx_main_v50 (ix3 s n f) k)) = ix3 (1 : Fin 2) k f := by
    funext a; refine Fin.ext ?_
    match a with
    | ⟨0, _⟩ => rfl
    | ⟨1, _⟩ => show (k.val * 32 + f.val) / 32 % 50 = k.val; have := k.isLt; have := f.isLt; omega
    | ⟨2, _⟩ => show (k.val * 32 + f.val) % 32 = f.val; have := k.isLt; have := f.isLt; omega
  rw [val_main_v49_apply, val_main_v48_apply, hl, hr, scattered1 x0 x1 x2 src dst hsrc hdst s n k]

/-- LAYER 1 on sample `s`: the reference's array is `max(h · W₀ + P(h) · W₁ + b, 0)` with `P` the propagation edge by edge. -/
theorem layer1 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v55 (F := Ideal) x0 x1 x2 x3 x4 (ix3 s n f))
      = Cert.Cheb.relu (Cert.Cheb.cheb (Cert.Cheb.propS src dst (fun e => val_main_v29 (F := Ideal) x1 x2 (ix1 e)))
          (fun k c f => x3 (ix3 k c f)) (fun f => x4 (ix1 f)) (fun n c => x0 (ix3 s n c))) := by
  funext n f
  have hb : idx_main_v52 (idx_main_v53 (ix3 s n f)) = ix1 f := by
    funext a; match a with | ⟨0, _⟩ => rfl
  rw [val_main_v55_apply, val_main_call2_v0_apply, val_main_call2_cst_apply, val_main_v54_apply, val_main_v51_apply, val_main_v53_apply, val_main_v52_apply, hb,
    dotA1 x0 x3 s n f, dotB1 x0 x1 x2 x3 src dst hsrc hdst s n f]
  show max (_ + _ + _) (Ideal.ofBits .f32 0x00000000#32) = _
  rw [Ideal.ofBits_zero_f32]
  rfl

end Cert.RefNet

end
-- ==== Proof.RefLayer2.lean ====
/-
  LAYER 2 OF THE REFERENCE, read index by index: from the features leaving layer 1 `h` (per sample a 512 × 32 array) the reference
  computes `h · W₀ + S · W₁ + b` followed by `max(·, 0)`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src2 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v65 (F := Ideal) x1 (ix2 e (0 : Fin 1))).toInt = ((src e).val : ℤ) := by
  have hi : idx_main_v0 (idx_main_v1 (idx_main_v65 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v65_apply, val_main_v64_apply, val_main_v61_apply, val_main_v63_apply, val_main_v60_apply, val_main_v62_apply, val_main_c_9_apply, val_main_c_10_apply,
    val_main_v1_apply, val_main_v0_apply, hi, RefRows.wrap_of_nonneg _ _ (hsrc e)]
  exact hsrc e

/-- The scatter's index of edge `e` is the edge's destination. -/
theorem dst2 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v71 (F := Ideal) x1 (ix2 e (0 : Fin 1))).toInt = ((dst e).val : ℤ) := by
  have hi : idx_main_v2 (idx_main_v3 (idx_main_v71 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v71_apply, val_main_v3_apply, val_main_v2_apply, hi]
  exact hdst e

/-- The gathered array: row `e` is row `src e` of the layer's input. -/
theorem gathered2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v66 (F := Ideal) x0 x1 x2 x3 x4 (ix3 s e c) = (val_main_v55 (F := Ideal) x0 x1 x2 x3 x4) (ix3 s (src e) c) := by
  unfold val_main_v66
  refine (RefRows.gather_rows_apply (C := 32) gather_S64x512x32_S32768x1_S64x32768x32_02_1_n_n_1_1_64132_wf (val_main_v55 (F := Ideal) x0 x1 x2 x3 x4) (val_main_v65 (F := Ideal) x1) s e c).trans ?_
  have hv := src2 x1 src hsrc e
  refine congrArg (fun r : Fin 512 => (val_main_v55 (F := Ideal) x0 x1 x2 x3 x4) (ix3 s r c)) (Fin.ext ?_)
  show min (val_main_v65 (F := Ideal) x1 (ix2 e (0 : Fin 1))).toInt.toNat 511 = (src e).val
  rw [hv, Int.toNat_natCast]
  have := (src e).isLt; omega

/-- The scaled rows: row `e` of the gathered array times the weight of edge `e`. -/
theorem scaled2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v69 (F := Ideal) x0 x1 x2 x3 x4 (ix3 s e c) = val_main_v29 (F := Ideal) x1 x2 (ix1 e) * (val_main_v55 (F := Ideal) x0 x1 x2 x3 x4) (ix3 s (src e) c) := by
  have hi : idx_main_v59 (idx_main_v67 (idx_main_v68 (ix3 s e c))) = ix1 e := by
    funext a; match a with | ⟨0, _⟩ => rfl
  rw [val_main_v69_apply, val_main_v68_apply, val_main_v67_apply, val_main_v59_apply, hi, gathered2 x0 x1 x2 x3 x4 src hsrc s e c]
  rfl

/-- The scattered array: row `n` is the sum of the scaled rows of the edges that end in `n`. -/
theorem scattered2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 32) :
    val_main_v73 (F := Ideal) x0 x1 x2 x3 x4 (ix3 s n c)
      = ∑ e : Fin 32768, if dst e = n then val_main_v29 (F := Ideal) x1 x2 (ix1 e) * (val_main_v55 (F := Ideal) x0 x1 x2 x3 x4) (ix3 s (src e) c) else 0 := by
  unfold val_main_v73
  refine (RefRows.scatterAdd_rows_apply (C := 32) scatter_S64x512x32_S32768x1_S64x32768x32_02_1_1_1_wf (val_main_v72 (F := Ideal)) (val_main_v71 (F := Ideal) x1)
    (val_main_v69 (F := Ideal) x0 x1 x2 x3 x4) dst (dst2 x1 dst hdst) s n c).trans ?_
  rw [val_main_v72_apply, val_main_v70_apply, val_main_cst_11_apply]
  show Ideal.ofBits .f32 0x00000000#32 + _ = _
  rw [Ideal.ofBits_zero_f32, zero_add]
  refine Finset.sum_congr rfl fun e _ => ?_
  rw [scaled2 x0 x1 x2 x3 x4 src hsrc s e c]

/-- The first product: the input times `W₀`. -/
theorem dotA2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (s : Fin 64) (n : Fin 512) (f : Fin 32) :
    val_main_v58 (F := Ideal) x0 x1 x2 x3 x4 x5 (ix3 s n f) = ∑ k : Fin 32, (val_main_v55 (F := Ideal) x0 x1 x2 x3 x4) (ix3 s n k) * x5 (ix3 (0 : Fin 2) k f) := by
  rw [val_main_v58_apply]
  refine Finset.sum_congr rfl fun k _ => ?_
  have hl : lidx_main_v58 (ix3 s n f) k = ix3 s n k := by
    funext a; match a with | ⟨0, _⟩ => rfl | ⟨1, _⟩ => rfl | ⟨2, _⟩ => rfl
  have hr : idx_main_v56 (idx_main_v57 (ridx_main_v58 (ix3 s n f) k)) = ix3 (0 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v57_apply, val_main_v56_apply, hl, hr]

/-- The second product: the scattered array times `W₁`. -/
theorem dotB2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v76 (F := Ideal) x0 x1 x2 x3 x4 x5 (ix3 s n f)
      = ∑ k : Fin 32, (∑ e : Fin 32768, if dst e = n then val_main_v29 (F := Ideal) x1 x2 (ix1 e) * (val_main_v55 (F := Ideal) x0 x1 x2 x3 x4) (ix3 s (src e) k) else 0)
          * x5 (ix3 (1 : Fin 2) k f) := by
  rw [val_main_v76_apply]
  refine Finset.sum_congr rfl fun k _ => ?_
  have hl : lidx_main_v76 (ix3 s n f) k = ix3 s n k := by
    funext a; match a with | ⟨0, _⟩ => rfl | ⟨1, _⟩ => rfl | ⟨2, _⟩ => rfl
  have hr : idx_main_v74 (idx_main_v75 (ridx_main_v76 (ix3 s n f) k)) = ix3 (1 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v75_apply, val_main_v74_apply, hl, hr, scattered2 x0 x1 x2 x3 x4 src dst hsrc hdst s n k]

/-- LAYER 2 on sample `s`: the reference's array is `max(h · W₀ + P(h) · W₁ + b, 0)` with `P` the propagation edge by edge. -/
theorem layer2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v81 (F := Ideal) x0 x1 x2 x3 x4 x5 x6 (ix3 s n f))
      = Cert.Cheb.relu (Cert.Cheb.cheb (Cert.Cheb.propS src dst (fun e => val_main_v29 (F := Ideal) x1 x2 (ix1 e)))
          (fun k c f => x5 (ix3 k c f)) (fun f => x6 (ix1 f)) (fun n c => (val_main_v55 (F := Ideal) x0 x1 x2 x3 x4) (ix3 s n c))) := by
  funext n f
  have hb : idx_main_v78 (idx_main_v79 (ix3 s n f)) = ix1 f := by
    funext a; match a with | ⟨0, _⟩ => rfl
  rw [val_main_v81_apply, val_main_call3_v0_apply, val_main_call3_cst_apply, val_main_v80_apply, val_main_v77_apply, val_main_v79_apply, val_main_v78_apply, hb,
    dotA2 x0 x1 x2 x3 x4 x5 s n f, dotB2 x0 x1 x2 x3 x4 x5 src dst hsrc hdst s n f]
  show max (_ + _ + _) (Ideal.ofBits .f32 0x00000000#32) = _
  rw [Ideal.ofBits_zero_f32]
  rfl

end Cert.RefNet

end
-- ==== Proof.RefLayer3.lean ====
/-
  LAYER 3 OF THE REFERENCE, read index by index: from the features leaving layer 2 `h` (per sample a 512 × 32 array) the reference
  computes `h · W₀ + S · W₁ + b` followed by `max(·, 0)`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src3 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v91 (F := Ideal) x1 (ix2 e (0 : Fin 1))).toInt = ((src e).val : ℤ) := by
  have hi : idx_main_v0 (idx_main_v1 (idx_main_v91 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v91_apply, val_main_v90_apply, val_main_v87_apply, val_main_v89_apply, val_main_v86_apply, val_main_v88_apply, val_main_c_12_apply, val_main_c_13_apply,
    val_main_v1_apply, val_main_v0_apply, hi, RefRows.wrap_of_nonneg _ _ (hsrc e)]
  exact hsrc e

/-- The scatter's index of edge `e` is the edge's destination. -/
theorem dst3 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v97 (F := Ideal) x1 (ix2 e (0 : Fin 1))).toInt = ((dst e).val : ℤ) := by
  have hi : idx_main_v2 (idx_main_v3 (idx_main_v97 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v97_apply, val_main_v3_apply, val_main_v2_apply, hi]
  exact hdst e

/-- The gathered array: row `e` is row `src e` of the layer's input. -/
theorem gathered3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v92 (F := Ideal) x0 x1 x2 x3 x4 x5 x6 (ix3 s e c) = (val_main_v81 (F := Ideal) x0 x1 x2 x3 x4 x5 x6) (ix3 s (src e) c) := by
  unfold val_main_v92
  refine (RefRows.gather_rows_apply (C := 32) gather_S64x512x32_S32768x1_S64x32768x32_02_1_n_n_1_1_64132_wf (val_main_v81 (F := Ideal) x0 x1 x2 x3 x4 x5 x6) (val_main_v91 (F := Ideal) x1) s e c).trans ?_
  have hv := src3 x1 src hsrc e
  refine congrArg (fun r : Fin 512 => (val_main_v81 (F := Ideal) x0 x1 x2 x3 x4 x5 x6) (ix3 s r c)) (Fin.ext ?_)
  show min (val_main_v91 (F := Ideal) x1 (ix2 e (0 : Fin 1))).toInt.toNat 511 = (src e).val
  rw [hv, Int.toNat_natCast]
  have := (src e).isLt; omega

/-- The scaled rows: row `e` of the gathered array times the weight of edge `e`. -/
theorem scaled3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v95 (F := Ideal) x0 x1 x2 x3 x4 x5 x6 (ix3 s e c) = val_main_v29 (F := Ideal) x1 x2 (ix1 e) * (val_main_v81 (F := Ideal) x0 x1 x2 x3 x4 x5 x6) (ix3 s (src e) c) := by
  have hi : idx_main_v85 (idx_main_v93 (idx_main_v94 (ix3 s e c))) = ix1 e := by
    funext a; match a with | ⟨0, _⟩ => rfl
  rw [val_main_v95_apply, val_main_v94_apply, val_main_v93_apply, val_main_v85_apply, hi, gathered3 x0 x1 x2 x3 x4 x5 x6 src hsrc s e c]
  rfl

/-- The scattered array: row `n` is the sum of the scaled rows of the edges that end in `n`. -/
theorem scattered3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 32) :
    val_main_v99 (F := Ideal) x0 x1 x2 x3 x4 x5 x6 (ix3 s n c)
      = ∑ e : Fin 32768, if dst e = n then val_main_v29 (F := Ideal) x1 x2 (ix1 e) * (val_main_v81 (F := Ideal) x0 x1 x2 x3 x4 x5 x6) (ix3 s (src e) c) else 0 := by
  unfold val_main_v99
  refine (RefRows.scatterAdd_rows_apply (C := 32) scatter_S64x512x32_S32768x1_S64x32768x32_02_1_1_1_wf (val_main_v98 (F := Ideal)) (val_main_v97 (F := Ideal) x1)
    (val_main_v95 (F := Ideal) x0 x1 x2 x3 x4 x5 x6) dst (dst3 x1 dst hdst) s n c).trans ?_
  rw [val_main_v98_apply, val_main_v96_apply, val_main_cst_14_apply]
  show Ideal.ofBits .f32 0x00000000#32 + _ = _
  rw [Ideal.ofBits_zero_f32, zero_add]
  refine Finset.sum_congr rfl fun e _ => ?_
  rw [scaled3 x0 x1 x2 x3 x4 x5 x6 src hsrc s e c]

/-- The first product: the input times `W₀`. -/
theorem dotA3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (s : Fin 64) (n : Fin 512) (f : Fin 32) :
    val_main_v84 (F := Ideal) x0 x1 x2 x3 x4 x5 x6 x7 (ix3 s n f) = ∑ k : Fin 32, (val_main_v81 (F := Ideal) x0 x1 x2 x3 x4 x5 x6) (ix3 s n k) * x7 (ix3 (0 : Fin 2) k f) := by
  rw [val_main_v84_apply]
  refine Finset.sum_congr rfl fun k _ => ?_
  have hl : lidx_main_v84 (ix3 s n f) k = ix3 s n k := by
    funext a; match a with | ⟨0, _⟩ => rfl | ⟨1, _⟩ => rfl | ⟨2, _⟩ => rfl
  have hr : idx_main_v82 (idx_main_v83 (ridx_main_v84 (ix3 s n f) k)) = ix3 (0 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v83_apply, val_main_v82_apply, hl, hr]

/-- The second product: the scattered array times `W₁`. -/
theorem dotB3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v102 (F := Ideal) x0 x1 x2 x3 x4 x5 x6 x7 (ix3 s n f)
      = ∑ k : Fin 32, (∑ e : Fin 32768, if dst e = n then val_main_v29 (F := Ideal) x1 x2 (ix1 e) * (val_main_v81 (F := Ideal) x0 x1 x2 x3 x4 x5 x6) (ix3 s (src e) k) else 0)
          * x7 (ix3 (1 : Fin 2) k f) := by
  rw [val_main_v102_apply]
  refine Finset.sum_congr rfl fun k _ => ?_
  have hl : lidx_main_v102 (ix3 s n f) k = ix3 s n k := by
    funext a; match a with | ⟨0, _⟩ => rfl | ⟨1, _⟩ => rfl | ⟨2, _⟩ => rfl
  have hr : idx_main_v100 (idx_main_v101 (ridx_main_v102 (ix3 s n f) k)) = ix3 (1 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v101_apply, val_main_v100_apply, hl, hr, scattered3 x0 x1 x2 x3 x4 x5 x6 src dst hsrc hdst s n k]

/-- LAYER 3 on sample `s`: the reference's array is `max(h · W₀ + P(h) · W₁ + b, 0)` with `P` the propagation edge by edge. -/
theorem layer3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v107 (F := Ideal) x0 x1 x2 x3 x4 x5 x6 x7 x8 (ix3 s n f))
      = Cert.Cheb.relu (Cert.Cheb.cheb (Cert.Cheb.propS src dst (fun e => val_main_v29 (F := Ideal) x1 x2 (ix1 e)))
          (fun k c f => x7 (ix3 k c f)) (fun f => x8 (ix1 f)) (fun n c => (val_main_v81 (F := Ideal) x0 x1 x2 x3 x4 x5 x6) (ix3 s n c))) := by
  funext n f
  have hb : idx_main_v104 (idx_main_v105 (ix3 s n f)) = ix1 f := by
    funext a; match a with | ⟨0, _⟩ => rfl
  rw [val_main_v107_apply, val_main_call4_v0_apply, val_main_call4_cst_apply, val_main_v106_apply, val_main_v103_apply, val_main_v105_apply, val_main_v104_apply, hb,
    dotA3 x0 x1 x2 x3 x4 x5 x6 x7 s n f, dotB3 x0 x1 x2 x3 x4 x5 x6 x7 src dst hsrc hdst s n f]
  show max (_ + _ + _) (Ideal.ofBits .f32 0x00000000#32) = _
  rw [Ideal.ofBits_zero_f32]
  rfl

end Cert.RefNet

end
-- ==== Proof.RefLayer4.lean ====
/-
  LAYER 4 OF THE REFERENCE, read index by index: from the features leaving layer 3 `h` (per sample a 512 × 32 array) the reference
  computes `h · W₀ + S · W₁ + b` followed by `max(·, 0)`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src4 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v117 (F := Ideal) x1 (ix2 e (0 : Fin 1))).toInt = ((src e).val : ℤ) := by
  have hi : idx_main_v0 (idx_main_v1 (idx_main_v117 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v117_apply, val_main_v116_apply, val_main_v113_apply, val_main_v115_apply, val_main_v112_apply, val_main_v114_apply, val_main_c_15_apply, val_main_c_16_apply,
    val_main_v1_apply, val_main_v0_apply, hi, RefRows.wrap_of_nonneg _ _ (hsrc e)]
  exact hsrc e

/-- The scatter's index of edge `e` is the edge's destination. -/
theorem dst4 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v123 (F := Ideal) x1 (ix2 e (0 : Fin 1))).toInt = ((dst e).val : ℤ) := by
  have hi : idx_main_v2 (idx_main_v3 (idx_main_v123 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v123_apply, val_main_v3_apply, val_main_v2_apply, hi]
  exact hdst e

/-- The gathered array: row `e` is row `src e` of the layer's input. -/
theorem gathered4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v118 (F := Ideal) x0 x1 x2 x3 x4 x5 x6 x7 x8 (ix3 s e c) = (val_main_v107 (F := Ideal) x0 x1 x2 x3 x4 x5 x6 x7 x8) (ix3 s (src e) c) := by
  unfold val_main_v118
  refine (RefRows.gather_rows_apply (C := 32) gather_S64x512x32_S32768x1_S64x32768x32_02_1_n_n_1_1_64132_wf (val_main_v107 (F := Ideal) x0 x1 x2 x3 x4 x5 x6 x7 x8) (val_main_v117 (F := Ideal) x1) s e c).trans ?_
  have hv := src4 x1 src hsrc e
  refine congrArg (fun r : Fin 512 => (val_main_v107 (F := Ideal) x0 x1 x2 x3 x4 x5 x6 x7 x8) (ix3 s r c)) (Fin.ext ?_)
  show min (val_main_v117 (F := Ideal) x1 (ix2 e (0 : Fin 1))).toInt.toNat 511 = (src e).val
  rw [hv, Int.toNat_natCast]
  have := (src e).isLt; omega

/-- The scaled rows: row `e` of the gathered array times the weight of edge `e`. -/
theorem scaled4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v121 (F := Ideal) x0 x1 x2 x3 x4 x5 x6 x7 x8 (ix3 s e c) = val_main_v29 (F := Ideal) x1 x2 (ix1 e) * (val_main_v107 (F := Ideal) x0 x1 x2 x3 x4 x5 x6 x7 x8) (ix3 s (src e) c) := by
  have hi : idx_main_v111 (idx_main_v119 (idx_main_v120 (ix3 s e c))) = ix1 e := by
    funext a; match a with | ⟨0, _⟩ => rfl
  rw [val_main_v121_apply, val_main_v120_apply, val_main_v119_apply, val_main_v111_apply, hi, gathered4 x0 x1 x2 x3 x4 x5 x6 x7 x8 src hsrc s e c]
  rfl

/-- The scattered array: row `n` is the sum of the scaled rows of the edges that end in `n`. -/
theorem scattered4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 32) :
    val_main_v125 (F := Ideal) x0 x1 x2 x3 x4 x5 x6 x7 x8 (ix3 s n c)
      = ∑ e : Fin 32768, if dst e = n then val_main_v29 (F := Ideal) x1 x2 (ix1 e) * (val_main_v107 (F := Ideal) x0 x1 x2 x3 x4 x5 x6 x7 x8) (ix3 s (src e) c) else 0 := by
  unfold val_main_v125
  refine (RefRows.scatterAdd_rows_apply (C := 32) scatter_S64x512x32_S32768x1_S64x32768x32_02_1_1_1_wf (val_main_v124 (F := Ideal)) (val_main_v123 (F := Ideal) x1)
    (val_main_v121 (F := Ideal) x0 x1 x2 x3 x4 x5 x6 x7 x8) dst (dst4 x1 dst hdst) s n c).trans ?_
  rw [val_main_v124_apply, val_main_v122_apply, val_main_cst_17_apply]
  show Ideal.ofBits .f32 0x00000000#32 + _ = _
  rw [Ideal.ofBits_zero_f32, zero_add]
  refine Finset.sum_congr rfl fun e _ => ?_
  rw [scaled4 x0 x1 x2 x3 x4 x5 x6 x7 x8 src hsrc s e c]

/-- The first product: the input times `W₀`. -/
theorem dotA4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (s : Fin 64) (n : Fin 512) (f : Fin 32) :
    val_main_v110 (F := Ideal) x0 x1 x2 x3 x4 x5 x6 x7 x8 x9 (ix3 s n f) = ∑ k : Fin 32, (val_main_v107 (F := Ideal) x0 x1 x2 x3 x4 x5 x6 x7 x8) (ix3 s n k) * x9 (ix3 (0 : Fin 2) k f) := by
  rw [val_main_v110_apply]
  refine Finset.sum_congr rfl fun k _ => ?_
  have hl : lidx_main_v110 (ix3 s n f) k = ix3 s n k := by
    funext a; match a with | ⟨0, _⟩ => rfl | ⟨1, _⟩ => rfl | ⟨2, _⟩ => rfl
  have hr : idx_main_v108 (idx_main_v109 (ridx_main_v110 (ix3 s n f) k)) = ix3 (0 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v109_apply, val_main_v108_apply, hl, hr]

/-- The second product: the scattered array times `W₁`. -/
theorem dotB4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v128 (F := Ideal) x0 x1 x2 x3 x4 x5 x6 x7 x8 x9 (ix3 s n f)
      = ∑ k : Fin 32, (∑ e : Fin 32768, if dst e = n then val_main_v29 (F := Ideal) x1 x2 (ix1 e) * (val_main_v107 (F := Ideal) x0 x1 x2 x3 x4 x5 x6 x7 x8) (ix3 s (src e) k) else 0)
          * x9 (ix3 (1 : Fin 2) k f) := by
  rw [val_main_v128_apply]
  refine Finset.sum_congr rfl fun k _ => ?_
  have hl : lidx_main_v128 (ix3 s n f) k = ix3 s n k := by
    funext a; match a with | ⟨0, _⟩ => rfl | ⟨1, _⟩ => rfl | ⟨2, _⟩ => rfl
  have hr : idx_main_v126 (idx_main_v127 (ridx_main_v128 (ix3 s n f) k)) = ix3 (1 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v127_apply, val_main_v126_apply, hl, hr, scattered4 x0 x1 x2 x3 x4 x5 x6 x7 x8 src dst hsrc hdst s n k]

/-- LAYER 4 on sample `s`: the reference's array is `max(h · W₀ + P(h) · W₁ + b, 0)` with `P` the propagation edge by edge. -/
theorem layer4 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v133 (F := Ideal) x0 x1 x2 x3 x4 x5 x6 x7 x8 x9 x10 (ix3 s n f))
      = Cert.Cheb.relu (Cert.Cheb.cheb (Cert.Cheb.propS src dst (fun e => val_main_v29 (F := Ideal) x1 x2 (ix1 e)))
          (fun k c f => x9 (ix3 k c f)) (fun f => x10 (ix1 f)) (fun n c => (val_main_v107 (F := Ideal) x0 x1 x2 x3 x4 x5 x6 x7 x8) (ix3 s n c))) := by
  funext n f
  have hb : idx_main_v130 (idx_main_v131 (ix3 s n f)) = ix1 f := by
    funext a; match a with | ⟨0, _⟩ => rfl
  rw [val_main_v133_apply, val_main_call5_v0_apply, val_main_call5_cst_apply, val_main_v132_apply, val_main_v129_apply, val_main_v131_apply, val_main_v130_apply, hb,
    dotA4 x0 x1 x2 x3 x4 x5 x6 x7 x8 x9 s n f, dotB4 x0 x1 x2 x3 x4 x5 x6 x7 x8 x9 src dst hsrc hdst s n f]
  show max (_ + _ + _) (Ideal.ofBits .f32 0x00000000#32) = _
  rw [Ideal.ofBits_zero_f32]
  rfl

end Cert.RefNet

end
-- ==== Proof.RefLayer5.lean ====
/-
  LAYER 5 OF THE REFERENCE, read index by index: from the features leaving layer 4 `h` (per sample a 512 × 32 array) the reference
  computes `h · W₀ + S · W₁ + b` followed by `max(·, 0)`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src5 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v143 (F := Ideal) x1 (ix2 e (0 : Fin 1))).toInt = ((src e).val : ℤ) := by
  have hi : idx_main_v0 (idx_main_v1 (idx_main_v143 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v143_apply, val_main_v142_apply, val_main_v139_apply, val_main_v141_apply, val_main_v138_apply, val_main_v140_apply, val_main_c_18_apply, val_main_c_19_apply,
    val_main_v1_apply, val_main_v0_apply, hi, RefRows.wrap_of_nonneg _ _ (hsrc e)]
  exact hsrc e

/-- The scatter's index of edge `e` is the edge's destination. -/
theorem dst5 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v149 (F := Ideal) x1 (ix2 e (0 : Fin 1))).toInt = ((dst e).val : ℤ) := by
  have hi : idx_main_v2 (idx_main_v3 (idx_main_v149 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v149_apply, val_main_v3_apply, val_main_v2_apply, hi]
  exact hdst e

/-- The gathered array: row `e` is row `src e` of the layer's input. -/
theorem gathered5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v144 (F := Ideal) x0 x1 x2 x3 x4 x5 x6 x7 x8 x9 x10 (ix3 s e c) = (val_main_v133 (F := Ideal) x0 x1 x2 x3 x4 x5 x6 x7 x8 x9 x10) (ix3 s (src e) c) := by
  unfold val_main_v144
  refine (RefRows.gather_rows_apply (C := 32) gather_S64x512x32_S32768x1_S64x32768x32_02_1_n_n_1_1_64132_wf (val_main_v133 (F := Ideal) x0 x1 x2 x3 x4 x5 x6 x7 x8 x9 x10) (val_main_v143 (F := Ideal) x1) s e c).trans ?_
  have hv := src5 x1 src hsrc e
  refine congrArg (fun r : Fin 512 => (val_main_v133 (F := Ideal) x0 x1 x2 x3 x4 x5 x6 x7 x8 x9 x10) (ix3 s r c)) (Fin.ext ?_)
  show min (val_main_v143 (F := Ideal) x1 (ix2 e (0 : Fin 1))).toInt.toNat 511 = (src e).val
  rw [hv, Int.toNat_natCast]
  have := (src e).isLt; omega

/-- The scaled rows: row `e` of the gathered array times the weight of edge `e`. -/
theorem scaled5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v147 (F := Ideal) x0 x1 x2 x3 x4 x5 x6 x7 x8 x9 x10 (ix3 s e c) = val_main_v29 (F := Ideal) x1 x2 (ix1 e) * (val_main_v133 (F := Ideal) x0 x1 x2 x3 x4 x5 x6 x7 x8 x9 x10) (ix3 s (src e) c) := by
  have hi : idx_main_v137 (idx_main_v145 (idx_main_v146 (ix3 s e c))) = ix1 e := by
    funext a; match a with | ⟨0, _⟩ => rfl
  rw [val_main_v147_apply, val_main_v146_apply, val_main_v145_apply, val_main_v137_apply, hi, gathered5 x0 x1 x2 x3 x4 x5 x6 x7 x8 x9 x10 src hsrc s e c]
  rfl

/-- The scattered array: row `n` is the sum of the scaled rows of the edges that end in `n`. -/
theorem scattered5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 32) :
    val_main_v151 (F := Ideal) x0 x1 x2 x3 x4 x5 x6 x7 x8 x9 x10 (ix3 s n c)
      = ∑ e : Fin 32768, if dst e = n then val_main_v29 (F := Ideal) x1 x2 (ix1 e) * (val_main_v133 (F := Ideal) x0 x1 x2 x3 x4 x5 x6 x7 x8 x9 x10) (ix3 s (src e) c) else 0 := by
  unfold val_main_v151
  refine (RefRows.scatterAdd_rows_apply (C := 32) scatter_S64x512x32_S32768x1_S64x32768x32_02_1_1_1_wf (val_main_v150 (F := Ideal)) (val_main_v149 (F := Ideal) x1)
    (val_main_v147 (F := Ideal) x0 x1 x2 x3 x4 x5 x6 x7 x8 x9 x10) dst (dst5 x1 dst hdst) s n c).trans ?_
  rw [val_main_v150_apply, val_main_v148_apply, val_main_cst_20_apply]
  show Ideal.ofBits .f32 0x00000000#32 + _ = _
  rw [Ideal.ofBits_zero_f32, zero_add]
  refine Finset.sum_congr rfl fun e _ => ?_
  rw [scaled5 x0 x1 x2 x3 x4 x5 x6 x7 x8 x9 x10 src hsrc s e c]

/-- The first product: the input times `W₀`. -/
theorem dotA5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (s : Fin 64) (n : Fin 512) (f : Fin 32) :
    val_main_v136 (F := Ideal) x0 x1 x2 x3 x4 x5 x6 x7 x8 x9 x10 x11 (ix3 s n f) = ∑ k : Fin 32, (val_main_v133 (F := Ideal) x0 x1 x2 x3 x4 x5 x6 x7 x8 x9 x10) (ix3 s n k) * x11 (ix3 (0 : Fin 2) k f) := by
  rw [val_main_v136_apply]
  refine Finset.sum_congr rfl fun k _ => ?_
  have hl : lidx_main_v136 (ix3 s n f) k = ix3 s n k := by
    funext a; match a with | ⟨0, _⟩ => rfl | ⟨1, _⟩ => rfl | ⟨2, _⟩ => rfl
  have hr : idx_main_v134 (idx_main_v135 (ridx_main_v136 (ix3 s n f) k)) = ix3 (0 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v135_apply, val_main_v134_apply, hl, hr]

/-- The second product: the scattered array times `W₁`. -/
theorem dotB5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v154 (F := Ideal) x0 x1 x2 x3 x4 x5 x6 x7 x8 x9 x10 x11 (ix3 s n f)
      = ∑ k : Fin 32, (∑ e : Fin 32768, if dst e = n then val_main_v29 (F := Ideal) x1 x2 (ix1 e) * (val_main_v133 (F := Ideal) x0 x1 x2 x3 x4 x5 x6 x7 x8 x9 x10) (ix3 s (src e) k) else 0)
          * x11 (ix3 (1 : Fin 2) k f) := by
  rw [val_main_v154_apply]
  refine Finset.sum_congr rfl fun k _ => ?_
  have hl : lidx_main_v154 (ix3 s n f) k = ix3 s n k := by
    funext a; match a with | ⟨0, _⟩ => rfl | ⟨1, _⟩ => rfl | ⟨2, _⟩ => rfl
  have hr : idx_main_v152 (idx_main_v153 (ridx_main_v154 (ix3 s n f) k)) = ix3 (1 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v153_apply, val_main_v152_apply, hl, hr, scattered5 x0 x1 x2 x3 x4 x5 x6 x7 x8 x9 x10 src dst hsrc hdst s n k]

/-- LAYER 5 on sample `s`: the reference's array is `max(h · W₀ + P(h) · W₁ + b, 0)` with `P` the propagation edge by edge. -/
theorem layer5 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v159 (F := Ideal) x0 x1 x2 x3 x4 x5 x6 x7 x8 x9 x10 x11 x12 (ix3 s n f))
      = Cert.Cheb.relu (Cert.Cheb.cheb (Cert.Cheb.propS src dst (fun e => val_main_v29 (F := Ideal) x1 x2 (ix1 e)))
          (fun k c f => x11 (ix3 k c f)) (fun f => x12 (ix1 f)) (fun n c => (val_main_v133 (F := Ideal) x0 x1 x2 x3 x4 x5 x6 x7 x8 x9 x10) (ix3 s n c))) := by
  funext n f
  have hb : idx_main_v156 (idx_main_v157 (ix3 s n f)) = ix1 f := by
    funext a; match a with | ⟨0, _⟩ => rfl
  rw [val_main_v159_apply, val_main_call6_v0_apply, val_main_call6_cst_apply, val_main_v158_apply, val_main_v155_apply, val_main_v157_apply, val_main_v156_apply, hb,
    dotA5 x0 x1 x2 x3 x4 x5 x6 x7 x8 x9 x10 x11 s n f, dotB5 x0 x1 x2 x3 x4 x5 x6 x7 x8 x9 x10 x11 src dst hsrc hdst s n f]
  show max (_ + _ + _) (Ideal.ofBits .f32 0x00000000#32) = _
  rw [Ideal.ofBits_zero_f32]
  rfl

end Cert.RefNet

end
-- ==== Proof.RefLayer6.lean ====
/-
  LAYER 6 OF THE REFERENCE, read index by index: from the features leaving layer 5 `h` (per sample a 512 × 32 array) the reference
  computes `h · W₀ + S · W₁ + b`, where row `n` of `S` is the sum over the edges `e` ending in `n` of the edge weight
  times row `src e` of `h`: the rows are gathered along the edge list, scaled, and scatter-added to their destinations.
-/
import proofs.«154162_j16277926052608_1_alg».proof.Proof.RefRead
import proofs.«154162_j16277926052608_1_alg».proof.Proof.Net
import proofs.«154162_j16277926052608_1_alg».proof.Proof.RefRows

noncomputable section

open scoped BigOperators

namespace Cert.RefNet

open Cert.ReferenceIdeal Cert.ReferenceIdeal.Gen Cert.ReferenceIdeal.Read Idealize.ShloMosaic Idealize.ShloMosaic.ValueIdx

/-- The gather's start index of edge `e` is the edge's source: the wrap of a negative index does nothing to a node. -/
theorem src6 (x1 : (⟨S2x32768, .i32⟩ : BufTy).Contents (Elt Ideal)) (src : Fin 32768 → Fin 512)
    (hsrc : ∀ e : Fin 32768, (x1 (ix2 (0 : Fin 2) e)).toInt = ((src e).val : ℤ)) (e : Fin 32768) :
    (val_main_v169 (F := Ideal) x1 (ix2 e (0 : Fin 1))).toInt = ((src e).val : ℤ) := by
  have hi : idx_main_v0 (idx_main_v1 (idx_main_v169 (ix2 e (0 : Fin 1)))) = ix2 (0 : Fin 2) e := by
    funext a; refine Fin.ext ?_
    match a with
    | ⟨0, _⟩ => rfl
    | ⟨1, _⟩ => show e.val % 32768 = e.val; have := e.isLt; omega
  rw [val_main_v169_apply, val_main_v168_apply, val_main_v165_apply, val_main_v167_apply, val_main_v164_apply, val_main_v166_apply, val_main_c_21_apply, val_main_c_22_apply,
    val_main_v1_apply, val_main_v0_apply, hi, RefRows.wrap_of_nonneg _ _ (hsrc e)]
  exact hsrc e

/-- The scatter's index of edge `e` is the edge's destination. -/
theorem dst6 (x1 : (⟨S2x32768, .i32⟩ : BufTy).Contents (Elt Ideal)) (dst : Fin 32768 → Fin 512)
    (hdst : ∀ e : Fin 32768, (x1 (ix2 (1 : Fin 2) e)).toInt = ((dst e).val : ℤ)) (e : Fin 32768) :
    (val_main_v175 (F := Ideal) x1 (ix2 e (0 : Fin 1))).toInt = ((dst e).val : ℤ) := by
  have hi : idx_main_v2 (idx_main_v3 (idx_main_v175 (ix2 e (0 : Fin 1)))) = ix2 (1 : Fin 2) e := by
    funext a; refine Fin.ext ?_
    match a with
    | ⟨0, _⟩ => rfl
    | ⟨1, _⟩ => show e.val % 32768 = e.val; have := e.isLt; omega
  rw [val_main_v175_apply, val_main_v3_apply, val_main_v2_apply, hi]
  exact hdst e

/-- The gathered array: row `e` is row `src e` of the layer's input. -/
theorem gathered6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v170 (F := Ideal) x0 x1 x2 x3 x4 x5 x6 x7 x8 x9 x10 x11 x12 (ix3 s e c) = (val_main_v159 (F := Ideal) x0 x1 x2 x3 x4 x5 x6 x7 x8 x9 x10 x11 x12) (ix3 s (src e) c) := by
  unfold val_main_v170
  refine (RefRows.gather_rows_apply (C := 32) gather_S64x512x32_S32768x1_S64x32768x32_02_1_n_n_1_1_64132_wf (val_main_v159 (F := Ideal) x0 x1 x2 x3 x4 x5 x6 x7 x8 x9 x10 x11 x12) (val_main_v169 (F := Ideal) x1) s e c).trans ?_
  have hv := src6 x1 src hsrc e
  refine congrArg (fun r : Fin 512 => (val_main_v159 (F := Ideal) x0 x1 x2 x3 x4 x5 x6 x7 x8 x9 x10 x11 x12) (ix3 s r c)) (Fin.ext ?_)
  show min (val_main_v169 (F := Ideal) x1 (ix2 e (0 : Fin 1))).toInt.toNat 511 = (src e).val
  rw [hv, Int.toNat_natCast]
  have := (src e).isLt; omega

/-- The scaled rows: row `e` of the gathered array times the weight of edge `e`. -/
theorem scaled6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (src : Fin 32768 → Fin 512)
    (hsrc : ∀ e : Fin 32768, (x1 (ix2 (0 : Fin 2) e)).toInt = ((src e).val : ℤ)) (s : Fin 64) (e : Fin 32768) (c : Fin 32) :
    val_main_v173 (F := Ideal) x0 x1 x2 x3 x4 x5 x6 x7 x8 x9 x10 x11 x12 (ix3 s e c) = val_main_v29 (F := Ideal) x1 x2 (ix1 e) * (val_main_v159 (F := Ideal) x0 x1 x2 x3 x4 x5 x6 x7 x8 x9 x10 x11 x12) (ix3 s (src e) c) := by
  have hi : idx_main_v163 (idx_main_v171 (idx_main_v172 (ix3 s e c))) = ix1 e := by
    funext a; match a with | ⟨0, _⟩ => rfl
  rw [val_main_v173_apply, val_main_v172_apply, val_main_v171_apply, val_main_v163_apply, hi, gathered6 x0 x1 x2 x3 x4 x5 x6 x7 x8 x9 x10 x11 x12 src hsrc s e c]
  rfl

/-- The scattered array: row `n` is the sum of the scaled rows of the edges that end in `n`. -/
theorem scattered6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (c : Fin 32) :
    val_main_v177 (F := Ideal) x0 x1 x2 x3 x4 x5 x6 x7 x8 x9 x10 x11 x12 (ix3 s n c)
      = ∑ e : Fin 32768, if dst e = n then val_main_v29 (F := Ideal) x1 x2 (ix1 e) * (val_main_v159 (F := Ideal) x0 x1 x2 x3 x4 x5 x6 x7 x8 x9 x10 x11 x12) (ix3 s (src e) c) else 0 := by
  unfold val_main_v177
  refine (RefRows.scatterAdd_rows_apply (C := 32) scatter_S64x512x32_S32768x1_S64x32768x32_02_1_1_1_wf (val_main_v176 (F := Ideal)) (val_main_v175 (F := Ideal) x1)
    (val_main_v173 (F := Ideal) x0 x1 x2 x3 x4 x5 x6 x7 x8 x9 x10 x11 x12) dst (dst6 x1 dst hdst) s n c).trans ?_
  rw [val_main_v176_apply, val_main_v174_apply, val_main_cst_23_apply]
  show Ideal.ofBits .f32 0x00000000#32 + _ = _
  rw [Ideal.ofBits_zero_f32, zero_add]
  refine Finset.sum_congr rfl fun e _ => ?_
  rw [scaled6 x0 x1 x2 x3 x4 x5 x6 x7 x8 x9 x10 x11 x12 src hsrc s e c]

/-- The first product: the input times `W₀`. -/
theorem dotA6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (s : Fin 64) (n : Fin 512) (f : Fin 32) :
    val_main_v162 (F := Ideal) x0 x1 x2 x3 x4 x5 x6 x7 x8 x9 x10 x11 x12 x13 (ix3 s n f) = ∑ k : Fin 32, (val_main_v159 (F := Ideal) x0 x1 x2 x3 x4 x5 x6 x7 x8 x9 x10 x11 x12) (ix3 s n k) * x13 (ix3 (0 : Fin 2) k f) := by
  rw [val_main_v162_apply]
  refine Finset.sum_congr rfl fun k _ => ?_
  have hl : lidx_main_v162 (ix3 s n f) k = ix3 s n k := by
    funext a; match a with | ⟨0, _⟩ => rfl | ⟨1, _⟩ => rfl | ⟨2, _⟩ => rfl
  have hr : idx_main_v160 (idx_main_v161 (ridx_main_v162 (ix3 s n f) k)) = ix3 (0 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v161_apply, val_main_v160_apply, hl, hr]

/-- The second product: the scattered array times `W₁`. -/
theorem dotB6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) (n : Fin 512) (f : Fin 32) :
    val_main_v180 (F := Ideal) x0 x1 x2 x3 x4 x5 x6 x7 x8 x9 x10 x11 x12 x13 (ix3 s n f)
      = ∑ k : Fin 32, (∑ e : Fin 32768, if dst e = n then val_main_v29 (F := Ideal) x1 x2 (ix1 e) * (val_main_v159 (F := Ideal) x0 x1 x2 x3 x4 x5 x6 x7 x8 x9 x10 x11 x12) (ix3 s (src e) k) else 0)
          * x13 (ix3 (1 : Fin 2) k f) := by
  rw [val_main_v180_apply]
  refine Finset.sum_congr rfl fun k _ => ?_
  have hl : lidx_main_v180 (ix3 s n f) k = ix3 s n k := by
    funext a; match a with | ⟨0, _⟩ => rfl | ⟨1, _⟩ => rfl | ⟨2, _⟩ => rfl
  have hr : idx_main_v178 (idx_main_v179 (ridx_main_v180 (ix3 s n f) k)) = ix3 (1 : Fin 2) k f := by
    funext a; refine Fin.ext ?_
    match a with
    | ⟨0, _⟩ => rfl
    | ⟨1, _⟩ => show (k.val * 32 + f.val) / 32 % 32 = k.val; have := k.isLt; have := f.isLt; omega
    | ⟨2, _⟩ => show (k.val * 32 + f.val) % 32 = f.val; have := k.isLt; have := f.isLt; omega
  rw [val_main_v179_apply, val_main_v178_apply, hl, hr, scattered6 x0 x1 x2 x3 x4 x5 x6 x7 x8 x9 x10 x11 x12 src dst hsrc hdst s n k]

/-- LAYER 6 on sample `s`: the reference's array is `h · W₀ + P(h) · W₁ + b` with `P` the propagation edge by edge. -/
theorem layer6 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v184 (F := Ideal) x0 x1 x2 x3 x4 x5 x6 x7 x8 x9 x10 x11 x12 x13 x14 (ix3 s n f))
      = Cert.Cheb.cheb (Cert.Cheb.propS src dst (fun e => val_main_v29 (F := Ideal) x1 x2 (ix1 e)))
          (fun k c f => x13 (ix3 k c f)) (fun f => x14 (ix1 f)) (fun n c => (val_main_v159 (F := Ideal) x0 x1 x2 x3 x4 x5 x6 x7 x8 x9 x10 x11 x12) (ix3 s n c)) := by
  funext n f
  have hb : idx_main_v182 (idx_main_v183 (ix3 s n f)) = ix1 f := by
    funext a; match a with | ⟨0, _⟩ => rfl
  rw [val_main_v184_apply, val_main_v181_apply, val_main_v183_apply, val_main_v182_apply, hb,
    dotA6 x0 x1 x2 x3 x4 x5 x6 x7 x8 x9 x10 x11 x12 x13 s n f, dotB6 x0 x1 x2 x3 x4 x5 x6 x7 x8 x9 x10 x11 x12 x13 src dst hsrc hdst s n f]
  rfl

end Cert.RefNet

end
-- ==== Proof.RefTail.lean ====
/-
  THE END OF THE REFERENCE, read index by index: the 512 × 32 features of each sample are laid out row by row as 16384
  numbers (position `k` holds entry `(k / 32, k % 32)`), and three affine maps `y ↦ y · F + c` follow.
-/
import proofs.«154162_j16277926052608_1_alg».proof.Proof.RefRead
import proofs.«154162_j16277926052608_1_alg».proof.Proof.Net

noncomputable section

open scoped BigOperators

namespace Cert.RefNet

open Cert.ReferenceIdeal Cert.ReferenceIdeal.Gen Cert.ReferenceIdeal.Read Idealize.ShloMosaic Idealize.ShloMosaic.ValueIdx

/-- The reshape [64, 512, 32] → [64, 16384] at `(s, k)` is the entry `(s, k / 32, k % 32)`. -/
theorem flat_apply (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (s : Fin 64) (k : Fin 16384) :
    val_main_v185 (F := Ideal) x0 x1 x2 x3 x4 x5 x6 x7 x8 x9 x10 x11 x12 x13 x14 (ix2 s k)
      = val_main_v184 (F := Ideal) x0 x1 x2 x3 x4 x5 x6 x7 x8 x9 x10 x11 x12 x13 x14 (ix3 s (⟨k.val / 32, by have := k.isLt; omega⟩ : Fin 512) (⟨k.val % 32, Nat.mod_lt _ (by norm_num)⟩ : Fin 32)) := by
  have hi : idx_main_v185 (ix2 s k)
      = ix3 s (⟨k.val / 32, by have := k.isLt; omega⟩ : Fin 512) (⟨k.val % 32, Nat.mod_lt _ (by norm_num)⟩ : Fin 32) := by
    funext a; refine Fin.ext ?_
    match a with
    | ⟨0, _⟩ => show (s.val * 16384 + k.val) / 16384 = s.val; have := k.isLt; omega
    | ⟨1, _⟩ => show (s.val * 16384 + k.val) / 32 % 512 = k.val / 32; have := k.isLt; omega
    | ⟨2, _⟩ => show (s.val * 16384 + k.val) % 32 = k.val % 32; omega
  rw [val_main_v185_apply, hi]

/-- Affine map 1: `y · F + c` on the rows. -/
theorem dense1 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) :
    (fun (s : Fin 64) (j : Fin 256) => val_main_v189 (F := Ideal) x0 x1 x2 x3 x4 x5 x6 x7 x8 x9 x10 x11 x12 x13 x14 x15 x16 (ix2 s j))
      = Cert.Cheb.dense (fun (s : Fin 64) (k : Fin 16384) => val_main_v185 (F := Ideal) x0 x1 x2 x3 x4 x5 x6 x7 x8 x9 x10 x11 x12 x13 x14 (ix2 s k)) (fun k j => x15 (ix2 k j)) (fun j => x16 (ix1 j)) := by
  funext s j
  have hb : idx_main_v187 (idx_main_v188 (ix2 s j)) = ix1 j := by
    funext a; match a with | ⟨0, _⟩ => rfl
  rw [val_main_v189_apply, val_main_v186_apply, val_main_v188_apply, val_main_v187_apply, hb]
  show (∑ k : Fin 16384, _) + _ = (∑ k : Fin 16384, _) + _
  refine congrArg (fun z => z + x16 (ix1 j)) (Finset.sum_congr rfl fun k _ => ?_)
  have hl : lidx_main_v186 (ix2 s j) k = ix2 s k := by
    funext a; match a with | ⟨0, _⟩ => rfl | ⟨1, _⟩ => rfl
  have hr : ridx_main_v186 (ix2 s j) k = ix2 k j := by
    funext a; match a with | ⟨0, _⟩ => rfl | ⟨1, _⟩ => rfl
  rw [hl, hr]

/-- Affine map 2: `y · F + c` on the rows. -/
theorem dense2 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) (x17 : (⟨S256x128, .f32⟩ : BufTy).Contents (Elt Ideal)) (x18 : (⟨S128, .f32⟩ : BufTy).Contents (Elt Ideal)) :
    (fun (s : Fin 64) (j : Fin 128) => val_main_v193 (F := Ideal) x0 x1 x2 x3 x4 x5 x6 x7 x8 x9 x10 x11 x12 x13 x14 x15 x16 x17 x18 (ix2 s j))
      = Cert.Cheb.dense (fun (s : Fin 64) (k : Fin 256) => val_main_v189 (F := Ideal) x0 x1 x2 x3 x4 x5 x6 x7 x8 x9 x10 x11 x12 x13 x14 x15 x16 (ix2 s k)) (fun k j => x17 (ix2 k j)) (fun j => x18 (ix1 j)) := by
  funext s j
  have hb : idx_main_v191 (idx_main_v192 (ix2 s j)) = ix1 j := by
    funext a; match a with | ⟨0, _⟩ => rfl
  rw [val_main_v193_apply, val_main_v190_apply, val_main_v192_apply, val_main_v191_apply, hb]
  show (∑ k : Fin 256, _) + _ = (∑ k : Fin 256, _) + _
  refine congrArg (fun z => z + x18 (ix1 j)) (Finset.sum_congr rfl fun k _ => ?_)
  have hl : lidx_main_v190 (ix2 s j) k = ix2 s k := by
    funext a; match a with | ⟨0, _⟩ => rfl | ⟨1, _⟩ => rfl
  have hr : ridx_main_v190 (ix2 s j) k = ix2 k j := by
    funext a; match a with | ⟨0, _⟩ => rfl | ⟨1, _⟩ => rfl
  rw [hl, hr]

/-- Affine map 3: `y · F + c` on the rows. -/
theorem dense3 (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) (x17 : (⟨S256x128, .f32⟩ : BufTy).Contents (Elt Ideal)) (x18 : (⟨S128, .f32⟩ : BufTy).Contents (Elt Ideal)) (x19 : (⟨S128x2, .f32⟩ : BufTy).Contents (Elt Ideal)) (x20 : (⟨S2, .f32⟩ : BufTy).Contents (Elt Ideal)) :
    (fun (s : Fin 64) (j : Fin 2) => val_main_v197 (F := Ideal) x0 x1 x2 x3 x4 x5 x6 x7 x8 x9 x10 x11 x12 x13 x14 x15 x16 x17 x18 x19 x20 (ix2 s j))
      = Cert.Cheb.dense (fun (s : Fin 64) (k : Fin 128) => val_main_v193 (F := Ideal) x0 x1 x2 x3 x4 x5 x6 x7 x8 x9 x10 x11 x12 x13 x14 x15 x16 x17 x18 (ix2 s k)) (fun k j => x19 (ix2 k j)) (fun j => x20 (ix1 j)) := by
  funext s j
  have hb : idx_main_v195 (idx_main_v196 (ix2 s j)) = ix1 j := by
    funext a; match a with | ⟨0, _⟩ => rfl
  rw [val_main_v197_apply, val_main_v194_apply, val_main_v196_apply, val_main_v195_apply, hb]
  show (∑ k : Fin 128, _) + _ = (∑ k : Fin 128, _) + _
  refine congrArg (fun z => z + x20 (ix1 j)) (Finset.sum_congr rfl fun k _ => ?_)
  have hl : lidx_main_v194 (ix2 s j) k = ix2 s k := by
    funext a; match a with | ⟨0, _⟩ => rfl | ⟨1, _⟩ => rfl
  have hr : ridx_main_v194 (ix2 s j) k = ix2 k j := by
    funext a; match a with | ⟨0, _⟩ => rfl | ⟨1, _⟩ => rfl
  rw [hl, hr]

end Cert.RefNet

end
-- ==== Proof.RefNet.lean ====
/-
  THE REFERENCE IS THE NETWORK: the six layers, the row-by-row flattening and the three affine maps, each read index
  by index, composed into `Cert.Cheb.net` with the propagation taken edge by edge.
-/
import proofs.«154162_j16277926052608_1_alg».proof.Proof.RefLayer1
import proofs.«154162_j16277926052608_1_alg».proof.Proof.RefLayer2
import proofs.«154162_j16277926052608_1_alg».proof.Proof.RefLayer3
import proofs.«154162_j16277926052608_1_alg».proof.Proof.RefLayer4
import proofs.«154162_j16277926052608_1_alg».proof.Proof.RefLayer5
import proofs.«154162_j16277926052608_1_alg».proof.Proof.RefLayer6
import proofs.«154162_j16277926052608_1_alg».proof.Proof.RefTail

noncomputable section

open scoped BigOperators

namespace Cert.RefNet

open Cert.ReferenceIdeal Cert.ReferenceIdeal.Gen Cert.ReferenceIdeal.Read Idealize.ShloMosaic Idealize.ShloMosaic.ValueIdx

/-- The six layers on sample `s`: the array leaving the last layer is the stack of layers applied to the sample's input. -/
theorem stack_eq (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) (x17 : (⟨S256x128, .f32⟩ : BufTy).Contents (Elt Ideal)) (x18 : (⟨S128, .f32⟩ : BufTy).Contents (Elt Ideal)) (x19 : (⟨S128x2, .f32⟩ : BufTy).Contents (Elt Ideal)) (x20 : (⟨S2, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) (s : Fin 64) :
    (fun (n : Fin 512) (f : Fin 32) => val_main_v184 (F := Ideal) x0 x1 x2 x3 x4 x5 x6 x7 x8 x9 x10 x11 x12 x13 x14 (ix3 s n f))
      = Cert.Cheb.stack (Cert.Cheb.propS src dst (fun e => Cert.ReferenceIdeal.Read.val_main_v29 (F := Ideal) x1 x2 (ix1 e))) (Cert.Cheb.paramsOf x3 x4 x5 x6 x7 x8 x9 x10 x11 x12 x13 x14 x15 x16 x17 x18 x19 x20) (fun n c => x0 (ix3 s n c)) := by
  rw [layer6 x0 x1 x2 x3 x4 x5 x6 x7 x8 x9 x10 x11 x12 x13 x14 src dst hsrc hdst s,
    layer5 x0 x1 x2 x3 x4 x5 x6 x7 x8 x9 x10 x11 x12 src dst hsrc hdst s,
    layer4 x0 x1 x2 x3 x4 x5 x6 x7 x8 x9 x10 src dst hsrc hdst s,
    layer3 x0 x1 x2 x3 x4 x5 x6 x7 x8 src dst hsrc hdst s,
    layer2 x0 x1 x2 x3 x4 x5 x6 src dst hsrc hdst s,
    layer1 x0 x1 x2 x3 x4 src dst hsrc hdst s]
  rfl

/-- The flattened features of all samples. -/
theorem flat_eq (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) (x17 : (⟨S256x128, .f32⟩ : BufTy).Contents (Elt Ideal)) (x18 : (⟨S128, .f32⟩ : BufTy).Contents (Elt Ideal)) (x19 : (⟨S128x2, .f32⟩ : BufTy).Contents (Elt Ideal)) (x20 : (⟨S2, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) :
    (fun (s : Fin 64) (k : Fin 16384) => val_main_v185 (F := Ideal) x0 x1 x2 x3 x4 x5 x6 x7 x8 x9 x10 x11 x12 x13 x14 (ix2 s k))
      = Cert.Cheb.flat (fun s => Cert.Cheb.stack (Cert.Cheb.propS src dst (fun e => Cert.ReferenceIdeal.Read.val_main_v29 (F := Ideal) x1 x2 (ix1 e))) (Cert.Cheb.paramsOf x3 x4 x5 x6 x7 x8 x9 x10 x11 x12 x13 x14 x15 x16 x17 x18 x19 x20) (fun n c => x0 (ix3 s n c))) := by
  funext s k
  rw [flat_apply]
  exact congrFun (congrFun (stack_eq x0 x1 x2 x3 x4 x5 x6 x7 x8 x9 x10 x11 x12 x13 x14 x15 x16 x17 x18 x19 x20 src dst hsrc hdst s) (⟨k.val / 32, by have := k.isLt; omega⟩ : Fin 512))
    (⟨k.val % 32, Nat.mod_lt _ (by norm_num)⟩ : Fin 32)

/-- THE REFERENCE'S RESULT is the network with the propagation taken edge by edge, on the edge weights the reference
    computes, the parameters read off the parameter arrays, and the input array. -/
theorem value (x0 : (⟨S64x512x50, .f32⟩ : BufTy).Contents (Elt Ideal)) (x1 : (⟨S2x32768, .i32⟩ : BufTy).Contents (Elt Ideal)) (x2 : (⟨S32768, .f32⟩ : BufTy).Contents (Elt Ideal)) (x3 : (⟨S2x50x32, .f32⟩ : BufTy).Contents (Elt Ideal)) (x4 : (⟨S32, .f32⟩ : BufTy).Contents (Elt Ideal)) (x5 : (⟨S2x32x32, .f32⟩ : BufTy).Contents (Elt Ideal)) (x6 : (⟨S32, .f32⟩ : BufTy).Contents (Elt Ideal)) (x7 : (⟨S2x32x32, .f32⟩ : BufTy).Contents (Elt Ideal)) (x8 : (⟨S32, .f32⟩ : BufTy).Contents (Elt Ideal)) (x9 : (⟨S2x32x32, .f32⟩ : BufTy).Contents (Elt Ideal)) (x10 : (⟨S32, .f32⟩ : BufTy).Contents (Elt Ideal)) (x11 : (⟨S2x32x32, .f32⟩ : BufTy).Contents (Elt Ideal)) (x12 : (⟨S32, .f32⟩ : BufTy).Contents (Elt Ideal)) (x13 : (⟨S2x32x32, .f32⟩ : BufTy).Contents (Elt Ideal)) (x14 : (⟨S32, .f32⟩ : BufTy).Contents (Elt Ideal)) (x15 : (⟨S16384x256, .f32⟩ : BufTy).Contents (Elt Ideal)) (x16 : (⟨S256, .f32⟩ : BufTy).Contents (Elt Ideal)) (x17 : (⟨S256x128, .f32⟩ : BufTy).Contents (Elt Ideal)) (x18 : (⟨S128, .f32⟩ : BufTy).Contents (Elt Ideal)) (x19 : (⟨S128x2, .f32⟩ : BufTy).Contents (Elt Ideal)) (x20 : (⟨S2, .f32⟩ : BufTy).Contents (Elt Ideal)) (src dst : Fin 32768 → Fin 512)
    (hsrc : ∀ e : Fin 32768, (x1 (ix2 (0 : Fin 2) e)).toInt = ((src e).val : ℤ))
    (hdst : ∀ e : Fin 32768, (x1 (ix2 (1 : Fin 2) e)).toInt = ((dst e).val : ℤ)) :
    Cert.ReferenceIdeal.Read.val_main_v197 (F := Ideal) x0 x1 x2 x3 x4 x5 x6 x7 x8 x9 x10 x11 x12 x13 x14 x15 x16 x17 x18 x19 x20
      = fun i => Cert.Cheb.net (Cert.Cheb.propS src dst (fun e => Cert.ReferenceIdeal.Read.val_main_v29 (F := Ideal) x1 x2 (ix1 e)))
          (Cert.Cheb.paramsOf x3 x4 x5 x6 x7 x8 x9 x10 x11 x12 x13 x14 x15 x16 x17 x18 x19 x20) (fun s n c => x0 (ix3 s n c)) (i 0) (i 1) := by
  funext i
  obtain ⟨s, j, rfl⟩ : ∃ (s : Fin 64) (j : Fin 2), i = ix2 s j := ⟨i 0, i 1, eq_ix2 i⟩
  have h3 := congrFun (congrFun (dense3 x0 x1 x2 x3 x4 x5 x6 x7 x8 x9 x10 x11 x12 x13 x14 x15 x16 x17 x18 x19 x20) s) j
  rw [dense2 x0 x1 x2 x3 x4 x5 x6 x7 x8 x9 x10 x11 x12 x13 x14 x15 x16 x17 x18, dense1 x0 x1 x2 x3 x4 x5 x6 x7 x8 x9 x10 x11 x12 x13 x14 x15 x16, flat_eq x0 x1 x2 x3 x4 x5 x6 x7 x8 x9 x10 x11 x12 x13 x14 x15 x16 x17 x18 x19 x20 src dst hsrc hdst] at h3
  exact h3

end Cert.RefNet

end
-- ==== Proof.Bridge.lean ====
/-
  THE NETWORK THROUGH THE MATRIX IS THE REFERENCE'S RESULT, under the precondition.

  The precondition makes every float input real and every edge endpoint a node number. Then the edge weights are
  real, a layer keeps real features real, and propagating through the matrix of the edge list is propagating edge by
  edge; so the network computed through the matrix is the network computed edge by edge, which is what the reference's
  operations compute.
-/
import proofs.«154162_j16277926052608_1_alg».proof.Proof.Net
import proofs.«154162_j16277926052608_1_alg».proof.Proof.Dense
import proofs.«154162_j16277926052608_1_alg».proof.Proof.NrmFin
import proofs.«154162_j16277926052608_1_alg».proof.Proof.PreFacts
import proofs.«154162_j16277926052608_1_alg».proof.Proof.RefNet

noncomputable section

namespace Cert.Bridge

open Idealize.ShloMosaic Idealize.ShloMosaic.ValueIdx Cert.LibFinite Cert.Cheb

/-- Under the precondition there are node-valued sources and destinations of the edges, and the network that
    propagates through their matrix, with the reference's edge weights, is the reference's result. -/
theorem net_is_reference [Cert.Pre_finite_inputs.Facts]
    (x0 : (⟨Cert.ReferenceIdeal.S64x512x50, .f32⟩ : BufTy).Contents (Elt Ideal))
    (x1 : (⟨Cert.ReferenceIdeal.S2x32768, .i32⟩ : BufTy).Contents (Elt Ideal))
    (x2 : (⟨Cert.ReferenceIdeal.S32768, .f32⟩ : BufTy).Contents (Elt Ideal))
    (x3 : (⟨Cert.ReferenceIdeal.S2x50x32, .f32⟩ : BufTy).Contents (Elt Ideal))
    (x4 : (⟨Cert.ReferenceIdeal.S32, .f32⟩ : BufTy).Contents (Elt Ideal))
    (x5 : (⟨Cert.ReferenceIdeal.S2x32x32, .f32⟩ : BufTy).Contents (Elt Ideal))
    (x6 : (⟨Cert.ReferenceIdeal.S32, .f32⟩ : BufTy).Contents (Elt Ideal))
    (x7 : (⟨Cert.ReferenceIdeal.S2x32x32, .f32⟩ : BufTy).Contents (Elt Ideal))
    (x8 : (⟨Cert.ReferenceIdeal.S32, .f32⟩ : BufTy).Contents (Elt Ideal))
    (x9 : (⟨Cert.ReferenceIdeal.S2x32x32, .f32⟩ : BufTy).Contents (Elt Ideal))
    (x10 : (⟨Cert.ReferenceIdeal.S32, .f32⟩ : BufTy).Contents (Elt Ideal))
    (x11 : (⟨Cert.ReferenceIdeal.S2x32x32, .f32⟩ : BufTy).Contents (Elt Ideal))
    (x12 : (⟨Cert.ReferenceIdeal.S32, .f32⟩ : BufTy).Contents (Elt Ideal))
    (x13 : (⟨Cert.ReferenceIdeal.S2x32x32, .f32⟩ : BufTy).Contents (Elt Ideal))
    (x14 : (⟨Cert.ReferenceIdeal.S32, .f32⟩ : BufTy).Contents (Elt Ideal))
    (x15 : (⟨Cert.ReferenceIdeal.S16384x256, .f32⟩ : BufTy).Contents (Elt Ideal))
    (x16 : (⟨Cert.ReferenceIdeal.S256, .f32⟩ : BufTy).Contents (Elt Ideal))
    (x17 : (⟨Cert.ReferenceIdeal.S256x128, .f32⟩ : BufTy).Contents (Elt Ideal))
    (x18 : (⟨Cert.ReferenceIdeal.S128, .f32⟩ : BufTy).Contents (Elt Ideal))
    (x19 : (⟨Cert.ReferenceIdeal.S128x2, .f32⟩ : BufTy).Contents (Elt Ideal))
    (x20 : (⟨Cert.ReferenceIdeal.S2, .f32⟩ : BufTy).Contents (Elt Ideal))
    (h : Cert.Pre_finite_inputs.fn (F := Ideal) x0 x1 x2 x3 x4 x5 x6 x7 x8 x9 x10 x11 x12 x13 x14 x15 x16 x17 x18 x19 x20 = fun _ => 1#1) :
    ∃ src dst : Fin 32768 → Fin 512,
      (∀ e : Fin 32768, (x1 (ix2 (0 : Fin 2) e)).toInt = ((src e).val : ℤ))
      ∧ (∀ e : Fin 32768, (x1 (ix2 (1 : Fin 2) e)).toInt = ((dst e).val : ℤ))
      ∧ (fun i : Cert.ReferenceIdeal.S64x2.Idx => net (propD (lap src dst (fun e => Cert.ReferenceIdeal.Read.val_main_v29 (F := Ideal) x1 x2 (ix1 e))))
          (paramsOf x3 x4 x5 x6 x7 x8 x9 x10 x11 x12 x13 x14 x15 x16 x17 x18 x19 x20) (fun s n c => x0 (ix3 s n c)) (i 0) (i 1))
        = Cert.ReferenceIdeal.Read.val_main_v197 (F := Ideal) x0 x1 x2 x3 x4 x5 x6 x7 x8 x9 x10 x11 x12 x13 x14 x15 x16 x17 x18 x19 x20 := by
  have d := Cert.PreFacts.decode x0 x1 x2 x3 x4 x5 x6 x7 x8 x9 x10 x11 x12 x13 x14 x15 x16 x17 x18 x19 x20 h
  obtain ⟨src, dst, hsrc, hdst⟩ := Cert.PreFacts.endpoints x1 d.ge d.lt
  refine ⟨src, dst, hsrc, hdst, ?_⟩
  have hn : ∀ e : Fin 32768, IsFin (Cert.ReferenceIdeal.Read.val_main_v29 (F := Ideal) x1 x2 (ix1 e)) :=
    fun e => Cert.NrmFin.nrm_fin x1 x2 d.f2 (ix1 e)
  have hθ : (paramsOf x3 x4 x5 x6 x7 x8 x9 x10 x11 x12 x13 x14 x15 x16 x17 x18 x19 x20).ConvFin :=
    ⟨fun k c f => d.f3 _, fun f => d.f4 _, fun k c f => d.f5 _, fun f => d.f6 _, fun k c f => d.f7 _, fun f => d.f8 _,
      fun k c f => d.f9 _, fun f => d.f10 _, fun k c f => d.f11 _, fun f => d.f12 _, fun k c f => d.f13 _, fun f => d.f14 _⟩
  have hx : ∀ s : Fin 64, Fin2 (fun n c => x0 (ix3 s n c)) := fun s n c => d.f0 _
  rw [net_eq src dst hn hθ hx]
  exact (Cert.RefNet.value x0 x1 x2 x3 x4 x5 x6 x7 x8 x9 x10 x11 x12 x13 x14 x15 x16 x17 x18 x19 x20 src dst hsrc hdst).symm

end Cert.Bridge

end
-- ==== Proof.lean ====
/-
  The five claims about one graph network written twice.

  Both programs compute six graph-convolution layers on 64 samples of 512 nodes and then three affine maps. The
  kernel builds the 512 × 512 matrix of the weighted edge list once and multiplies by it in every layer; the reference
  propagates edge by edge. The three frames are the generated ones (the reference's is its run with the result
  dropped); nothing was rewritten by the ideal pass, so the kernel's idealization has nothing to preserve;
  and the two results are equal because, the inputs being real and the edge endpoints node numbers, multiplying by the
  matrix of the edge list is propagating edge by edge (Proof/Dense.lean), the kernel's regions compute the network
  through the matrix (Proof/KerStack.lean, Proof/KerHead.lean) and the reference's operations compute it edge by
  edge (Proof/RefNet.lean).
-/
import proofs.«154162_j16277926052608_1_alg».proof.Defs
import proofs.«154162_j16277926052608_1_alg».proof.Proof.Gen.Kernel
import proofs.«154162_j16277926052608_1_alg».proof.Proof.Gen.Kernel.Frame
import proofs.«154162_j16277926052608_1_alg».proof.Proof.Gen.KernelIdeal
import proofs.«154162_j16277926052608_1_alg».proof.Proof.Gen.KernelIdeal.Frame
import proofs.«154162_j16277926052608_1_alg».proof.Proof.Gen.ReferenceIdeal
import proofs.«154162_j16277926052608_1_alg».proof.Proof.RefRun
import proofs.«154162_j16277926052608_1_alg».proof.Proof.RefRead
import proofs.«154162_j16277926052608_1_alg».proof.Proof.RefReadEq
import proofs.«154162_j16277926052608_1_alg».proof.Proof.Gen.Pre_finite_inputs
import proofs.«154162_j16277926052608_1_alg».proof.Proof.KerRun
import proofs.«154162_j16277926052608_1_alg».proof.Proof.KerHead
import proofs.«154162_j16277926052608_1_alg».proof.Proof.KerStack
import proofs.«154162_j16277926052608_1_alg».proof.Proof.Bridge
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The reference's result is a function of the 21 argument arrays: equal arguments, equal results. -/
theorem result_congr (y0 : (⟨Cert.ReferenceIdeal.S64x512x50, .f32⟩ : BufTy).Contents (Elt Ideal)) (y1 : (⟨Cert.ReferenceIdeal.S2x32768, .i32⟩ : BufTy).Contents (Elt Ideal)) (y2 : (⟨Cert.ReferenceIdeal.S32768, .f32⟩ : BufTy).Contents (Elt Ideal)) (y3 : (⟨Cert.ReferenceIdeal.S2x50x32, .f32⟩ : BufTy).Contents (Elt Ideal)) (y4 : (⟨Cert.ReferenceIdeal.S32, .f32⟩ : BufTy).Contents (Elt Ideal)) (y5 : (⟨Cert.ReferenceIdeal.S2x32x32, .f32⟩ : BufTy).Contents (Elt Ideal)) (y6 : (⟨Cert.ReferenceIdeal.S32, .f32⟩ : BufTy).Contents (Elt Ideal)) (y7 : (⟨Cert.ReferenceIdeal.S2x32x32, .f32⟩ : BufTy).Contents (Elt Ideal)) (y8 : (⟨Cert.ReferenceIdeal.S32, .f32⟩ : BufTy).Contents (Elt Ideal)) (y9 : (⟨Cert.ReferenceIdeal.S2x32x32, .f32⟩ : BufTy).Contents (Elt Ideal)) (y10 : (⟨Cert.ReferenceIdeal.S32, .f32⟩ : BufTy).Contents (Elt Ideal)) (y11 : (⟨Cert.ReferenceIdeal.S2x32x32, .f32⟩ : BufTy).Contents (Elt Ideal)) (y12 : (⟨Cert.ReferenceIdeal.S32, .f32⟩ : BufTy).Contents (Elt Ideal)) (y13 : (⟨Cert.ReferenceIdeal.S2x32x32, .f32⟩ : BufTy).Contents (Elt Ideal)) (y14 : (⟨Cert.ReferenceIdeal.S32, .f32⟩ : BufTy).Contents (Elt Ideal)) (y15 : (⟨Cert.ReferenceIdeal.S16384x256, .f32⟩ : BufTy).Contents (Elt Ideal)) (y16 : (⟨Cert.ReferenceIdeal.S256, .f32⟩ : BufTy).Contents (Elt Ideal)) (y17 : (⟨Cert.ReferenceIdeal.S256x128, .f32⟩ : BufTy).Contents (Elt Ideal)) (y18 : (⟨Cert.ReferenceIdeal.S128, .f32⟩ : BufTy).Contents (Elt Ideal)) (y19 : (⟨Cert.ReferenceIdeal.S128x2, .f32⟩ : BufTy).Contents (Elt Ideal)) (y20 : (⟨Cert.ReferenceIdeal.S2, .f32⟩ : BufTy).Contents (Elt Ideal))
    (z0 : (⟨Cert.ReferenceIdeal.S64x512x50, .f32⟩ : BufTy).Contents (Elt Ideal)) (z1 : (⟨Cert.ReferenceIdeal.S2x32768, .i32⟩ : BufTy).Contents (Elt Ideal)) (z2 : (⟨Cert.ReferenceIdeal.S32768, .f32⟩ : BufTy).Contents (Elt Ideal)) (z3 : (⟨Cert.ReferenceIdeal.S2x50x32, .f32⟩ : BufTy).Contents (Elt Ideal)) (z4 : (⟨Cert.ReferenceIdeal.S32, .f32⟩ : BufTy).Contents (Elt Ideal)) (z5 : (⟨Cert.ReferenceIdeal.S2x32x32, .f32⟩ : BufTy).Contents (Elt Ideal)) (z6 : (⟨Cert.ReferenceIdeal.S32, .f32⟩ : BufTy).Contents (Elt Ideal)) (z7 : (⟨Cert.ReferenceIdeal.S2x32x32, .f32⟩ : BufTy).Contents (Elt Ideal)) (z8 : (⟨Cert.ReferenceIdeal.S32, .f32⟩ : BufTy).Contents (Elt Ideal)) (z9 : (⟨Cert.ReferenceIdeal.S2x32x32, .f32⟩ : BufTy).Contents (Elt Ideal)) (z10 : (⟨Cert.ReferenceIdeal.S32, .f32⟩ : BufTy).Contents (Elt Ideal)) (z11 : (⟨Cert.ReferenceIdeal.S2x32x32, .f32⟩ : BufTy).Contents (Elt Ideal)) (z12 : (⟨Cert.ReferenceIdeal.S32, .f32⟩ : BufTy).Contents (Elt Ideal)) (z13 : (⟨Cert.ReferenceIdeal.S2x32x32, .f32⟩ : BufTy).Contents (Elt Ideal)) (z14 : (⟨Cert.ReferenceIdeal.S32, .f32⟩ : BufTy).Contents (Elt Ideal)) (z15 : (⟨Cert.ReferenceIdeal.S16384x256, .f32⟩ : BufTy).Contents (Elt Ideal)) (z16 : (⟨Cert.ReferenceIdeal.S256, .f32⟩ : BufTy).Contents (Elt Ideal)) (z17 : (⟨Cert.ReferenceIdeal.S256x128, .f32⟩ : BufTy).Contents (Elt Ideal)) (z18 : (⟨Cert.ReferenceIdeal.S128, .f32⟩ : BufTy).Contents (Elt Ideal)) (z19 : (⟨Cert.ReferenceIdeal.S128x2, .f32⟩ : BufTy).Contents (Elt Ideal)) (z20 : (⟨Cert.ReferenceIdeal.S2, .f32⟩ : BufTy).Contents (Elt Ideal))
    (h0 : y0 = z0) (h1 : y1 = z1) (h2 : y2 = z2) (h3 : y3 = z3) (h4 : y4 = z4) (h5 : y5 = z5) (h6 : y6 = z6) (h7 : y7 = z7) (h8 : y8 = z8) (h9 : y9 = z9) (h10 : y10 = z10) (h11 : y11 = z11) (h12 : y12 = z12) (h13 : y13 = z13) (h14 : y14 = z14) (h15 : y15 = z15) (h16 : y16 = z16) (h17 : y17 = z17) (h18 : y18 = z18) (h19 : y19 = z19) (h20 : y20 = z20) :
    Cert.ReferenceIdeal.Read.val_main_v197 (F := Ideal) y0 y1 y2 y3 y4 y5 y6 y7 y8 y9 y10 y11 y12 y13 y14 y15 y16 y17 y18 y19 y20
      = Cert.ReferenceIdeal.Read.val_main_v197 (F := Ideal) z0 z1 z2 z3 z4 z5 z6 z7 z8 z9 z10 z11 z12 z13 z14 z15 z16 z17 z18 z19 z20 := by
  subst h0 h1 h2 h3 h4 h5 h6 h7 h8 h9 h10 h11 h12 h13 h14 h15 h16 h17 h18 h19 h20
  rfl

/-- From memories that agree on the arguments both programs end at the reference's result: the kernel's second
    region holds the three affine maps of the flattened first region, the first region the six layers through the
    matrix, and under the precondition that network is the reference's term. -/
theorem algebraic : Cert.algebraic_KernelIdeal_ReferenceIdeal := by
  intro m ρ m' ρ' hpre hagree
  refine ⟨fun c => Cert.ReferenceIdeal.Read.val_main_v197 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run (Cert.KernelIdeal.defs (F := Ideal)) _ _).mono (fun r h c => ⟨(h c).1.trans ?_, (h c).2⟩)
      (Cert.KerHead.run_value m ρ)
    obtain ⟨src, dst, hsrc, hdst, hnet⟩ := Cert.Bridge.net_is_reference _ _ _ _ _ _ _ _ _ _ _ _ _ _ _ _ _ _ _ _ _ (hpre c)
    have h0 := Cert.KerStack.region0 m ρ c src dst hsrc hdst
    rw [Cert.KerStack.nrm_eq m ρ c] at h0
    rw [Cert.KerHead.region1 m ρ c (fun s n f => Cert.Cheb.stack (Cert.Cheb.propD (Cert.Cheb.lap src dst
      (fun e => Cert.ReferenceIdeal.Read.val_main_v29 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ValueIdx.ix1 e))))
      (Cert.KerHead.θof m c) (fun n k => (m ((c.tc : Thread Cert.KernelIdeal.nD Cert.KernelIdeal.τ).loc Cert.KernelIdeal.main_arg0)) (ValueIdx.ix3 s n k)) n f) h0]
    exact hnet
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20⟩ := hagree c
    exact (Cert.ReferenceIdeal.Read.val_main_v197_eq (F := Ideal) m' c).trans
      (result_congr _ _ _ _ _ _ _ _ _ _ _ _ _ _ _ _ _ _ _ _ _ _ _ _ _ _ _ _ _ _ _ _ _ _ _ _ _ _ _ _ _ _
        e0 e1 e2 e3 e4 e5 e6 e7 e8 e9 e10 e11 e12 e13 e14 e15 e16 e17 e18 e19 e20)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
